-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x4096x1024 .f32) (main_arg1 : FVec F S1024x64 .f32) (main_arg2 : FVec F S1024x64 .f32) (main_arg3 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x4096x1024 : Shape := ⟨3, ![4, 4096, 1024]⟩
abbrev S1024x64 : Shape := ⟨2, ![1024, 64]⟩
abbrev S1024x192 : Shape := ⟨2, ![1024, 192]⟩
abbrev S16384x1024 : Shape := ⟨2, ![16384, 1024]⟩
abbrev S16384x192 : Shape := ⟨2, ![16384, 192]⟩
abbrev S2048x1024 : Shape := ⟨2, ![2048, 1024]⟩
abbrev S2048x192 : Shape := ⟨2, ![2048, 192]⟩
abbrev S16384x64 : Shape := ⟨2, ![16384, 64]⟩
abbrev S4x4096x64 : Shape := ⟨3, ![4, 4096, 64]⟩
abbrev S1x1024x64 : Shape := ⟨3, ![1, 1024, 64]⟩
abbrev S1024x1 : Shape := ⟨2, ![1024, 1]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S16384x1024, .f32⟩
  | .hbm, ⟨6, _⟩ => ⟨S16384x192, .bf16⟩
  | .hbm, ⟨7, _⟩ => ⟨S16384x64, .bf16⟩
  | .hbm, ⟨8, _⟩ => ⟨S16384x64, .bf16⟩
  | .hbm, ⟨9, _⟩ => ⟨S16384x64, .bf16⟩
  | .hbm, ⟨10, _⟩ => ⟨S4x4096x64, .bf16⟩
  | .hbm, ⟨11, _⟩ => ⟨S4x4096x64, .bf16⟩
  | .hbm, ⟨12, _⟩ => ⟨S4x4096x64, .bf16⟩
  | .hbm, ⟨13, _⟩ => ⟨S4x4096x64, .f32⟩
  | .local _ .vmem, ⟨0, _⟩ => ⟨S2048x1024, .f32⟩
  | .local _ .vmem, ⟨1, _⟩ => ⟨S2048x1024, .f32⟩
  | .local _ .vmem, ⟨2, _⟩ => ⟨S1024x192, .f32⟩
  | .local _ .vmem, ⟨3, _⟩ => ⟨S2048x192, .bf16⟩
  | .local _ .vmem, ⟨4, _⟩ => ⟨S2048x192, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .f32⟩
  | .local _ .vmem, ⟨12, _⟩ => ⟨S1x1024x64, .f32⟩
  | .local _ .vmem, ⟨13, _⟩ => ⟨S1024x1, .f32⟩
  | .local _ .vmem, ⟨14, _⟩ => ⟨S1024x1, .f32⟩
  | .local _ .vmem, ⟨15, _⟩ => ⟨S1024x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond4 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x64_S1024x64_S1024x64_S1024x192_d1 : Shape.Concatenates [S1024x64, S1024x64, S1024x64] S1024x192 1
  shapeCasts_S4x4096x1024_S16384x1024 : S4x4096x1024.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  inb_S2048x192_S2048x192_0_0 : ∀ a, (![0, 0] : Fin 2 → Nat) a + S2048x192.size a ≤ S2048x192.size a
  h_S2048x192 : 0 < S2048x192.numel
  packedbf16_S2048x192_S2048x192_0_0 : (Rect.unit (s := S2048x192) ![0, 0] S2048x192.size inb_S2048x192_S2048x192_0_0).PackedRows (EltTy.packing .bf16)
  slices_S16384x192_S16384x64_0_0 : S16384x192.Slices ![0, 0] S16384x64
  slices_S16384x192_S16384x64_0_64 : S16384x192.Slices ![0, 64] S16384x64
  slices_S16384x192_S16384x64_0_128 : S16384x192.Slices ![0, 128] S16384x64
  shapeCasts_S16384x64_S4x4096x64 : S16384x64.ShapeCasts S4x4096x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  iota_S1024x1_d0_w32 : S1024x1.Iotas .tc 32 [0]
  iota_S1x1024_d1_w32 : S1x1024.Iotas .tc 32 [1]
  broadcasts_S1x1024_S1024x1024 : S1x1024.Broadcasts S1024x1024
  shapeCasts_S1024x64_S1x1024x64 : S1024x64.ShapeCasts S1x1024x64
  dot_S2048x1024_S1024x192_S2048x192_1_0_0_1_n_n_wf : DotDims.WF S2048x1024 S1024x192 S2048x192 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x192.size a ≤ S16384x192.size a
  hwx0_2 : ∀ i : grid0.Coords, EltTy.bits .bf16 = 32 ∨ (Rect.block (s := S16384x192) S2048x192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4x4096x4096, .i1⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.LibLogShift.lean ====
/-
  The shift law behind a log-domain normalisation, on the extended reals.

  Fix a finite family `L n` of extended reals, none of them `+∞` (think `L n = log a n` of real numbers `a n`:
  a real number's logarithm is a real number or `-∞`). Write `M` for the family's maximum (the fold of `max`
  from `-∞`), `e n = exp (L n - M)` for the shifted exponentials, `ls = log (∑ n, e n)`, and
  `lw n = (L n - M) - ls` for the normalised logarithms. Two programs may carry the normaliser differently:
  one keeps `e n` and the offset `M - (ls + M)`; the other recomputes the maximum `w` of the `lw n` and
  uses `exp (lw n - w)` and the offset `w`. The law says these are the same numbers:

      w = M - (ls + M)        and        exp (lw n - w) = e n   for every n.

  There are two cases. If `M` is a real number `m`, some `L n` equals `m`, every shifted term `L n - M` is
  `≤ 0` (a real number or `-∞`) and one of them is `0`; so `∑ e` is a real number `≥ 1`, `ls` is a real number,
  the maximum of the `lw n` is `0 - ls`, and everything is arithmetic of real numbers (with `-∞` absorbing).
  If `M = -∞`, every `L n` is `-∞`; with the conventions `-∞ - (-∞) = -∞`, `exp (-∞) = 0`, `log 0 = -∞` both
  sides are `-∞` and `0`. (`M = +∞` is excluded by the hypothesis, and is where the law would fail.)
-/
import Idealize.ShloMosaic.PureOps.Ideal
import Mathlib.Data.Finset.Fold

noncomputable section

namespace Cert.LogShift

open Idealize.ShloMosaic

variable {ι : Type} [Fintype ι]

/-- The maximum of a finite family as both programs compute it: the fold of `max` from `-∞`. -/
def cmax (L : ι → EReal) : EReal := (Finset.univ : Finset ι).fold max ⊥ L

theorem le_cmax (L : ι → EReal) (n : ι) : L n ≤ cmax L :=
  (Finset.le_fold_max (L n)).mpr (Or.inr ⟨n, Finset.mem_univ n, le_rfl⟩)

theorem cmax_le {L : ι → EReal} {b : EReal} (h : ∀ n, L n ≤ b) : cmax L ≤ b :=
  (Finset.fold_max_le b).mpr ⟨bot_le, fun n _ => h n⟩

/-- A maximum that is not `-∞` is attained. -/
theorem exists_eq_cmax {L : ι → EReal} (h : cmax L ≠ ⊥) : ∃ n, L n = cmax L := by
  rcases (Finset.le_fold_max (cmax L)).mp (le_refl (cmax L)) with h0 | ⟨n, -, hn⟩
  · exact absurd (le_bot_iff.mp h0) h
  · exact ⟨n, le_antisymm (le_cmax L n) hn⟩

theorem cmax_eq_bot {L : ι → EReal} (h : ∀ n, L n = ⊥) : cmax L = ⊥ :=
  le_bot_iff.mp (cmax_le fun n => (h n).le)

theorem eq_bot_of_cmax_eq_bot {L : ι → EReal} (h : cmax L = ⊥) (n : ι) : L n = ⊥ :=
  le_bot_iff.mp (h ▸ le_cmax L n)

theorem cmax_ne_top {L : ι → EReal} (h : ∀ n, L n ≠ ⊤) : cmax L ≠ ⊤ := by
  intro e
  rcases (Finset.le_fold_max ⊤).mp (le_of_eq e.symm) with h0 | ⟨n, -, hn⟩
  · exact absurd (top_le_iff.mp h0) (by decide)
  · exact h n (top_le_iff.mp hn)

/-- A fold of `max` that starts from `-∞` is the family's maximum. -/
theorem fold_eq_cmax {N : ℕ} (f g : Fin N → EReal) (b : EReal) (hb : b = ⊥) (h : ∀ n, f n = g n) :
    (Finset.univ : Finset (Fin N)).fold max b f = cmax g := by
  subst hb
  exact congrArg (fun u => (Finset.univ : Finset (Fin N)).fold max ⊥ u) (funext h)

/-- The f32 word `0xFF800000` denotes `-∞`. -/
theorem neg_inf : Ideal.ofBits .f32 0xFF800000#32 = (⊥ : EReal) := by
  simp [Ideal.ofBits, Ideal.ieee]

/-- A finite sum of real numbers, taken in the extended reals, is the real sum. -/
theorem coe_sum (s : Finset ι) (f : ι → ℝ) : (∑ n ∈ s, (f n : EReal)) = ((∑ n ∈ s, f n : ℝ) : EReal) := by
  classical
  induction s using Finset.induction_on with
  | empty => simp
  | insert a s ha ih => rw [Finset.sum_insert ha, Finset.sum_insert ha, ih, EReal.coe_add]

/-- The logarithm of a number other than `+∞` is not `+∞`. -/
theorem log_ne_top {a : EReal} (h : a ≠ ⊤) : Ideal.log a ≠ ⊤ := by
  induction a using EReal.rec with
  | bot => simp
  | top => exact absurd rfl h
  | coe r =>
    rw [Ideal.log_coe]
    split
    · decide
    · exact EReal.coe_ne_top _

/-- THE SHIFT LAW (the file's header). -/
theorem shift_law (L : ι → EReal) (hL : ∀ n, L n ≠ ⊤) :
    cmax (fun n => L n - cmax L - Ideal.log (∑ n, Ideal.exp (L n - cmax L)))
        = cmax L - (Ideal.log (∑ n, Ideal.exp (L n - cmax L)) + cmax L)
      ∧ ∀ n, Ideal.exp (L n - cmax L - Ideal.log (∑ n, Ideal.exp (L n - cmax L))
            - cmax (fun n => L n - cmax L - Ideal.log (∑ n, Ideal.exp (L n - cmax L))))
          = Ideal.exp (L n - cmax L) := by
  have hM := cmax_ne_top hL
  generalize hMd : cmax L = M at hM ⊢
  induction M using EReal.rec with
  | top => exact absurd rfl hM
  | bot =>
    -- every term is -∞
    have hb : ∀ n, L n = ⊥ := eq_bot_of_cmax_eq_bot hMd
    have hsh : ∀ n, L n - ⊥ = ⊥ := fun n => by rw [hb n]; rfl
    simp only [hsh, Ideal.exp_bot, Finset.sum_const_zero]
    have hl0 : Ideal.log 0 = ⊥ := by
      rw [show (0 : EReal) = ((0 : ℝ) : EReal) from rfl, Ideal.log_coe, if_pos le_rfl]
    rw [hl0]
    have hbb : (⊥ : EReal) - ⊥ = ⊥ := rfl
    have hc : cmax (fun _ : ι => (⊥ : EReal) - ⊥) = ⊥ := cmax_eq_bot fun _ => hbb
    rw [hc]
    refine ⟨?_, fun n => ?_⟩
    · simp [hbb]
    · rw [hbb, hbb, Ideal.exp_bot]
  | coe m =>
    -- the maximum is a real number m, attained at some n₀
    obtain ⟨n₀, hn₀⟩ : ∃ n, L n = (m : EReal) := by
      have := exists_eq_cmax (L := L) (by rw [hMd]; exact EReal.coe_ne_bot m)
      rwa [hMd] at this
    have hle : ∀ n, L n ≤ (m : EReal) := fun n => hMd ▸ le_cmax L n
    -- each shifted term is -∞ or a real number ≤ 0; its exponential is a real number in [0, 1]
    have hsh : ∀ n, L n - (m : EReal) = ⊥ ∨ ∃ s : ℝ, s ≤ 0 ∧ L n - (m : EReal) = (s : EReal) := by
      intro n
      have h1 := hL n; have h2 := hle n
      induction hLn : L n using EReal.rec with
      | bot => exact Or.inl rfl
      | top => exact absurd hLn h1
      | coe l =>
        rw [hLn] at h2
        exact Or.inr ⟨l - m, by have := EReal.coe_le_coe_iff.mp h2; linarith, (EReal.coe_sub l m).symm⟩
    have hex : ∀ n, ∃ r : ℝ, 0 ≤ r ∧ Ideal.exp (L n - (m : EReal)) = (r : EReal) := by
      intro n
      rcases hsh n with h | ⟨s, -, h⟩
      · exact ⟨0, le_rfl, by rw [h, Ideal.exp_bot]; rfl⟩
      · exact ⟨Real.exp s, (Real.exp_pos s).le, by rw [h, Ideal.exp_coe]⟩
    choose er her0 her using hex
    have hsum : (∑ n, Ideal.exp (L n - (m : EReal))) = ((∑ n, er n : ℝ) : EReal) := by
      rw [← coe_sum]; exact Finset.sum_congr rfl fun n _ => her n
    have her1 : er n₀ = 1 := by
      have := her n₀
      rw [hn₀, ← EReal.coe_sub, sub_self, Ideal.exp_coe, Real.exp_zero] at this
      exact (EReal.coe_eq_coe_iff.mp this).symm
    have hSpos : 0 < ∑ n, er n :=
      lt_of_lt_of_le (by rw [her1]; exact one_pos)
        (Finset.single_le_sum (f := er) (fun n _ => her0 n) (Finset.mem_univ n₀))
    have hls : Ideal.log (∑ n, Ideal.exp (L n - (m : EReal))) = ((Real.log (∑ n, er n) : ℝ) : EReal) := by
      rw [hsum, Ideal.log_coe, if_neg (not_le.mpr hSpos)]
    rw [hls]
    generalize Real.log (∑ n, er n) = lam
    -- the recomputed maximum is 0 - ls
    have hw : cmax (fun n => L n - (m : EReal) - (lam : EReal)) = ((-lam : ℝ) : EReal) := by
      apply le_antisymm
      · apply cmax_le
        intro n
        rcases hsh n with h | ⟨s, hs, h⟩
        · rw [h]; exact bot_le
        · rw [h, ← EReal.coe_sub]; exact EReal.coe_le_coe_iff.mpr (by linarith)
      · have := le_cmax (fun n => L n - (m : EReal) - (lam : EReal)) n₀
        refine le_trans (le_of_eq ?_) this
        show _ = L n₀ - (m : EReal) - (lam : EReal)
        rw [hn₀, ← EReal.coe_sub, ← EReal.coe_sub]; congr 1; ring
    rw [hw]
    refine ⟨?_, fun n => ?_⟩
    · rw [← EReal.coe_add, ← EReal.coe_sub]; congr 1; ring
    · rcases hsh n with h | ⟨s, -, h⟩
      · rw [h]; rfl
      · rw [h, ← EReal.coe_sub, ← EReal.coe_sub]; congr 2; ring

/-! ## One entry of a log-domain matrix product, written both ways

  Entry `(b, k)` of the product depends on row `b` of the left matrix (`x n`) and column `k` of the right one
  (`a n`). With `L n = log (a n)`: both programs compute `log (∑ n, exp (x n - max x) · R n) + max x + w`; one takes
  `R n = exp (L n - M)` and `w = M - (ls + M)`, the other `R n = exp (lw n - max lw)` and `w = max lw`. -/

/-- `log ∑ exp` of the family shifted by its maximum. -/
def lse (L : ι → EReal) : EReal := Ideal.log (∑ n, Ideal.exp (L n - cmax L))

/-- The normalised logarithms `(L n - M) - ls`. -/
def lw (L : ι → EReal) (n : ι) : EReal := L n - cmax L - lse L

/-- The shift law over the two names above. -/
theorem shift_law' (L : ι → EReal) (hL : ∀ n, L n ≠ ⊤) :
    cmax (lw L) = cmax L - (lse L + cmax L) ∧ ∀ n, Ideal.exp (lw L n - cmax (lw L)) = Ideal.exp (L n - cmax L) :=
  shift_law L hL

/-- The entry with the shifted exponentials kept and the offset `M - (ls + M)`. -/
def entryK (x a : ι → EReal) : EReal :=
  Ideal.log (∑ n, Ideal.exp (x n - cmax x) * Ideal.exp (Ideal.log (a n) - cmax fun n => Ideal.log (a n)))
    + cmax x + (cmax (fun n => Ideal.log (a n)) - (lse (fun n => Ideal.log (a n)) + cmax fun n => Ideal.log (a n)))

/-- The entry with the maximum of the normalised logarithms recomputed. -/
def entryR (x a : ι → EReal) : EReal :=
  Ideal.log (∑ n, Ideal.exp (x n - cmax x) * Ideal.exp (lw (fun n => Ideal.log (a n)) n - cmax (lw fun n => Ideal.log (a n))))
    + cmax x + cmax (lw fun n => Ideal.log (a n))

/-- The two entries are one number when no `a n` is `+∞`. -/
theorem entryR_eq_entryK (x a : ι → EReal) (ha : ∀ n, a n ≠ ⊤) : entryR x a = entryK x a := by
  obtain ⟨h1, h2⟩ := shift_law' (fun n => Ideal.log (a n)) (fun n => log_ne_top (ha n))
  unfold entryR entryK
  rw [Finset.sum_congr rfl (fun n _ => congrArg (Ideal.exp (x n - cmax x) * ·) (h2 n)), h1]

end Cert.LogShift

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.AttnSpec.lean ====
/-
  Causal self-attention of one head, written entry by entry on the extended reals.

  The input x has 4 batches of 4096 positions with 1024 channels; each of the three weight matrices maps the
  1024 channels to 64 features.  An entry of a projection is a sum over the channels; a score is the inner
  product of a query row and a key row over the 64 features, scaled by 1/32 (the f32 word 0x3D000000); the
  causal mask keeps the key positions s ≤ t and puts -∞ elsewhere; each row is normalised by the softmax
  (maximum as a fold of max from -∞, exponentials of the shifted scores, their sum, the quotient) and the
  output is the weighted sum of the value rows.
-/
import Idealize.ShloMosaic.PureOps.Ideal
import Idealize.ShloMosaic.Lib.ValueIdx
import proofs.«103980_j45028437131996_2_alg».proof.Proof.LibLogShift
import proofs.«103980_j45028437131996_2_alg».proof.Proof.LibRealSum

noncomputable section

open scoped BigOperators

namespace Cert.AttnSpec

open Idealize.ShloMosaic Idealize.ShloMosaic.ValueIdx Cert.LogShift Cert.RealSum

/-- One entry of the product x · w: batch b, position t, feature h. -/
def proj (x : (⟨3, ![4, 4096, 1024]⟩ : Shape).Idx → EReal) (w : (⟨2, ![1024, 64]⟩ : Shape).Idx → EReal)
    (b : Fin 4) (t : Fin 4096) (h : Fin 64) : EReal :=
  ∑ c : Fin 1024, x (ix3 b t c) * w (ix2 c h)

/-- The scaled score of query position t against key position s. -/
def score (x : (⟨3, ![4, 4096, 1024]⟩ : Shape).Idx → EReal) (wk wq : (⟨2, ![1024, 64]⟩ : Shape).Idx → EReal)
    (b : Fin 4) (t s : Fin 4096) : EReal :=
  (∑ h : Fin 64, proj x wq b t h * proj x wk b s h) * Ideal.ofBits .f32 0x3D000000#32

/-- The causally masked score: -∞ at the key positions after the query's. -/
def wmask (x : (⟨3, ![4, 4096, 1024]⟩ : Shape).Idx → EReal) (wk wq : (⟨2, ![1024, 64]⟩ : Shape).Idx → EReal)
    (b : Fin 4) (t s : Fin 4096) : EReal :=
  if s.val ≤ t.val then score x wk wq b t s else ⊥

/-- One entry of the attention output: the softmax of the masked row, weighting the value rows. -/
def attnOut (x : (⟨3, ![4, 4096, 1024]⟩ : Shape).Idx → EReal) (wk wq wv : (⟨2, ![1024, 64]⟩ : Shape).Idx → EReal)
    (b : Fin 4) (t : Fin 4096) (h : Fin 64) : EReal :=
  ∑ s : Fin 4096,
    Ideal.div (Ideal.exp (wmask x wk wq b t s - cmax (wmask x wk wq b t)))
        (∑ s' : Fin 4096, Ideal.exp (wmask x wk wq b t s' - cmax (wmask x wk wq b t)))
      * proj x wv b s h

/-- The f32 word 0x3D000000 is the real number 1/32. -/
theorem scale_word : Ideal.ofBits .f32 0x3D000000#32 = ((1 / 32 : ℝ) : EReal) := by
  simp [Ideal.ofBits, Ideal.ieee]
  rw [← EReal.coe_mul]
  congr 1
  norm_num

/-- A projection of real inputs by real weights is a real number. -/
theorem proj_real (x : (⟨3, ![4, 4096, 1024]⟩ : Shape).Idx → EReal) (w : (⟨2, ![1024, 64]⟩ : Shape).Idx → EReal)
    (hx : ∀ i, ∃ r : ℝ, x i = (r : EReal)) (hw : ∀ i, ∃ r : ℝ, w i = (r : EReal))
    (b : Fin 4) (t : Fin 4096) (h : Fin 64) : ∃ r : ℝ, proj x w b t h = (r : EReal) :=
  isReal_sum _ _ fun c _ => IsReal.mul (hx _) (hw _)

/-- A score of real inputs and real weights is a real number. -/
theorem score_real (x : (⟨3, ![4, 4096, 1024]⟩ : Shape).Idx → EReal) (wk wq : (⟨2, ![1024, 64]⟩ : Shape).Idx → EReal)
    (hx : ∀ i, ∃ r : ℝ, x i = (r : EReal)) (hk : ∀ i, ∃ r : ℝ, wk i = (r : EReal))
    (hq : ∀ i, ∃ r : ℝ, wq i = (r : EReal)) (b : Fin 4) (t s : Fin 4096) :
    ∃ r : ℝ, score x wk wq b t s = (r : EReal) := by
  unfold score
  rw [scale_word]
  exact IsReal.mul (isReal_sum _ _ fun h _ => IsReal.mul (proj_real x wq hx hq b t h) (proj_real x wk hx hk b s h))
    (isReal_coe _)

end Cert.AttnSpec

end
-- ==== Proof.RefRead.lean ====
/-
  The reference program read at one output entry.

  The reference computes the three projections of x, the scores Q · Kᵀ scaled by 1/32, the causal mask
  (row index ≥ column index keeps the score, -∞ elsewhere), the softmax of each row (maximum from -∞,
  exponentials of the shifted scores, their sum, the quotient) and the product with the values. Read stage by
  stage at an index built from its coordinates, each stage is the corresponding entry of the mathematical
  description in AttnSpec, so the entry (b, t, h) of the result is attnOut at (b, t, h). No finiteness is used.
-/
import proofs.«103980_j45028437131996_2_alg».proof.Proof.Gen.ReferenceIdeal.Read
import proofs.«103980_j45028437131996_2_alg».proof.Proof.AttnSpec

noncomputable section

open scoped BigOperators

namespace Cert.ReferenceIdeal.RefRead

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.AttnSpec Cert.LogShift

/-- Two rank-2 indices with the same coordinates are equal. -/
local macro "idx2" : tactic =>
  `(tactic| (funext a; match a with | ⟨0, _⟩ => rfl | ⟨1, _⟩ => rfl))
/-- Two rank-3 indices with the same coordinates are equal. -/
local macro "idx3" : tactic =>
  `(tactic| (funext a; match a with | ⟨0, _⟩ => rfl | ⟨1, _⟩ => rfl | ⟨2, _⟩ => rfl))

variable (x : (⟨S4x4096x1024, .f32⟩ : BufTy).Contents (Elt Ideal))
  (wk wq wv : (⟨S1024x64, .f32⟩ : BufTy).Contents (Elt Ideal))

/-! ## The projections -/

/-- The key projection at (b, t, h). -/
theorem v0_at (b : Fin 4) (t : Fin 4096) (h : Fin 64) :
    val_main_v0 (F := Ideal) x wk (ix3 b t h) = proj x wk b t h := by
  rw [val_main_v0_apply]
  unfold proj
  refine Finset.sum_congr rfl fun k _ => ?_
  rw [show lidx_main_v0 (ix3 b t h) k = ix3 b t k by idx3, show ridx_main_v0 (ix3 b t h) k = ix2 k h by idx2]

/-- The query projection at (b, t, h). -/
theorem v1_at (b : Fin 4) (t : Fin 4096) (h : Fin 64) :
    val_main_v1 (F := Ideal) x wq (ix3 b t h) = proj x wq b t h := by
  rw [val_main_v1_apply]
  unfold proj
  refine Finset.sum_congr rfl fun k _ => ?_
  rw [show lidx_main_v1 (ix3 b t h) k = ix3 b t k by idx3, show ridx_main_v1 (ix3 b t h) k = ix2 k h by idx2]

/-- The value projection at (b, t, h). -/
theorem v2_at (b : Fin 4) (t : Fin 4096) (h : Fin 64) :
    val_main_v2 (F := Ideal) x wv (ix3 b t h) = proj x wv b t h := by
  rw [val_main_v2_apply]
  unfold proj
  refine Finset.sum_congr rfl fun k _ => ?_
  rw [show lidx_main_v2 (ix3 b t h) k = ix3 b t k by idx3, show ridx_main_v2 (ix3 b t h) k = ix2 k h by idx2]

/-! ## The scores -/

/-- Q · Kᵀ at (b, t, s): the inner product of query row t and key row s. -/
theorem v3_at (b : Fin 4) (t s : Fin 4096) :
    val_main_v3 (F := Ideal) x wk wq (ix3 b t s) = ∑ h : Fin 64, proj x wq b t h * proj x wk b s h := by
  rw [val_main_v3_apply]
  refine Finset.sum_congr rfl fun k _ => ?_
  rw [show lidx_main_v3 (ix3 b t s) k = ix3 b t k by idx3, show ridx_main_v3 (ix3 b t s) k = ix3 b s k by idx3,
    v1_at, v0_at]

/-- The scaled score at (b, t, s). -/
theorem v5_at (b : Fin 4) (t s : Fin 4096) :
    val_main_v5 (F := Ideal) x wk wq (ix3 b t s) = score x wk wq b t s := by
  rw [val_main_v5_apply, v3_at, val_main_v4_apply, val_main_cst_apply]
  rfl

/-! ## The causal mask -/

/-- Of two 32-bit words holding numbers below 4096, the signed comparison "first ≥ second" is the comparison of the
    numbers. -/
theorem sge_word (a c : ℕ) (ha : a < 4096) (hc : c < 4096) :
    IntOp.cmpi .sge (IntOp.addi (BitVec.ofNat 32 a) 0#32) (BitVec.ofNat 32 c) = if c ≤ a then 1#1 else 0#1 := by
  have e0 : IntOp.addi (BitVec.ofNat 32 a) 0#32 = BitVec.ofNat 32 a := by
    show BitVec.ofNat 32 a + 0#32 = _
    rw [BitVec.add_zero]
  have ta : (BitVec.ofNat 32 a).toInt = (a : Int) := by
    rw [BitVec.toInt_eq_toNat_of_lt (by rw [BitVec.toNat_ofNat]; omega), BitVec.toNat_ofNat]; omega
  have tc : (BitVec.ofNat 32 c).toInt = (c : Int) := by
    rw [BitVec.toInt_eq_toNat_of_lt (by rw [BitVec.toNat_ofNat]; omega), BitVec.toNat_ofNat]; omega
  rw [e0]
  by_cases h : c ≤ a
  · rw [if_pos h]
    exact IntOp.cmpi_sge.mpr (by rw [ta, tc]; exact_mod_cast h)
  · rw [if_neg h]
    refine eq_zero_of_ne_one fun h1 => h ?_
    have := IntOp.cmpi_sge.mp h1
    rw [ta, tc] at this
    exact_mod_cast this

/-- The lower-triangle mask at (t, s): true exactly when s ≤ t. -/
theorem v7_at (t s : Fin 4096) :
    val_main_v7 (F := Ideal) (ix2 t s) = if s.val ≤ t.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 t.val) 0#32) (BitVec.ofNat 32 s.val)) 1#1 0#1 = _
  rw [sge_word t.val s.val t.isLt s.isLt]
  by_cases h : s.val ≤ t.val
  · rw [if_pos h]; exact select_one _ _
  · rw [if_neg h]; exact select_zero _ _

/-- The masked score at (b, t, s). -/
theorem v8_at (b : Fin 4) (t s : Fin 4096) :
    val_main_v8 (F := Ideal) x wk wq (ix3 b t s) = wmask x wk wq b t s := by
  rw [val_main_v8_apply, val_main_call1_v1_apply, show idx_main_call1_v1 (ix3 b t s) = ix2 t s by idx2, v7_at, v5_at,
    val_main_call1_v2_apply, val_main_call1_v0_apply, val_main_cst_0_apply]
  unfold wmask
  by_cases h : s.val ≤ t.val
  · rw [if_pos h, if_pos h]; exact select_one _ _
  · rw [if_neg h, if_neg h]; exact (select_zero _ _).trans neg_inf

/-! ## The softmax of a row -/

/-- The row maximum at (b, t): the fold of max from -∞ over the masked scores of the row. -/
theorem v9_at (b : Fin 4) (t : Fin 4096) :
    val_main_v9 (F := Ideal) x wk wq (ix2 b t) = cmax (wmask x wk wq b t) := by
  unfold val_main_v9
  rw [Host.reduce_eq_fold_single FloatOps.maximumf _ _ reducesTo_S4x4096x4096_S4x4096_d2 (by decide) h_S_]
  refine fold_eq_cmax (N := 4096) _ _ _ ?_ fun s => ?_
  · rw [val_main_cst_1_apply]; exact neg_inf
  · show val_main_v8 (F := Ideal) x wk wq _ = wmask x wk wq b t s
    rw [← v8_at]
    exact congrArg _ (funext fun c => Fin.ext (by
      match c with
      | ⟨0, _⟩ => rfl
      | ⟨1, _⟩ => rfl
      | ⟨2, _⟩ => rfl))

/-- The maximum with -∞ again is the row maximum. -/
theorem v11_at (b : Fin 4) (t : Fin 4096) :
    val_main_v11 (F := Ideal) x wk wq (ix2 b t) = cmax (wmask x wk wq b t) := by
  rw [val_main_v11_apply, val_main_v10_apply, val_main_cst_2_apply, v9_at]
  show max (Ideal.ofBits .f32 0xFF800000#32) _ = _
  rw [neg_inf]
  exact max_eq_right bot_le

/-- The row maximum spread along the row. -/
theorem v13_at (b : Fin 4) (t s : Fin 4096) :
    val_main_v13 (F := Ideal) x wk wq (ix3 b t s) = cmax (wmask x wk wq b t) := by
  rw [val_main_v13_apply, val_main_v12_apply,
    show idx_main_v12 (idx_main_v13 (ix3 b t s)) = ix2 b t by idx2, v11_at]

/-- The shifted exponential at (b, t, s). -/
theorem v15_at (b : Fin 4) (t s : Fin 4096) :
    val_main_v15 (F := Ideal) x wk wq (ix3 b t s)
      = Ideal.exp (wmask x wk wq b t s - cmax (wmask x wk wq b t)) := by
  rw [val_main_v15_apply, val_main_v14_apply, v8_at, v13_at]
  rfl

/-- The row's normaliser at (b, t). -/
theorem v16_at (b : Fin 4) (t : Fin 4096) :
    val_main_v16 (F := Ideal) x wk wq (ix2 b t)
      = ∑ s : Fin 4096, Ideal.exp (wmask x wk wq b t s - cmax (wmask x wk wq b t)) := by
  rw [val_main_v16_apply, val_main_cst_3_apply]
  show Ideal.ofBits .f32 0x00000000#32 + _ = _
  rw [Ideal.ofBits_zero_f32, zero_add]
  refine Finset.sum_congr rfl fun k _ => ?_
  rw [show idx_main_v16 (ix2 b t) k = ix3 b t k by idx3, v15_at]

/-- The normaliser spread along the row. -/
theorem v18_at (b : Fin 4) (t s : Fin 4096) :
    val_main_v18 (F := Ideal) x wk wq (ix3 b t s)
      = ∑ s' : Fin 4096, Ideal.exp (wmask x wk wq b t s' - cmax (wmask x wk wq b t)) := by
  rw [val_main_v18_apply, val_main_v17_apply,
    show idx_main_v17 (idx_main_v18 (ix3 b t s)) = ix2 b t by idx2, v16_at]

/-- The softmax weight at (b, t, s). -/
theorem v19_at (b : Fin 4) (t s : Fin 4096) :
    val_main_v19 (F := Ideal) x wk wq (ix3 b t s)
      = Ideal.div (Ideal.exp (wmask x wk wq b t s - cmax (wmask x wk wq b t)))
          (∑ s' : Fin 4096, Ideal.exp (wmask x wk wq b t s' - cmax (wmask x wk wq b t))) := by
  rw [val_main_v19_apply, v15_at, v18_at]
  rfl

/-! ## The result -/

/-- THE REFERENCE AT AN ENTRY: the last stage at (b, t, h) is the attention output there. -/
theorem val_main_v20_at (b : Fin 4) (t : Fin 4096) (h : Fin 64) :
    val_main_v20 (F := Ideal) x wk wq wv (ix3 b t h) = attnOut x wk wq wv b t h := by
  rw [val_main_v20_apply]
  unfold attnOut
  refine Finset.sum_congr rfl fun k _ => ?_
  rw [show lidx_main_v20 (ix3 b t h) k = ix3 b t k by idx3, show ridx_main_v20 (ix3 b t h) k = ix3 b k h by idx3,
    v19_at, v2_at]

/-- The same for the term the reference's run states for its result, as a function of the four argument arrays. -/
theorem res_out0_at (m : (ℓ : Loc nD τ sig) → Buf (Elt Ideal) ℓ) (c : Dev nD) (b : Fin 4) (t : Fin 4096) (h : Fin 64) :
    (Cert.ReferenceIdeal.Value.res_out0 (F := Ideal) m c : (⟨S4x4096x64, .f32⟩ : BufTy).Contents (Elt Ideal)) (ix3 b t h)
      = attnOut (m ((c.tc : Thread nD τ).loc main_arg0)) (m ((c.tc : Thread nD τ).loc main_arg1))
          (m ((c.tc : Thread nD τ).loc main_arg2)) (m ((c.tc : Thread nD τ).loc main_arg3)) b t h := by
  show (Cert.ReferenceIdeal.Value.res_main_v20 (F := Ideal) m c : (⟨S4x4096x64, .f32⟩ : BufTy).Contents (Elt Ideal)) (ix3 b t h) = _
  rw [val_main_v20_eq]
  exact val_main_v20_at _ _ _ _ b t h

end Cert.ReferenceIdeal.RefRead

end
-- ==== Proof.K.R0.lean ====
/- The projection region (custom_call 0, pipeline 0) of the kernel program, at the contents `V` the region finds
   in the TensorCore's buffers: each window's block at a grid point, what the body leaves in the output window's
   staging buffer as a function of the two input blocks, the body's triple, the pipeline's proof data and its body
   obligation. Stated for any float model `F`: the body leaves each input block in place and stores
   the output window once, whole. -/
import proofs.«103980_j45028437131996_2_alg».proof.Proof.Gen.Kernel.Launch
import proofs.«103980_j45028437131996_2_alg».proof.Proof.Gen.Kernel.Skeleton
import proofs.«103980_j45028437131996_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only: where it is not fetched its block
    index has not moved) holds its block at every point, under the same two hypotheses. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x1024 := Rect.unit (s := S2048x1024) ![0, 0] S2048x1024.size inb_S2048x1024_S2048x1024_0_0
abbrev r0_1 : Rect S1024x192 := Rect.unit (s := S1024x192) ![0, 0] S1024x192.size inb_S1024x192_S1024x192_0_0
abbrev r0_2 : Rect S2048x192 := Rect.unit (s := S2048x192) ![0, 0] S2048x192.size inb_S2048x192_S2048x192_0_0

/-! ## What the body leaves in the output window's buffer -/

/-- Window 2's staging buffer after the body, from the two input blocks: its one store, of the product of the
    loaded blocks, as a piece over the whole buffer. -/
def out0_2 (x0 : Vec F S2048x1024 .f32) (x1 : Vec F S1024x192 .f32) : Vec F S2048x192 .bf16 :=
  View.canon [⟨r0_2, k0_pay1 (View.ld x0 r0_0) (View.ld x1 r0_1)⟩]

/-- The store's rectangle is the whole buffer, so it covers it. -/
theorem cover0_2 (p0 : Vec F S2048x192 .bf16) (y : S2048x192.Idx) :
    ∃ pc ∈ ([⟨r0_2, p0⟩] : List (View.Piece (Elt F) S2048x192 .bf16)), y ∈ pc.1.set :=
  View.cover_of_tiled [⟨r0_2, p0⟩] S2048x192.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords) (arg0 : Memref sig .tc .vmem S2048x1024 .f32) (harg0 : arg0.IsWhole) (arg1 : Memref sig .tc .vmem S1024x192 .f32) (harg1 : arg1.IsWhole) (arg2 : Memref sig .tc .vmem S2048x192 .bf16) (harg2 : arg2.IsWhole)
    (x0 : Vec F S2048x1024 .f32) (x1 : Vec F S1024x192 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Defs.lean ====
/-
  The attention region (the second pallas_call, grid (b, qi, kv) of 4 × 4 × 4 points in row-major order) — what
  its body's runs are stated over: each window's block at a point as read off the arrays the region finds; the
  four conditions of the body's branches in closed form over the point's number t = 16 b + 4 qi + kv
  (first key tile: kv = 0; a tile wholly below the diagonal: kv < qi; the diagonal tile: kv = qi; last key
  tile: kv = 3); where the output window is idle (every point but kv = 3, where alone it is written back);
  the three scratch buffers (running maximum, running normaliser, running weighted sum) carried from point
  to point; and the region invariant with those three buffers split out of the scoped rest.
-/
import proofs.«103980_j45028437131996_2_alg».proof.Proof.Gen.Kernel.Launch
import proofs.«103980_j45028437131996_2_alg».proof.Proof.Gen.Kernel.Skeleton
import proofs.«103980_j45028437131996_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved (the key and value windows keep the diagonal block while kv > qi). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's four branch conditions, from the grid coordinates, and their closed forms -/

/-- First key tile (kv = 0): the scratch is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- A key tile wholly below the diagonal (kv < qi): the unmasked update. -/
abbrev cond1_1 (i : grid1.Coords) : Prop := (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < t.val / 4 % 4 :=
  (by decide +kernel : ∀ t : Fin grid1.N, cond1_1 (grid1.coords t) ↔ t.val % 4 < t.val / 4 % 4)
/-- The diagonal tile (kv = qi): the masked update. -/
abbrev cond1_2 (i : grid1.Coords) : Prop := (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)
/-- Last key tile (kv = 3): the quotient is stored into the output block. -/
abbrev cond1_3 (i : grid1.Coords) : Prop := k1_cond4 i = 1#1
theorem hcond1_3 : ∀ t : Fin cfg1.N, cond1_3 (grid1.coords t) ↔ t.val % 4 = 3 :=
  (by decide +kernel : ∀ t : Fin grid1.N, cond1_3 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and is not written back. -/
theorem idleAt1_3 : ∀ t : Fin cfg1.N, ¬cond1_3 (grid1.coords t) → cfg1.idle 3 (grid1.coords t) = true := by decide +kernel
theorem noFlush1_3 : ∀ t : Fin cfg1.N, ¬cond1_3 (grid1.coords t) → (cfg1.win 3).flush t = false := by decide +kernel
/-- At the last key tile it is live. -/
theorem liveAt1_3 : ∀ t : Fin cfg1.N, cond1_3 (grid1.coords t) → cfg1.idle 3 (grid1.coords t) = false := by decide +kernel

/-! ## The staging and scratch memrefs the body is called with -/

abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The running maximum, the running normaliser and the running weighted sum: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-- The scoped buffers of the core that are neither this region's staging buffers nor its scratch: the projection
    region's five staging buffers, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class's invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.R1RunA.lean ====
/-
  The attention kernel's body run whole in ONE of the seven cases of its four branches that the grid meets —
  the first key tile of a query tile below the first (kv = 0 < qi): the scratch is reset, then updated by the unmasked tile.
  The inputs' staging memrefs are handed in and given back at their contents; the output's buffer, which the body does not touch here, is given back as found;
  the three scratch buffers are taken at anything (they are reset first) and left with the stores written. The lists of stores (last first) are what the run finds.
-/
import proofs.«103980_j45028437131996_2_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : cond1_0 i) (hc1 : cond1_1 i) (hc2 : ¬cond1_2 i) (hc3 : ¬cond1_3 i)
    (x0 x1 x2 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.Kernel.Hand

end
-- ==== Proof.K.R1RunB.lean ====
/-
  The attention kernel's body run whole in ONE of the seven cases of its four branches that the grid meets —
  the first key tile of the first query tile (kv = qi = 0): the scratch is reset, then updated by the masked diagonal tile.
  The inputs' staging memrefs are handed in and given back at their contents; the output's buffer, which the body does not touch here, is given back as found;
  the three scratch buffers are taken at anything (they are reset first) and left with the stores written. The lists of stores (last first) are what the run finds.
-/
import proofs.«103980_j45028437131996_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : cond1_0 i) (hc1 : ¬cond1_1 i) (hc2 : cond1_2 i) (hc3 : ¬cond1_3 i)
    (x0 x1 x2 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.Kernel.Hand

end
-- ==== Proof.K.R1RunC.lean ====
/-
  The attention kernel's body run whole in ONE of the seven cases of its four branches that the grid meets —
  a later key tile wholly below the diagonal (0 < kv < qi): the unmasked update.
  The inputs' staging memrefs are handed in and given back at their contents; the output's buffer, which the body does not touch here, is given back as found;
  the three scratch buffers are taken at the contents the point before left and given back with the stores written. The lists of stores (last first) are what the run finds.
-/
import proofs.«103980_j45028437131996_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : cond1_1 i) (hc2 : ¬cond1_2 i) (hc3 : ¬cond1_3 i)
    (x0 x1 x2 : Vec F S1x1024x64 .bf16) (xs0 xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.Kernel.Hand

end
-- ==== Proof.K.R1RunD.lean ====
/-
  The attention kernel's body run whole in ONE of the seven cases of its four branches that the grid meets —
  a diagonal tile that is neither first nor last (0 < kv = qi < 3): the masked update.
  The inputs' staging memrefs are handed in and given back at their contents; the output's buffer, which the body does not touch here, is given back as found;
  the three scratch buffers are taken at the contents the point before left and given back with the stores written. The lists of stores (last first) are what the run finds.
-/
import proofs.«103980_j45028437131996_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : ¬cond1_1 i) (hc2 : cond1_2 i) (hc3 : ¬cond1_3 i)
    (x0 x1 x2 : Vec F S1x1024x64 .bf16) (xs0 xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.Kernel.Hand

end
-- ==== Proof.K.R1RunE.lean ====
/-
  The attention kernel's body run whole in ONE of the seven cases of its four branches that the grid meets —
  the last diagonal tile (kv = qi = 3): the masked update, then the quotient stored.
  The inputs' staging memrefs are handed in and given back at their contents; the output's buffer is taken at anything and left with the body's store written;
  the three scratch buffers are taken at the contents the point before left and given back with the stores written. The lists of stores (last first) are what the run finds.
-/
import proofs.«103980_j45028437131996_2_alg».proof.Proof.K.R1RunD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    iexists _; iexact H9

end Cert.Kernel.Hand

end
-- ==== Proof.K.R1RunF.lean ====
/-
  The attention kernel's body run whole in ONE of the seven cases of its four branches that the grid meets —
  a key tile above the diagonal that is not the last (qi < kv < 3): nothing is done.
  The inputs' staging memrefs are handed in and given back at their contents; the output's buffer, which the body does not touch here, is given back as found;
  the three scratch buffers are given back as found.
-/
import proofs.«103980_j45028437131996_2_alg».proof.Proof.K.R1RunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem kernelRun1_F (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : ¬cond1_1 i) (hc2 : ¬cond1_2 i) (hc3 : ¬cond1_3 i)
    (x0 x1 x2 : Vec F S1x1024x64 .bf16) (xs0 xs1 : Vec F S1024x1 .f32) (xs2 : Vec F S1024x64 .f32) :
    ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K := by
  refine fun xi3 E K => ?run
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.Kernel.Hand

end
-- ==== Proof.K.R1RunG.lean ====
/-
  The attention kernel's body run whole in ONE of the seven cases of its four branches that the grid meets —
  the last key tile above the diagonal (qi < kv = 3): the quotient stored.
  The inputs' staging memrefs are handed in and given back at their contents; the output's buffer is taken at anything and left with the body's store written;
  the three scratch buffers are given back as found. The lists of stores (last first) are what the run finds.
-/
import proofs.«103980_j45028437131996_2_alg».proof.Proof.K.R1RunF

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_G (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : ¬cond1_1 i) (hc2 : ¬cond1_2 i) (hc3 : cond1_3 i)
    (x0 x1 x2 : Vec F S1x1024x64 .bf16) (xs0 xs1 : Vec F S1024x1 .f32) (xs2 : Vec F S1024x64 .f32) :
    { L3 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.Kernel.Hand

end
-- ==== Proof.K.R1.lean ====
/-
  The attention region, the rest of its half of the frame: what each of the seven cases leaves in the three
  scratch buffers and in the output's staging buffer (its stores read back); one grid point as a step on the
  scratch contents — which case the point is in is decided by kv = t mod 4 against qi = (t / 4) mod 4 —; the
  contents after every point as the fold of that step over the points in order (the step at a point with
  kv = 0 ignores what it is given: the scratch is reset there); the region invariant carrying the scratch at
  the contents the point before left; the proof data; and the body obligation, the step's case chosen by the
  same arithmetic.
-/
import proofs.«103980_j45028437131996_2_alg».proof.Proof.K.R1RunG

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 hc3 x0 x1 x2).1, y ∈ pc.1.set :=
  View.cover_of_wholeMem (kernelRun1_A c i arg3 harg3 arg4 harg4 arg5 harg5 arg6 harg6 arg7 harg7 arg8 harg8 arg9 harg9 hc0 hc1 hc2 hc3 x0 x1 x2).1 (by sl_whole_mem) y
/-- What case A leaves in scratch buffer 0: its stores read back. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2).1)
theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_wholeMem (kernelRun1_A c i arg3 harg3 arg4 harg4 arg5 harg5 arg6 harg6 arg7 harg7 arg8 harg8 arg9 harg9 hc0 hc1 hc2 hc3 x0 x1 x2).2.1 (by sl_whole_mem) y
/-- What case A leaves in scratch buffer 1: its stores read back. -/
def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2).2.1)
theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) (y : S1024x64.Idx) :
    ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_wholeMem (kernelRun1_A c i arg3 harg3 arg4 harg4 arg5 harg5 arg6 harg6 arg7 harg7 arg8 harg8 arg9 harg9 hc0 hc1 hc2 hc3 x0 x1 x2).2.2.1 (by sl_whole_mem) y
/-- What case A leaves in scratch buffer 2: its stores read back. -/
def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 hc3 x0 x1 x2).2.2.1)

theorem scover1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) (y : S1024x1.Idx) :
    ∃ pc ∈ (kernelRun1_B c i arg3 harg3 arg4 harg4 arg5 harg5 arg6 harg6 arg7 harg7 arg8 harg8 arg9 harg9 hc0 hc1 hc2 hc3 x0 x1 x2).1, y ∈ pc.1.set :=
  View.cover_of_wholeMem (kernelRun1_B c i arg3 harg3 arg4 harg4 arg5 harg5 arg6 harg6 arg7 harg7 arg8 harg8 arg9 harg9 hc0 hc1 hc2 hc3 x0 x1 x2).1 (by sl_whole_mem) y
/-- What case B leaves in scratch buffer 0: its stores read back. -/
def sout1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 hc3 x0 x1 x2).1)
theorem scover1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) (y : S1024x1.Idx) :
    ∃ pc ∈ (kernelRun1_B c i arg3 harg3 arg4 harg4 arg5 harg5 arg6 harg6 arg7 harg7 arg8 harg8 arg9 harg9 hc0 hc1 hc2 hc3 x0 x1 x2).2.1, y ∈ pc.1.set :=
  View.cover_of_wholeMem (kernelRun1_B c i arg3 harg3 arg4 harg4 arg5 harg5 arg6 harg6 arg7 harg7 arg8 harg8 arg9 harg9 hc0 hc1 hc2 hc3 x0 x1 x2).2.1 (by sl_whole_mem) y
/-- What case B leaves in scratch buffer 1: its stores read back. -/
def sout1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 hc3 x0 x1 x2).2.1)
theorem scover1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) (y : S1024x64.Idx) :
    ∃ pc ∈ (kernelRun1_B c i arg3 harg3 arg4 harg4 arg5 harg5 arg6 harg6 arg7 harg7 arg8 harg8 arg9 harg9 hc0 hc1 hc2 hc3 x0 x1 x2).2.2.1, y ∈ pc.1.set :=
  View.cover_of_wholeMem (kernelRun1_B c i arg3 harg3 arg4 harg4 arg5 harg5 arg6 harg6 arg7 harg7 arg8 harg8 arg9 harg9 hc0 hc1 hc2 hc3 x0 x1 x2).2.2.1 (by sl_whole_mem) y
/-- What case B leaves in scratch buffer 2: its stores read back. -/
def sout1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) : Vec F S1024x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 hc3 x0 x1 x2).2.2.1)

theorem scover1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) (y : S1024x1.Idx) :
    ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_wholeMem (kernelRun1_C c i arg3 harg3 arg4 harg4 arg5 harg5 arg6 harg6 arg7 harg7 arg8 harg8 arg9 harg9 hc0 hc1 hc2 hc3 x0 x1 x2 xs0 xs1 xs2).1 (by sl_whole_mem) y
/-- What case C leaves in scratch buffer 0: its stores read back. -/
def sout1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 hc3 x0 x1 x2 xs0 xs1 xs2).1)
theorem scover1_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) (y : S1024x1.Idx) :
    ∃ pc ∈ (kernelRun1_C c i arg3 harg3 arg4 harg4 arg5 harg5 arg6 harg6 arg7 harg7 arg8 harg8 arg9 harg9 hc0 hc1 hc2 hc3 x0 x1 x2 xs0 xs1 xs2).2.1, y ∈ pc.1.set :=
  View.cover_of_wholeMem (kernelRun1_C c i arg3 harg3 arg4 harg4 arg5 harg5 arg6 harg6 arg7 harg7 arg8 harg8 arg9 harg9 hc0 hc1 hc2 hc3 x0 x1 x2 xs0 xs1 xs2).2.1 (by sl_whole_mem) y
/-- What case C leaves in scratch buffer 1: its stores read back. -/
def sout1_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 hc3 x0 x1 x2 xs0 xs1 xs2).2.1)
theorem scover1_C_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) (y : S1024x64.Idx) :
    ∃ pc ∈ (kernelRun1_C c i arg3 harg3 arg4 harg4 arg5 harg5 arg6 harg6 arg7 harg7 arg8 harg8 arg9 harg9 hc0 hc1 hc2 hc3 x0 x1 x2 xs0 xs1 xs2).2.2.1, y ∈ pc.1.set :=
  View.cover_of_wholeMem (kernelRun1_C c i arg3 harg3 arg4 harg4 arg5 harg5 arg6 harg6 arg7 harg7 arg8 harg8 arg9 harg9 hc0 hc1 hc2 hc3 x0 x1 x2 xs0 xs1 xs2).2.2.1 (by sl_whole_mem) y
/-- What case C leaves in scratch buffer 2: its stores read back. -/
def sout1_C_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_C c i arg3 harg3 arg4 harg4 arg5 harg5 arg6 harg6 arg7 harg7 arg8 harg8 arg9 harg9 hc0 hc1 hc2 hc3 x0 x1 x2 xs0 xs1 xs2).2.2.1)

theorem scover1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) (y : S1024x1.Idx) :
    ∃ pc ∈ (kernelRun1_D c i arg3 harg3 arg4 harg4 arg5 harg5 arg6 harg6 arg7 harg7 arg8 harg8 arg9 harg9 hc0 hc1 hc2 hc3 x0 x1 x2 xs0 xs1 xs2).1, y ∈ pc.1.set :=
  View.cover_of_wholeMem (kernelRun1_D c i arg3 harg3 arg4 harg4 arg5 harg5 arg6 harg6 arg7 harg7 arg8 harg8 arg9 harg9 hc0 hc1 hc2 hc3 x0 x1 x2 xs0 xs1 xs2).1 (by sl_whole_mem) y
/-- What case D leaves in scratch buffer 0: its stores read back. -/
def sout1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2 xs0 xs1 xs2).1)
theorem scover1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) (y : S1024x1.Idx) :
    ∃ pc ∈ (kernelRun1_D c i arg3 harg3 arg4 harg4 arg5 harg5 arg6 harg6 arg7 harg7 arg8 harg8 arg9 harg9 hc0 hc1 hc2 hc3 x0 x1 x2 xs0 xs1 xs2).2.1, y ∈ pc.1.set :=
  View.cover_of_wholeMem (kernelRun1_D c i arg3 harg3 arg4 harg4 arg5 harg5 arg6 harg6 arg7 harg7 arg8 harg8 arg9 harg9 hc0 hc1 hc2 hc3 x0 x1 x2 xs0 xs1 xs2).2.1 (by sl_whole_mem) y
/-- What case D leaves in scratch buffer 1: its stores read back. -/
def sout1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 hc3 x0 x1 x2 xs0 xs1 xs2).2.1)
theorem scover1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) (y : S1024x64.Idx) :
    ∃ pc ∈ (kernelRun1_D c i arg3 harg3 arg4 harg4 arg5 harg5 arg6 harg6 arg7 harg7 arg8 harg8 arg9 harg9 hc0 hc1 hc2 hc3 x0 x1 x2 xs0 xs1 xs2).2.2.1, y ∈ pc.1.set :=
  View.cover_of_wholeMem (kernelRun1_D c i arg3 harg3 arg4 harg4 arg5 harg5 arg6 harg6 arg7 harg7 arg8 harg8 arg9 harg9 hc0 hc1 hc2 hc3 x0 x1 x2 xs0 xs1 xs2).2.2.1 (by sl_whole_mem) y
/-- What case D leaves in scratch buffer 2: its stores read back. -/
def sout1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 hc3 x0 x1 x2 xs0 xs1 xs2).2.2.1)

theorem scover1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) (y : S1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.1, y ∈ pc.1.set :=
  View.cover_of_wholeMem (kernelRun1_E c i arg3 harg3 arg4 harg4 arg5 harg5 arg6 harg6 arg7 harg7 arg8 harg8 arg9 harg9 hc0 hc1 hc2 hc3 x0 x1 x2 xs0 xs1 xs2).2.1 (by sl_whole_mem) y
/-- What case E leaves in scratch buffer 0: its stores read back. -/
def sout1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 xs0 xs1 xs2).2.1)
theorem scover1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) (y : S1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.1, y ∈ pc.1.set :=
  View.cover_of_wholeMem (kernelRun1_E c i arg3 harg3 arg4 harg4 arg5 harg5 arg6 harg6 arg7 harg7 arg8 harg8 arg9 harg9 hc0 hc1 hc2 hc3 x0 x1 x2 xs0 xs1 xs2).2.2.1 (by sl_whole_mem) y
/-- What case E leaves in scratch buffer 1: its stores read back. -/
def sout1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 xs0 xs1 xs2).2.2.1)
theorem scover1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) (y : S1024x64.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_wholeMem (kernelRun1_E c i arg3 harg3 arg4 harg4 arg5 harg5 arg6 harg6 arg7 harg7 arg8 harg8 arg9 harg9 hc0 hc1 hc2 hc3 x0 x1 x2 xs0 xs1 xs2).2.2.2.1 (by sl_whole_mem) y
/-- What case E leaves in scratch buffer 2: its stores read back. -/
def sout1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_E c i arg3 harg3 arg4 harg4 arg5 harg5 arg6 harg6 arg7 harg7 arg8 harg8 arg9 harg9 hc0 hc1 hc2 hc3 x0 x1 x2 xs0 xs1 xs2).2.2.2.1)
theorem cover1_E_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) (y : S1x1024x64.Idx) :
    ∃ pc ∈ (kernelRun1_E c i arg3 harg3 arg4 harg4 arg5 harg5 arg6 harg6 arg7 harg7 arg8 harg8 arg9 harg9 hc0 hc1 hc2 hc3 x0 x1 x2 xs0 xs1 xs2).1, y ∈ pc.1.set :=
  View.cover_of_wholeMem (kernelRun1_E c i arg3 harg3 arg4 harg4 arg5 harg5 arg6 harg6 arg7 harg7 arg8 harg8 arg9 harg9 hc0 hc1 hc2 hc3 x0 x1 x2 xs0 xs1 xs2).1 (by sl_whole_mem) y
/-- What case E leaves in the output's staging buffer: its store read back. -/
def out1_E_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) : Vec F S1x1024x64 .f32 :=
  VO1_3.read (Elt F) (VO1_3.writes (Elt F) VO1_3.junk (kernelRun1_E c i arg3 harg3 arg4 harg4 arg5 harg5 arg6 harg6 arg7 harg7 arg8 harg8 arg9 harg9 hc0 hc1 hc2 hc3 x0 x1 x2 xs0 xs1 xs2).1)

theorem cover1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i) (x0 x1 x2 : Vec F S1x1024x64 .bf16) (xs0 xs1 : Vec F S1024x1 .f32) (xs2 : Vec F S1024x64 .f32) (y : S1x1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).1, y ∈ pc.1.set :=
  View.cover_of_wholeMem (kernelRun1_G c i arg3 harg3 arg4 harg4 arg5 harg5 arg6 harg6 arg7 harg7 arg8 harg8 arg9 harg9 hc0 hc1 hc2 hc3 x0 x1 x2 xs0 xs1 xs2).1 (by sl_whole_mem) y
/-- What case G leaves in the output's staging buffer: its store read back. -/
def out1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i) (x0 x1 x2 : Vec F S1x1024x64 .bf16) (xs0 xs1 : Vec F S1024x1 .f32) (xs2 : Vec F S1024x64 .f32) : Vec F S1x1024x64 .f32 :=
  VO1_3.read (Elt F) (VO1_3.writes (Elt F) VO1_3.junk (kernelRun1_G c i arg3 harg3 arg4 harg4 arg5 harg5 arg6 harg6 arg7 harg7 arg8 harg8 arg9 harg9 hc0 hc1 hc2 hc3 x0 x1 x2 xs0 xs1 xs2).1)

/-! ## The cases' hypotheses from the point's number -/

theorem hyp1_A (t : Fin cfg1.N) (h0 : t.val % 4 = 0) (h1 : t.val % 4 < t.val / 4 % 4) :
    cond1_0 (grid1.coords t) ∧ cond1_1 (grid1.coords t) ∧ ¬cond1_2 (grid1.coords t) ∧ ¬cond1_3 (grid1.coords t) := by
  have hN : t.val < 64 := lt_of_lt_of_eq t.isLt (show cfg1.N = 64 from N_1)
  exact ⟨((hcond1_0 t).mpr (by omega)), ((hcond1_1 t).mpr (by omega)), (fun h => by have := (hcond1_2 t).mp h; omega), (fun h => by have := (hcond1_3 t).mp h; omega)⟩

theorem hyp1_B (t : Fin cfg1.N) (h0 : t.val % 4 = 0) (h2 : t.val % 4 = t.val / 4 % 4) :
    cond1_0 (grid1.coords t) ∧ ¬cond1_1 (grid1.coords t) ∧ cond1_2 (grid1.coords t) ∧ ¬cond1_3 (grid1.coords t) := by
  have hN : t.val < 64 := lt_of_lt_of_eq t.isLt (show cfg1.N = 64 from N_1)
  exact ⟨((hcond1_0 t).mpr (by omega)), (fun h => by have := (hcond1_1 t).mp h; omega), ((hcond1_2 t).mpr (by omega)), (fun h => by have := (hcond1_3 t).mp h; omega)⟩

theorem hyp1_C (t : Fin cfg1.N) (h0 : ¬t.val % 4 = 0) (h1 : t.val % 4 < t.val / 4 % 4) :
    ¬cond1_0 (grid1.coords t) ∧ cond1_1 (grid1.coords t) ∧ ¬cond1_2 (grid1.coords t) ∧ ¬cond1_3 (grid1.coords t) := by
  have hN : t.val < 64 := lt_of_lt_of_eq t.isLt (show cfg1.N = 64 from N_1)
  exact ⟨(fun h => by have := (hcond1_0 t).mp h; omega), ((hcond1_1 t).mpr (by omega)), (fun h => by have := (hcond1_2 t).mp h; omega), (fun h => by have := (hcond1_3 t).mp h; omega)⟩

theorem hyp1_D (t : Fin cfg1.N) (h0 : ¬t.val % 4 = 0) (h1 : ¬t.val % 4 < t.val / 4 % 4) (h2 : t.val % 4 = t.val / 4 % 4) (h3 : ¬t.val % 4 = 3) :
    ¬cond1_0 (grid1.coords t) ∧ ¬cond1_1 (grid1.coords t) ∧ cond1_2 (grid1.coords t) ∧ ¬cond1_3 (grid1.coords t) := by
  have hN : t.val < 64 := lt_of_lt_of_eq t.isLt (show cfg1.N = 64 from N_1)
  exact ⟨(fun h => by have := (hcond1_0 t).mp h; omega), (fun h => by have := (hcond1_1 t).mp h; omega), ((hcond1_2 t).mpr (by omega)), (fun h => by have := (hcond1_3 t).mp h; omega)⟩

theorem hyp1_E (t : Fin cfg1.N) (h0 : ¬t.val % 4 = 0) (h1 : ¬t.val % 4 < t.val / 4 % 4) (h2 : t.val % 4 = t.val / 4 % 4) (h3 : t.val % 4 = 3) :
    ¬cond1_0 (grid1.coords t) ∧ ¬cond1_1 (grid1.coords t) ∧ cond1_2 (grid1.coords t) ∧ cond1_3 (grid1.coords t) := by
  have hN : t.val < 64 := lt_of_lt_of_eq t.isLt (show cfg1.N = 64 from N_1)
  exact ⟨(fun h => by have := (hcond1_0 t).mp h; omega), (fun h => by have := (hcond1_1 t).mp h; omega), ((hcond1_2 t).mpr (by omega)), ((hcond1_3 t).mpr (by omega))⟩

theorem hyp1_F (t : Fin cfg1.N) (h0 : ¬t.val % 4 = 0) (h1 : ¬t.val % 4 < t.val / 4 % 4) (h2 : ¬t.val % 4 = t.val / 4 % 4) (h3 : ¬t.val % 4 = 3) :
    ¬cond1_0 (grid1.coords t) ∧ ¬cond1_1 (grid1.coords t) ∧ ¬cond1_2 (grid1.coords t) ∧ ¬cond1_3 (grid1.coords t) := by
  have hN : t.val < 64 := lt_of_lt_of_eq t.isLt (show cfg1.N = 64 from N_1)
  exact ⟨(fun h => by have := (hcond1_0 t).mp h; omega), (fun h => by have := (hcond1_1 t).mp h; omega), (fun h => by have := (hcond1_2 t).mp h; omega), (fun h => by have := (hcond1_3 t).mp h; omega)⟩

theorem hyp1_G (t : Fin cfg1.N) (h0 : ¬t.val % 4 = 0) (h1 : ¬t.val % 4 < t.val / 4 % 4) (h2 : ¬t.val % 4 = t.val / 4 % 4) (h3 : t.val % 4 = 3) :
    ¬cond1_0 (grid1.coords t) ∧ ¬cond1_1 (grid1.coords t) ∧ ¬cond1_2 (grid1.coords t) ∧ cond1_3 (grid1.coords t) := by
  have hN : t.val < 64 := lt_of_lt_of_eq t.isLt (show cfg1.N = 64 from N_1)
  exact ⟨(fun h => by have := (hcond1_0 t).mp h; omega), (fun h => by have := (hcond1_1 t).mp h; omega), (fun h => by have := (hcond1_2 t).mp h; omega), ((hcond1_3 t).mpr (by omega))⟩

section Region1

variable (V : (c : Dev nD) → (b : Ref sig .tc) → Buf (Elt F) ((c : Thread nD τ).loc b))

/-- The three scratch buffers' contents: running maximum, running normaliser, running weighted sum. -/
abbrev Scr1 : Type := Vec F S1024x1 .f32 × Vec F S1024x1 .f32 × Vec F S1024x64 .f32
/-- Contents nothing consults: the output's buffer where the window is idle, the scratch before the first reset. -/
def junkO1 : Vec F S1x1024x64 .f32 := VO1_3.read (Elt F) VO1_3.junk
def junkS1 : Scr1 (F := F) := (VS1_0.read (Elt F) VS1_0.junk, VS1_1.read (Elt F) VS1_1.junk, VS1_2.read (Elt F) VS1_2.junk)

/-- ONE POINT: from the scratch contents `p` the point before left, what the body leaves in the output's staging
    buffer and in the scratch. -/
def stepAt1 (c : Dev nD) (t : Fin cfg1.N) (p : Scr1 (F := F)) : Vec F S1x1024x64 .f32 × Scr1 (F := F) :=
  if h0 : t.val % 4 = 0 then
    if h1 : t.val % 4 < t.val / 4 % 4 then (junkO1, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t)))
    else if h2 : t.val % 4 = t.val / 4 % 4 then (junkO1, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t), sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t)))
    else (junkO1, p)
  else if h1 : t.val % 4 < t.val / 4 % 4 then (junkO1, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2))
  else if h2 : t.val % 4 = t.val / 4 % 4 then
    if h3 : t.val % 4 = 3 then (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, (sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2))
    else (junkO1, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2))
  else if h3 : t.val % 4 = 3 then (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_G t h0 h1 h2 h3).1 (hyp1_G t h0 h1 h2 h3).2.1 (hyp1_G t h0 h1 h2 h3).2.2.1 (hyp1_G t h0 h1 h2 h3).2.2.2 (iblk1 V c 0 t) (iblk1 V c 1 t) (iblk1 V c 2 t) p.1 p.2.1 p.2.2, p)
  else (junkO1, p)

theorem stepAt1_A (c : Dev nD) (t : Fin cfg1.N) (h0 : t.val % 4 = 0) (h1 : t.val % 4 < t.val / 4 % 4) (p : Scr1 (F := F)) :
    stepAt1 V c t p = (junkO1, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t))) := by
  unfold stepAt1; rw [dif_pos h0, dif_pos h1]

theorem stepAt1_B (c : Dev nD) (t : Fin cfg1.N) (h0 : t.val % 4 = 0) (h2 : t.val % 4 = t.val / 4 % 4) (p : Scr1 (F := F)) :
    stepAt1 V c t p = (junkO1, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t), sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t))) := by
  unfold stepAt1; rw [dif_pos h0, dif_neg (by omega : ¬t.val % 4 < t.val / 4 % 4), dif_pos h2]

theorem stepAt1_C (c : Dev nD) (t : Fin cfg1.N) (h0 : ¬t.val % 4 = 0) (h1 : t.val % 4 < t.val / 4 % 4) (p : Scr1 (F := F)) :
    stepAt1 V c t p = (junkO1, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2)) := by
  unfold stepAt1; rw [dif_neg h0, dif_pos h1]

theorem stepAt1_D (c : Dev nD) (t : Fin cfg1.N) (h0 : ¬t.val % 4 = 0) (h1 : ¬t.val % 4 < t.val / 4 % 4) (h2 : t.val % 4 = t.val / 4 % 4) (h3 : ¬t.val % 4 = 3) (p : Scr1 (F := F)) :
    stepAt1 V c t p = (junkO1, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2)) := by
  unfold stepAt1; rw [dif_neg h0, dif_neg h1, dif_pos h2, dif_neg h3]

theorem stepAt1_E (c : Dev nD) (t : Fin cfg1.N) (h0 : ¬t.val % 4 = 0) (h1 : ¬t.val % 4 < t.val / 4 % 4) (h2 : t.val % 4 = t.val / 4 % 4) (h3 : t.val % 4 = 3) (p : Scr1 (F := F)) :
    stepAt1 V c t p = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, (sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2)) := by
  unfold stepAt1; rw [dif_neg h0, dif_neg h1, dif_pos h2, dif_pos h3]

theorem stepAt1_F (c : Dev nD) (t : Fin cfg1.N) (h0 : ¬t.val % 4 = 0) (h1 : ¬t.val % 4 < t.val / 4 % 4) (h2 : ¬t.val % 4 = t.val / 4 % 4) (h3 : ¬t.val % 4 = 3) (p : Scr1 (F := F)) :
    stepAt1 V c t p = (junkO1, p) := by
  unfold stepAt1; rw [dif_neg h0, dif_neg h1, dif_neg h2, dif_neg h3]

theorem stepAt1_G (c : Dev nD) (t : Fin cfg1.N) (h0 : ¬t.val % 4 = 0) (h1 : ¬t.val % 4 < t.val / 4 % 4) (h2 : ¬t.val % 4 = t.val / 4 % 4) (h3 : t.val % 4 = 3) (p : Scr1 (F := F)) :
    stepAt1 V c t p = (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_G t h0 h1 h2 h3).1 (hyp1_G t h0 h1 h2 h3).2.1 (hyp1_G t h0 h1 h2 h3).2.2.1 (hyp1_G t h0 h1 h2 h3).2.2.2 (iblk1 V c 0 t) (iblk1 V c 1 t) (iblk1 V c 2 t) p.1 p.2.1 p.2.2, p) := by
  unfold stepAt1; rw [dif_neg h0, dif_neg h1, dif_neg h2, dif_pos h3]

/-- THE ACCUMULATION: the output's staging buffer and the scratch after the body at position `n`. -/
def outsAt1 (c : Dev nD) : (n : ℕ) → n < cfg1.N → Vec F S1x1024x64 .f32 × Scr1 (F := F)
  | 0, hn => stepAt1 V c ⟨0, hn⟩ junkS1
  | n + 1, hn => stepAt1 V c ⟨n + 1, hn⟩ (outsAt1 c n (Nat.lt_of_succ_lt hn)).2

/-- What the scratch holds when the body runs at `t`. -/
def prevS1 (c : Dev nD) (t : Fin cfg1.N) : Scr1 (F := F) :=
  if h : t.val = 0 then junkS1 else (outsAt1 V c (t.val - 1) (Nat.lt_of_le_of_lt (Nat.sub_le _ _) t.isLt)).2
theorem prevS1_pos (c : Dev nD) (t : Fin cfg1.N) (hz : t.val ≠ 0) :
    prevS1 V c t = (outsAt1 V c (t.val - 1) (Nat.lt_of_le_of_lt (Nat.sub_le _ _) t.isLt)).2 := dif_neg hz
theorem outsAt1_eq (c : Dev nD) (t : Fin cfg1.N) : outsAt1 V c t.val t.isLt = stepAt1 V c t (prevS1 V c t) := by
  obtain ⟨n, hn⟩ := t
  cases n with
  | zero => rfl
  | succ n => rfl

/-- The region invariant before position `n`: before the first point the class's; afterwards the other scoped buffers
    at anything, the three scratch buffers at what the point before left, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 4 = 0
  · by_cases h1 : t.val % 4 < t.val / 4 % 4
    · rw [Dat.leavesExact_idle (dat1 V c) 3 t (idleAt1_3 t (hyp1_A t h0 h1).2.2.2) (noFlush1_3 t (hyp1_A t h0 h1).2.2.2)]
      rw [outsAt1_eq V c t, stepAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Hr0, Hr1, Hr2, Hr3, Hr4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ (hyp1_A t h0 h1).1 (hyp1_A t h0 h1).2.1 (hyp1_A t h0 h1).2.2.1 (hyp1_A t h0 h1).2.2.2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr0 Hr1 Hr2 Hr3 Hr4 HS0 HS1 HS2 Hg]
        · isplitl [Hr0 Hr1 Hr2 Hr3 Hr4 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr0, Hr1, Hr2, Hr3, Hr4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ (hyp1_A t h0 h1).1 (hyp1_A t h0 h1).2.1 (hyp1_A t h0 h1).2.2.1 (hyp1_A t h0 h1).2.2.2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hr0 Hr1 Hr2 Hr3 Hr4 HS0 HS1 HS2 Hg]
        · isplitl [Hr0 Hr1 Hr2 Hr3 Hr4 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
    · have h2 : t.val % 4 = t.val / 4 % 4 := by omega
      rw [Dat.leavesExact_idle (dat1 V c) 3 t (idleAt1_3 t (hyp1_B t h0 h2).2.2.2) (noFlush1_3 t (hyp1_B t h0 h2).2.2.2)]
      rw [outsAt1_eq V c t, stepAt1_B V c t h0 h2]
      unfold sout1_B_0 sout1_B_1 sout1_B_2; (try dsimp only)
      by_cases hz : t.val = 0
      · rw [PhiS1_castSucc V c t, PhiS1_zero V c _ _ hz, PhiA1_eq]
        iintro ⟨⟨⟨Hr0, Hr1, Hr2, Hr3, Hr4, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (hyp1_B t h0 h2).1 (hyp1_B t h0 h2).2.1 (hyp1_B t h0 h2).2.2.1 (hyp1_B t h0 h2).2.2.2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr0 Hr1 Hr2 Hr3 Hr4 HS0 HS1 HS2 Hg]
        · isplitl [Hr0 Hr1 Hr2 Hr3 Hr4 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [HS0]
            · unfold owns; iexists _; isplitr
              swap; · iexact HS0
              ipureintro; exact View.read_writes_of_cover _ _ _ _ _ (scover1_B_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 _ _ _ _ _ _ _ _ _ _ _ _ _ _ _ _ _ _ _ _ _ _ _)
            unfold owns; iexists _; isplitr
            swap; · iexact HS2
            ipureintro; exact View.read_writes_of_cover _ _ _ _ _ (scover1_B_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr0, Hr1, Hr2, Hr3, Hr4, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (hyp1_B t h0 h2).1 (hyp1_B t h0 h2).2.1 (hyp1_B t h0 h2).2.2.1 (hyp1_B t h0 h2).2.2.2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hr0 Hr1 Hr2 Hr3 Hr4 HS0 HS1 HS2 Hg]
        · isplitl [Hr0 Hr1 Hr2 Hr3 Hr4 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [HS0]
            · unfold owns; iexists _; isplitr
              swap; · iexact HS0
              ipureintro; exact View.read_writes_of_cover _ _ _ _ _ (scover1_B_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 _ _ _ _ _ _ _ _ _ _ _ _ _ _ _ _ _ _ _ _ _ _ _)
            unfold owns; iexists _; isplitr
            swap; · iexact HS2
            ipureintro; exact View.read_writes_of_cover _ _ _ _ _ (scover1_B_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 < t.val / 4 % 4
    · rw [Dat.leavesExact_idle (dat1 V c) 3 t (idleAt1_3 t (hyp1_C t h0 h1).2.2.2) (noFlush1_3 t (hyp1_C t h0 h1).2.2.2)]
      rw [outsAt1_eq V c t, stepAt1_C V c t h0 h1]
      unfold sout1_C_0 sout1_C_1 sout1_C_2; (try dsimp only)
      have hz : t.val ≠ 0 := by omega
      rw [PhiS1_castSucc V c t, PhiS1_pos V c _ _ hz, prevS1_pos V c t hz]
      iintro ⟨⟨⟨Hr0, Hr1, Hr2, Hr3, Hr4, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (hyp1_C t h0 h1).1 (hyp1_C t h0 h1).2.1 (hyp1_C t h0 h1).2.2.1 (hyp1_C t h0 h1).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr0 Hr1 Hr2 Hr3 Hr4 HS0 HS1 HS2 Hg]
      · isplitl [Hr0 Hr1 Hr2 Hr3 Hr4 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_C_0 _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 _ _ _ _ _ _ _ _ _ _ _ _ _ _ _ _ _ _ _ _ _ _ _ _ _ _)
          unfold owns; iexists _; isplitr
          swap; · iexact HS2
          ipureintro; exact View.read_writes_of_cover _ _ _ _ _ (scover1_C_2 _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · by_cases h2 : t.val % 4 = t.val / 4 % 4
      · by_cases h3 : t.val % 4 = 3
        · rw [show (dat1 V c).leavesExact 3 t = owns (c : Thread nD τ) (ms1_3 t) fullShare ((dat1 V c).after 3 t) from by
              unfold Dat.leavesExact; rw [liveAt1_3 t (hyp1_E t h0 h1 h2 h3).2.2.2], after1_3]
          rw [outsAt1_eq V c t, stepAt1_E V c t h0 h1 h2 h3]
          unfold sout1_E_0 sout1_E_1 sout1_E_2 out1_E_3; (try dsimp only)
          have hz : t.val ≠ 0 := by omega
          rw [PhiS1_castSucc V c t, PhiS1_pos V c _ _ hz, prevS1_pos V c t hz]
          iintro ⟨⟨⟨Hr0, Hr1, Hr2, Hr3, Hr4, HS0, HS1, HS2⟩, Hg⟩, Ho, ⟨%d0, H0⟩, ⟨%d1, H1⟩, ⟨%d2, H2⟩, ⟨%d3, H3⟩⟩
          iapply ((kernelRun1_E c (grid1.coords t) _ _ _ _ _ _ _ _ _ _ _ _ _ _ (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [Hr0 Hr1 Hr2 Hr3 Hr4 HS0 HS1 HS2 Hg]
          · isplitl [Hr0 Hr1 Hr2 Hr3 Hr4 HS0 HS1 HS2]
            · isplitl [Hr0]; · iexact Hr0
              isplitl [Hr1]; · iexact Hr1
              isplitl [Hr2]; · iexact Hr2
              isplitl [Hr3]; · iexact Hr3
              isplitl [Hr4]; · iexact Hr4
              isplitl [HS0]
              · unfold owns; iexists _; isplitr
                swap; · iexact HS0
                ipureintro; exact View.read_writes_of_cover _ _ _ _ _ (scover1_E_0 _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_E_1 _ _ _ _ _ _ _ _ _ _ _ _ _ _ _ _ _ _ _ _ _ _ _ _ _ _)
              unfold owns; iexists _; isplitr
              swap; · iexact HS2
              ipureintro; exact View.read_writes_of_cover _ _ _ _ _ (scover1_E_2 _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_E_3 _ _ _ _ _ _ _ _ _ _ _ _ _ _ _ _ _ _ _ _ _ _ _ _ _ _)
        · rw [Dat.leavesExact_idle (dat1 V c) 3 t (idleAt1_3 t (hyp1_D t h0 h1 h2 h3).2.2.2) (noFlush1_3 t (hyp1_D t h0 h1 h2 h3).2.2.2)]
          rw [outsAt1_eq V c t, stepAt1_D V c t h0 h1 h2 h3]
          unfold sout1_D_0 sout1_D_1 sout1_D_2; (try dsimp only)
          have hz : t.val ≠ 0 := by omega
          rw [PhiS1_castSucc V c t, PhiS1_pos V c _ _ hz, prevS1_pos V c t hz]
          iintro ⟨⟨⟨Hr0, Hr1, Hr2, Hr3, Hr4, HS0, HS1, HS2⟩, Hg⟩, Ho, ⟨%d0, H0⟩, ⟨%d1, H1⟩, ⟨%d2, H2⟩, ⟨%d3, H3⟩⟩
          iapply ((kernelRun1_D c (grid1.coords t) _ _ _ _ _ _ _ _ _ _ _ _ _ _ (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hr0 Hr1 Hr2 Hr3 Hr4 HS0 HS1 HS2 Hg]
          · isplitl [Hr0 Hr1 Hr2 Hr3 Hr4 HS0 HS1 HS2]
            · isplitl [Hr0]; · iexact Hr0
              isplitl [Hr1]; · iexact Hr1
              isplitl [Hr2]; · iexact Hr2
              isplitl [Hr3]; · iexact Hr3
              isplitl [Hr4]; · iexact Hr4
              isplitl [HS0]
              · unfold owns; iexists _; isplitr
                swap; · iexact HS0
                ipureintro; exact View.read_writes_of_cover _ _ _ _ _ (scover1_D_0 _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_D_1 _ _ _ _ _ _ _ _ _ _ _ _ _ _ _ _ _ _ _ _ _ _ _ _ _ _)
              unfold owns; iexists _; isplitr
              swap; · iexact HS2
              ipureintro; exact View.read_writes_of_cover _ _ _ _ _ (scover1_D_2 _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
      · by_cases h3 : t.val % 4 = 3
        · rw [show (dat1 V c).leavesExact 3 t = owns (c : Thread nD τ) (ms1_3 t) fullShare ((dat1 V c).after 3 t) from by
              unfold Dat.leavesExact; rw [liveAt1_3 t (hyp1_G t h0 h1 h2 h3).2.2.2], after1_3]
          rw [outsAt1_eq V c t, stepAt1_G V c t h0 h1 h2 h3]
          unfold out1_G_3; (try dsimp only)
          have hz : t.val ≠ 0 := by omega
          rw [PhiS1_castSucc V c t, PhiS1_pos V c _ _ hz, prevS1_pos V c t hz]
          iintro ⟨⟨⟨Hr0, Hr1, Hr2, Hr3, Hr4, HS0, HS1, HS2⟩, Hg⟩, Ho, ⟨%d0, H0⟩, ⟨%d1, H1⟩, ⟨%d2, H2⟩, ⟨%d3, H3⟩⟩
          iapply ((kernelRun1_G c (grid1.coords t) _ _ _ _ _ _ _ _ _ _ _ _ _ _ (hyp1_G t h0 h1 h2 h3).1 (hyp1_G t h0 h1 h2 h3).2.1 (hyp1_G t h0 h1 h2 h3).2.2.1 (hyp1_G t h0 h1 h2 h3).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2).2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, HS0, HS1, HS2⟩
          isplitl [Hr0 Hr1 Hr2 Hr3 Hr4 HS0 HS1 HS2 Hg]
          · isplitl [Hr0 Hr1 Hr2 Hr3 Hr4 HS0 HS1 HS2]
            · isplitl [Hr0]; · iexact Hr0
              isplitl [Hr1]; · iexact Hr1
              isplitl [Hr2]; · iexact Hr2
              isplitl [Hr3]; · iexact Hr3
              isplitl [Hr4]; · iexact Hr4
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_G_3 _ _ _ _ _ _ _ _ _ _ _ _ _ _ _ _ _ _ _ _ _ _ _ _ _ _)
        · rw [Dat.leavesExact_idle (dat1 V c) 3 t (idleAt1_3 t (hyp1_F t h0 h1 h2 h3).2.2.2) (noFlush1_3 t (hyp1_F t h0 h1 h2 h3).2.2.2)]
          rw [outsAt1_eq V c t, stepAt1_F V c t h0 h1 h2 h3]
          (try dsimp only)
          have hz : t.val ≠ 0 := by omega
          rw [PhiS1_castSucc V c t, PhiS1_pos V c _ _ hz, prevS1_pos V c t hz]
          iintro ⟨⟨⟨Hr0, Hr1, Hr2, Hr3, Hr4, HS0, HS1, HS2⟩, Hg⟩, Ho, ⟨%d0, H0⟩, ⟨%d1, H1⟩, ⟨%d2, H2⟩, ⟨%d3, H3⟩⟩
          iapply ((kernelRun1_F c (grid1.coords t) _ _ _ _ _ _ _ _ _ _ _ _ _ _ (hyp1_F t h0 h1 h2 h3).1 (hyp1_F t h0 h1 h2 h3).2.1 (hyp1_F t h0 h1 h2 h3).2.2.1 (hyp1_F t h0 h1 h2 h3).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2) _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [Hr0 Hr1 Hr2 Hr3 Hr4 HS0 HS1 HS2 Hg]
          · isplitl [Hr0 Hr1 Hr2 Hr3 Hr4 HS0 HS1 HS2]
            · isplitl [Hr0]; · iexact Hr0
              isplitl [Hr1]; · iexact Hr1
              isplitl [Hr2]; · iexact Hr2
              isplitl [Hr3]; · iexact Hr3
              isplitl [Hr4]; · iexact Hr4
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨Hr0, Hr1, Hr2, Hr3, Hr4, HS0, HS1, HS2⟩, Hg⟩
  isplitl [Hr0 Hr1 Hr2 Hr3 Hr4 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [HS0]; · iexists _; iexact HS0
    isplitl [HS1]; · iexists _; iexact HS1
    iexists _; iexact HS2
  iexact Hg

end Region1

end Cert.Kernel.Hand

end
-- ==== Proof.K.Run.lean ====
/- The run of the kernel program's @main over its four segments — the host operations that build the stacked
   weight matrix and flatten the input, the projection region, the host operations that slice and reshape the
   projections, the attention region — from the launch memory to the return: the buffer contents at each segment
   boundary as a fold through @main, each region as a segment over "every unscoped buffer at the boundary's contents,
   the generator register at some state, nothing owed", the launch, and what the final memory holds: every unscoped
   buffer at the last boundary's contents, hence the four arguments as launched. For any float model `F`. -/
import proofs.«103980_j45028437131996_2_alg».proof.Proof.K.R0
import proofs.«103980_j45028437131996_2_alg».proof.Proof.K.R1
import Idealize.ShloMosaic.Lib.Pipeline.RegionsLoop
import Idealize.ShloMosaic.Lib.Pipeline.FrameSuffix
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The result array at the end is what the attention region's write-backs leave in its output window's array. -/
theorem W4_main_v9 (c : Dev nD) : W4 m ρ c (Proc.devRef .tc main_v9) = (dat1 (V3 m ρ) c).arrAt 3 cfg1.N :=
  W4_arr m ρ c 3

/-! ### The arguments end as launched: no host operation writes one and no region stages one, so the fold at an
    argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owed
    count, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed count: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. Its
    arrays split out of the unscoped buffers and put back at the exit contents; the generator register into the
    region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. Its
    invariant carries the scratch between points; the launch's state makes it at the first point and it gives the
    same state back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the
    TensorCores terminates, nothing faulting, and every final state has every unscoped buffer at the last
    boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.Kernel.Hand

end
-- ==== Proof.KI.R0.lean ====
/- The projection region (custom_call 0, pipeline 0) of the kernel program, at the contents `V` the region finds
   in the TensorCore's buffers: each window's block at a grid point, what the body leaves in the output window's
   staging buffer as a function of the two input blocks, the body's triple, the pipeline's proof data and its body
   obligation. Stated for any float model `F`: the body leaves each input block in place and stores
   the output window once, whole. -/
import proofs.«103980_j45028437131996_2_alg».proof.Proof.Gen.KernelIdeal.Launch
import proofs.«103980_j45028437131996_2_alg».proof.Proof.Gen.KernelIdeal.Skeleton
import proofs.«103980_j45028437131996_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only: where it is not fetched its block
    index has not moved) holds its block at every point, under the same two hypotheses. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x1024 := Rect.unit (s := S2048x1024) ![0, 0] S2048x1024.size inb_S2048x1024_S2048x1024_0_0
abbrev r0_1 : Rect S1024x192 := Rect.unit (s := S1024x192) ![0, 0] S1024x192.size inb_S1024x192_S1024x192_0_0
abbrev r0_2 : Rect S2048x192 := Rect.unit (s := S2048x192) ![0, 0] S2048x192.size inb_S2048x192_S2048x192_0_0

/-! ## What the body leaves in the output window's buffer -/

/-- Window 2's staging buffer after the body, from the two input blocks: its one store, of the product of the
    loaded blocks, as a piece over the whole buffer. -/
def out0_2 (x0 : Vec F S2048x1024 .f32) (x1 : Vec F S1024x192 .f32) : Vec F S2048x192 .bf16 :=
  View.canon [⟨r0_2, k0_pay1 (View.ld x0 r0_0) (View.ld x1 r0_1)⟩]

/-- The store's rectangle is the whole buffer, so it covers it. -/
theorem cover0_2 (p0 : Vec F S2048x192 .bf16) (y : S2048x192.Idx) :
    ∃ pc ∈ ([⟨r0_2, p0⟩] : List (View.Piece (Elt F) S2048x192 .bf16)), y ∈ pc.1.set :=
  View.cover_of_tiled [⟨r0_2, p0⟩] S2048x192.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords) (arg0 : Memref sig .tc .vmem S2048x1024 .f32) (harg0 : arg0.IsWhole) (arg1 : Memref sig .tc .vmem S1024x192 .f32) (harg1 : arg1.IsWhole) (arg2 : Memref sig .tc .vmem S2048x192 .bf16) (harg2 : arg2.IsWhole)
    (x0 : Vec F S2048x1024 .f32) (x1 : Vec F S1024x192 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Defs.lean ====
/-
  The attention region (the second pallas_call, grid (b, qi, kv) of 4 × 4 × 4 points in row-major order) — what
  its body's runs are stated over: each window's block at a point as read off the arrays the region finds; the
  four conditions of the body's branches in closed form over the point's number t = 16 b + 4 qi + kv
  (first key tile: kv = 0; a tile wholly below the diagonal: kv < qi; the diagonal tile: kv = qi; last key
  tile: kv = 3); where the output window is idle (every point but kv = 3, where alone it is written back);
  the three scratch buffers (running maximum, running normaliser, running weighted sum) carried from point
  to point; and the region invariant with those three buffers split out of the scoped rest.
-/
import proofs.«103980_j45028437131996_2_alg».proof.Proof.Gen.KernelIdeal.Launch
import proofs.«103980_j45028437131996_2_alg».proof.Proof.Gen.KernelIdeal.Skeleton
import proofs.«103980_j45028437131996_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved (the key and value windows keep the diagonal block while kv > qi). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's four branch conditions, from the grid coordinates, and their closed forms -/

/-- First key tile (kv = 0): the scratch is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- A key tile wholly below the diagonal (kv < qi): the unmasked update. -/
abbrev cond1_1 (i : grid1.Coords) : Prop := (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < t.val / 4 % 4 :=
  (by decide +kernel : ∀ t : Fin grid1.N, cond1_1 (grid1.coords t) ↔ t.val % 4 < t.val / 4 % 4)
/-- The diagonal tile (kv = qi): the masked update. -/
abbrev cond1_2 (i : grid1.Coords) : Prop := (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)
/-- Last key tile (kv = 3): the quotient is stored into the output block. -/
abbrev cond1_3 (i : grid1.Coords) : Prop := k1_cond4 i = 1#1
theorem hcond1_3 : ∀ t : Fin cfg1.N, cond1_3 (grid1.coords t) ↔ t.val % 4 = 3 :=
  (by decide +kernel : ∀ t : Fin grid1.N, cond1_3 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and is not written back. -/
theorem idleAt1_3 : ∀ t : Fin cfg1.N, ¬cond1_3 (grid1.coords t) → cfg1.idle 3 (grid1.coords t) = true := by decide +kernel
theorem noFlush1_3 : ∀ t : Fin cfg1.N, ¬cond1_3 (grid1.coords t) → (cfg1.win 3).flush t = false := by decide +kernel
/-- At the last key tile it is live. -/
theorem liveAt1_3 : ∀ t : Fin cfg1.N, cond1_3 (grid1.coords t) → cfg1.idle 3 (grid1.coords t) = false := by decide +kernel

/-! ## The staging and scratch memrefs the body is called with -/

abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The running maximum, the running normaliser and the running weighted sum: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-- The scoped buffers of the core that are neither this region's staging buffers nor its scratch: the projection
    region's five staging buffers, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class's invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.R1RunA.lean ====
/-
  The attention kernel's body run whole in ONE of the seven cases of its four branches that the grid meets —
  the first key tile of a query tile below the first (kv = 0 < qi): the scratch is reset, then updated by the unmasked tile.
  The inputs' staging memrefs are handed in and given back at their contents; the output's buffer, which the body does not touch here, is given back as found;
  the three scratch buffers are taken at anything (they are reset first) and left with the stores written. The lists of stores (last first) are what the run finds.
-/
import proofs.«103980_j45028437131996_2_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : cond1_0 i) (hc1 : cond1_1 i) (hc2 : ¬cond1_2 i) (hc3 : ¬cond1_3 i)
    (x0 x1 x2 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.KernelIdeal.Hand

end
-- ==== Proof.KI.R1RunB.lean ====
/-
  The attention kernel's body run whole in ONE of the seven cases of its four branches that the grid meets —
  the first key tile of the first query tile (kv = qi = 0): the scratch is reset, then updated by the masked diagonal tile.
  The inputs' staging memrefs are handed in and given back at their contents; the output's buffer, which the body does not touch here, is given back as found;
  the three scratch buffers are taken at anything (they are reset first) and left with the stores written. The lists of stores (last first) are what the run finds.
-/
import proofs.«103980_j45028437131996_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : cond1_0 i) (hc1 : ¬cond1_1 i) (hc2 : cond1_2 i) (hc3 : ¬cond1_3 i)
    (x0 x1 x2 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.KernelIdeal.Hand

end
-- ==== Proof.KI.R1RunC.lean ====
/-
  The attention kernel's body run whole in ONE of the seven cases of its four branches that the grid meets —
  a later key tile wholly below the diagonal (0 < kv < qi): the unmasked update.
  The inputs' staging memrefs are handed in and given back at their contents; the output's buffer, which the body does not touch here, is given back as found;
  the three scratch buffers are taken at the contents the point before left and given back with the stores written. The lists of stores (last first) are what the run finds.
-/
import proofs.«103980_j45028437131996_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : cond1_1 i) (hc2 : ¬cond1_2 i) (hc3 : ¬cond1_3 i)
    (x0 x1 x2 : Vec F S1x1024x64 .bf16) (xs0 xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.KernelIdeal.Hand

end
-- ==== Proof.KI.R1RunD.lean ====
/-
  The attention kernel's body run whole in ONE of the seven cases of its four branches that the grid meets —
  a diagonal tile that is neither first nor last (0 < kv = qi < 3): the masked update.
  The inputs' staging memrefs are handed in and given back at their contents; the output's buffer, which the body does not touch here, is given back as found;
  the three scratch buffers are taken at the contents the point before left and given back with the stores written. The lists of stores (last first) are what the run finds.
-/
import proofs.«103980_j45028437131996_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : ¬cond1_1 i) (hc2 : cond1_2 i) (hc3 : ¬cond1_3 i)
    (x0 x1 x2 : Vec F S1x1024x64 .bf16) (xs0 xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.KernelIdeal.Hand

end
-- ==== Proof.KI.R1RunE.lean ====
/-
  The attention kernel's body run whole in ONE of the seven cases of its four branches that the grid meets —
  the last diagonal tile (kv = qi = 3): the masked update, then the quotient stored.
  The inputs' staging memrefs are handed in and given back at their contents; the output's buffer is taken at anything and left with the body's store written;
  the three scratch buffers are taken at the contents the point before left and given back with the stores written. The lists of stores (last first) are what the run finds.
-/
import proofs.«103980_j45028437131996_2_alg».proof.Proof.KI.R1RunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    iexists _; iexact H9

end Cert.KernelIdeal.Hand

end
-- ==== Proof.KI.R1RunF.lean ====
/-
  The attention kernel's body run whole in ONE of the seven cases of its four branches that the grid meets —
  a key tile above the diagonal that is not the last (qi < kv < 3): nothing is done.
  The inputs' staging memrefs are handed in and given back at their contents; the output's buffer, which the body does not touch here, is given back as found;
  the three scratch buffers are given back as found.
-/
import proofs.«103980_j45028437131996_2_alg».proof.Proof.KI.R1RunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem kernelRun1_F (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : ¬cond1_1 i) (hc2 : ¬cond1_2 i) (hc3 : ¬cond1_3 i)
    (x0 x1 x2 : Vec F S1x1024x64 .bf16) (xs0 xs1 : Vec F S1024x1 .f32) (xs2 : Vec F S1024x64 .f32) :
    ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K := by
  refine fun xi3 E K => ?run
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.KernelIdeal.Hand

end
-- ==== Proof.KI.R1RunG.lean ====
/-
  The attention kernel's body run whole in ONE of the seven cases of its four branches that the grid meets —
  the last key tile above the diagonal (qi < kv = 3): the quotient stored.
  The inputs' staging memrefs are handed in and given back at their contents; the output's buffer is taken at anything and left with the body's store written;
  the three scratch buffers are given back as found. The lists of stores (last first) are what the run finds.
-/
import proofs.«103980_j45028437131996_2_alg».proof.Proof.KI.R1RunF

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_G (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)
    (hc0 : ¬cond1_0 i) (hc1 : ¬cond1_1 i) (hc2 : ¬cond1_2 i) (hc3 : cond1_3 i)
    (x0 x1 x2 : Vec F S1x1024x64 .bf16) (xs0 xs1 : Vec F S1024x1 .f32) (xs2 : Vec F S1024x64 .f32) :
    { L3 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton, k1_part1_eq_skeleton, k1_part2_eq_skeleton]; unfold cc1__attn_kernel_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.KernelIdeal.Hand

end
-- ==== Proof.KI.R1.lean ====
/-
  The attention region, the rest of its half of the frame: what each of the seven cases leaves in the three
  scratch buffers and in the output's staging buffer (its stores read back); one grid point as a step on the
  scratch contents — which case the point is in is decided by kv = t mod 4 against qi = (t / 4) mod 4 —; the
  contents after every point as the fold of that step over the points in order (the step at a point with
  kv = 0 ignores what it is given: the scratch is reset there); the region invariant carrying the scratch at
  the contents the point before left; the proof data; and the body obligation, the step's case chosen by the
  same arithmetic.
-/
import proofs.«103980_j45028437131996_2_alg».proof.Proof.KI.R1RunG

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 hc3 x0 x1 x2).1, y ∈ pc.1.set :=
  View.cover_of_wholeMem (kernelRun1_A c i arg3 harg3 arg4 harg4 arg5 harg5 arg6 harg6 arg7 harg7 arg8 harg8 arg9 harg9 hc0 hc1 hc2 hc3 x0 x1 x2).1 (by sl_whole_mem) y
/-- What case A leaves in scratch buffer 0: its stores read back. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2).1)
theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_wholeMem (kernelRun1_A c i arg3 harg3 arg4 harg4 arg5 harg5 arg6 harg6 arg7 harg7 arg8 harg8 arg9 harg9 hc0 hc1 hc2 hc3 x0 x1 x2).2.1 (by sl_whole_mem) y
/-- What case A leaves in scratch buffer 1: its stores read back. -/
def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2).2.1)
theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) (y : S1024x64.Idx) :
    ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_wholeMem (kernelRun1_A c i arg3 harg3 arg4 harg4 arg5 harg5 arg6 harg6 arg7 harg7 arg8 harg8 arg9 harg9 hc0 hc1 hc2 hc3 x0 x1 x2).2.2.1 (by sl_whole_mem) y
/-- What case A leaves in scratch buffer 2: its stores read back. -/
def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 hc3 x0 x1 x2).2.2.1)

theorem scover1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) (y : S1024x1.Idx) :
    ∃ pc ∈ (kernelRun1_B c i arg3 harg3 arg4 harg4 arg5 harg5 arg6 harg6 arg7 harg7 arg8 harg8 arg9 harg9 hc0 hc1 hc2 hc3 x0 x1 x2).1, y ∈ pc.1.set :=
  View.cover_of_wholeMem (kernelRun1_B c i arg3 harg3 arg4 harg4 arg5 harg5 arg6 harg6 arg7 harg7 arg8 harg8 arg9 harg9 hc0 hc1 hc2 hc3 x0 x1 x2).1 (by sl_whole_mem) y
/-- What case B leaves in scratch buffer 0: its stores read back. -/
def sout1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 hc3 x0 x1 x2).1)
theorem scover1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) (y : S1024x1.Idx) :
    ∃ pc ∈ (kernelRun1_B c i arg3 harg3 arg4 harg4 arg5 harg5 arg6 harg6 arg7 harg7 arg8 harg8 arg9 harg9 hc0 hc1 hc2 hc3 x0 x1 x2).2.1, y ∈ pc.1.set :=
  View.cover_of_wholeMem (kernelRun1_B c i arg3 harg3 arg4 harg4 arg5 harg5 arg6 harg6 arg7 harg7 arg8 harg8 arg9 harg9 hc0 hc1 hc2 hc3 x0 x1 x2).2.1 (by sl_whole_mem) y
/-- What case B leaves in scratch buffer 1: its stores read back. -/
def sout1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 hc3 x0 x1 x2).2.1)
theorem scover1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) (y : S1024x64.Idx) :
    ∃ pc ∈ (kernelRun1_B c i arg3 harg3 arg4 harg4 arg5 harg5 arg6 harg6 arg7 harg7 arg8 harg8 arg9 harg9 hc0 hc1 hc2 hc3 x0 x1 x2).2.2.1, y ∈ pc.1.set :=
  View.cover_of_wholeMem (kernelRun1_B c i arg3 harg3 arg4 harg4 arg5 harg5 arg6 harg6 arg7 harg7 arg8 harg8 arg9 harg9 hc0 hc1 hc2 hc3 x0 x1 x2).2.2.1 (by sl_whole_mem) y
/-- What case B leaves in scratch buffer 2: its stores read back. -/
def sout1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) : Vec F S1024x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 hc3 x0 x1 x2).2.2.1)

theorem scover1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) (y : S1024x1.Idx) :
    ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_wholeMem (kernelRun1_C c i arg3 harg3 arg4 harg4 arg5 harg5 arg6 harg6 arg7 harg7 arg8 harg8 arg9 harg9 hc0 hc1 hc2 hc3 x0 x1 x2 xs0 xs1 xs2).1 (by sl_whole_mem) y
/-- What case C leaves in scratch buffer 0: its stores read back. -/
def sout1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 hc3 x0 x1 x2 xs0 xs1 xs2).1)
theorem scover1_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) (y : S1024x1.Idx) :
    ∃ pc ∈ (kernelRun1_C c i arg3 harg3 arg4 harg4 arg5 harg5 arg6 harg6 arg7 harg7 arg8 harg8 arg9 harg9 hc0 hc1 hc2 hc3 x0 x1 x2 xs0 xs1 xs2).2.1, y ∈ pc.1.set :=
  View.cover_of_wholeMem (kernelRun1_C c i arg3 harg3 arg4 harg4 arg5 harg5 arg6 harg6 arg7 harg7 arg8 harg8 arg9 harg9 hc0 hc1 hc2 hc3 x0 x1 x2 xs0 xs1 xs2).2.1 (by sl_whole_mem) y
/-- What case C leaves in scratch buffer 1: its stores read back. -/
def sout1_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 hc3 x0 x1 x2 xs0 xs1 xs2).2.1)
theorem scover1_C_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) (y : S1024x64.Idx) :
    ∃ pc ∈ (kernelRun1_C c i arg3 harg3 arg4 harg4 arg5 harg5 arg6 harg6 arg7 harg7 arg8 harg8 arg9 harg9 hc0 hc1 hc2 hc3 x0 x1 x2 xs0 xs1 xs2).2.2.1, y ∈ pc.1.set :=
  View.cover_of_wholeMem (kernelRun1_C c i arg3 harg3 arg4 harg4 arg5 harg5 arg6 harg6 arg7 harg7 arg8 harg8 arg9 harg9 hc0 hc1 hc2 hc3 x0 x1 x2 xs0 xs1 xs2).2.2.1 (by sl_whole_mem) y
/-- What case C leaves in scratch buffer 2: its stores read back. -/
def sout1_C_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_C c i arg3 harg3 arg4 harg4 arg5 harg5 arg6 harg6 arg7 harg7 arg8 harg8 arg9 harg9 hc0 hc1 hc2 hc3 x0 x1 x2 xs0 xs1 xs2).2.2.1)

theorem scover1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) (y : S1024x1.Idx) :
    ∃ pc ∈ (kernelRun1_D c i arg3 harg3 arg4 harg4 arg5 harg5 arg6 harg6 arg7 harg7 arg8 harg8 arg9 harg9 hc0 hc1 hc2 hc3 x0 x1 x2 xs0 xs1 xs2).1, y ∈ pc.1.set :=
  View.cover_of_wholeMem (kernelRun1_D c i arg3 harg3 arg4 harg4 arg5 harg5 arg6 harg6 arg7 harg7 arg8 harg8 arg9 harg9 hc0 hc1 hc2 hc3 x0 x1 x2 xs0 xs1 xs2).1 (by sl_whole_mem) y
/-- What case D leaves in scratch buffer 0: its stores read back. -/
def sout1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2 xs0 xs1 xs2).1)
theorem scover1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) (y : S1024x1.Idx) :
    ∃ pc ∈ (kernelRun1_D c i arg3 harg3 arg4 harg4 arg5 harg5 arg6 harg6 arg7 harg7 arg8 harg8 arg9 harg9 hc0 hc1 hc2 hc3 x0 x1 x2 xs0 xs1 xs2).2.1, y ∈ pc.1.set :=
  View.cover_of_wholeMem (kernelRun1_D c i arg3 harg3 arg4 harg4 arg5 harg5 arg6 harg6 arg7 harg7 arg8 harg8 arg9 harg9 hc0 hc1 hc2 hc3 x0 x1 x2 xs0 xs1 xs2).2.1 (by sl_whole_mem) y
/-- What case D leaves in scratch buffer 1: its stores read back. -/
def sout1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 hc3 x0 x1 x2 xs0 xs1 xs2).2.1)
theorem scover1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) (y : S1024x64.Idx) :
    ∃ pc ∈ (kernelRun1_D c i arg3 harg3 arg4 harg4 arg5 harg5 arg6 harg6 arg7 harg7 arg8 harg8 arg9 harg9 hc0 hc1 hc2 hc3 x0 x1 x2 xs0 xs1 xs2).2.2.1, y ∈ pc.1.set :=
  View.cover_of_wholeMem (kernelRun1_D c i arg3 harg3 arg4 harg4 arg5 harg5 arg6 harg6 arg7 harg7 arg8 harg8 arg9 harg9 hc0 hc1 hc2 hc3 x0 x1 x2 xs0 xs1 xs2).2.2.1 (by sl_whole_mem) y
/-- What case D leaves in scratch buffer 2: its stores read back. -/
def sout1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 hc3 x0 x1 x2 xs0 xs1 xs2).2.2.1)

theorem scover1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) (y : S1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.1, y ∈ pc.1.set :=
  View.cover_of_wholeMem (kernelRun1_E c i arg3 harg3 arg4 harg4 arg5 harg5 arg6 harg6 arg7 harg7 arg8 harg8 arg9 harg9 hc0 hc1 hc2 hc3 x0 x1 x2 xs0 xs1 xs2).2.1 (by sl_whole_mem) y
/-- What case E leaves in scratch buffer 0: its stores read back. -/
def sout1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 xs0 xs1 xs2).2.1)
theorem scover1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) (y : S1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.1, y ∈ pc.1.set :=
  View.cover_of_wholeMem (kernelRun1_E c i arg3 harg3 arg4 harg4 arg5 harg5 arg6 harg6 arg7 harg7 arg8 harg8 arg9 harg9 hc0 hc1 hc2 hc3 x0 x1 x2 xs0 xs1 xs2).2.2.1 (by sl_whole_mem) y
/-- What case E leaves in scratch buffer 1: its stores read back. -/
def sout1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 xs0 xs1 xs2).2.2.1)
theorem scover1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) (y : S1024x64.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_wholeMem (kernelRun1_E c i arg3 harg3 arg4 harg4 arg5 harg5 arg6 harg6 arg7 harg7 arg8 harg8 arg9 harg9 hc0 hc1 hc2 hc3 x0 x1 x2 xs0 xs1 xs2).2.2.2.1 (by sl_whole_mem) y
/-- What case E leaves in scratch buffer 2: its stores read back. -/
def sout1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_E c i arg3 harg3 arg4 harg4 arg5 harg5 arg6 harg6 arg7 harg7 arg8 harg8 arg9 harg9 hc0 hc1 hc2 hc3 x0 x1 x2 xs0 xs1 xs2).2.2.2.1)
theorem cover1_E_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) (y : S1x1024x64.Idx) :
    ∃ pc ∈ (kernelRun1_E c i arg3 harg3 arg4 harg4 arg5 harg5 arg6 harg6 arg7 harg7 arg8 harg8 arg9 harg9 hc0 hc1 hc2 hc3 x0 x1 x2 xs0 xs1 xs2).1, y ∈ pc.1.set :=
  View.cover_of_wholeMem (kernelRun1_E c i arg3 harg3 arg4 harg4 arg5 harg5 arg6 harg6 arg7 harg7 arg8 harg8 arg9 harg9 hc0 hc1 hc2 hc3 x0 x1 x2 xs0 xs1 xs2).1 (by sl_whole_mem) y
/-- What case E leaves in the output's staging buffer: its store read back. -/
def out1_E_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) : Vec F S1x1024x64 .f32 :=
  VO1_3.read (Elt F) (VO1_3.writes (Elt F) VO1_3.junk (kernelRun1_E c i arg3 harg3 arg4 harg4 arg5 harg5 arg6 harg6 arg7 harg7 arg8 harg8 arg9 harg9 hc0 hc1 hc2 hc3 x0 x1 x2 xs0 xs1 xs2).1)

theorem cover1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i) (x0 x1 x2 : Vec F S1x1024x64 .bf16) (xs0 xs1 : Vec F S1024x1 .f32) (xs2 : Vec F S1024x64 .f32) (y : S1x1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).1, y ∈ pc.1.set :=
  View.cover_of_wholeMem (kernelRun1_G c i arg3 harg3 arg4 harg4 arg5 harg5 arg6 harg6 arg7 harg7 arg8 harg8 arg9 harg9 hc0 hc1 hc2 hc3 x0 x1 x2 xs0 xs1 xs2).1 (by sl_whole_mem) y
/-- What case G leaves in the output's staging buffer: its store read back. -/
def out1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i) (x0 x1 x2 : Vec F S1x1024x64 .bf16) (xs0 xs1 : Vec F S1024x1 .f32) (xs2 : Vec F S1024x64 .f32) : Vec F S1x1024x64 .f32 :=
  VO1_3.read (Elt F) (VO1_3.writes (Elt F) VO1_3.junk (kernelRun1_G c i arg3 harg3 arg4 harg4 arg5 harg5 arg6 harg6 arg7 harg7 arg8 harg8 arg9 harg9 hc0 hc1 hc2 hc3 x0 x1 x2 xs0 xs1 xs2).1)

/-! ## The cases' hypotheses from the point's number -/

theorem hyp1_A (t : Fin cfg1.N) (h0 : t.val % 4 = 0) (h1 : t.val % 4 < t.val / 4 % 4) :
    cond1_0 (grid1.coords t) ∧ cond1_1 (grid1.coords t) ∧ ¬cond1_2 (grid1.coords t) ∧ ¬cond1_3 (grid1.coords t) := by
  have hN : t.val < 64 := lt_of_lt_of_eq t.isLt (show cfg1.N = 64 from N_1)
  exact ⟨((hcond1_0 t).mpr (by omega)), ((hcond1_1 t).mpr (by omega)), (fun h => by have := (hcond1_2 t).mp h; omega), (fun h => by have := (hcond1_3 t).mp h; omega)⟩

theorem hyp1_B (t : Fin cfg1.N) (h0 : t.val % 4 = 0) (h2 : t.val % 4 = t.val / 4 % 4) :
    cond1_0 (grid1.coords t) ∧ ¬cond1_1 (grid1.coords t) ∧ cond1_2 (grid1.coords t) ∧ ¬cond1_3 (grid1.coords t) := by
  have hN : t.val < 64 := lt_of_lt_of_eq t.isLt (show cfg1.N = 64 from N_1)
  exact ⟨((hcond1_0 t).mpr (by omega)), (fun h => by have := (hcond1_1 t).mp h; omega), ((hcond1_2 t).mpr (by omega)), (fun h => by have := (hcond1_3 t).mp h; omega)⟩

theorem hyp1_C (t : Fin cfg1.N) (h0 : ¬t.val % 4 = 0) (h1 : t.val % 4 < t.val / 4 % 4) :
    ¬cond1_0 (grid1.coords t) ∧ cond1_1 (grid1.coords t) ∧ ¬cond1_2 (grid1.coords t) ∧ ¬cond1_3 (grid1.coords t) := by
  have hN : t.val < 64 := lt_of_lt_of_eq t.isLt (show cfg1.N = 64 from N_1)
  exact ⟨(fun h => by have := (hcond1_0 t).mp h; omega), ((hcond1_1 t).mpr (by omega)), (fun h => by have := (hcond1_2 t).mp h; omega), (fun h => by have := (hcond1_3 t).mp h; omega)⟩

theorem hyp1_D (t : Fin cfg1.N) (h0 : ¬t.val % 4 = 0) (h1 : ¬t.val % 4 < t.val / 4 % 4) (h2 : t.val % 4 = t.val / 4 % 4) (h3 : ¬t.val % 4 = 3) :
    ¬cond1_0 (grid1.coords t) ∧ ¬cond1_1 (grid1.coords t) ∧ cond1_2 (grid1.coords t) ∧ ¬cond1_3 (grid1.coords t) := by
  have hN : t.val < 64 := lt_of_lt_of_eq t.isLt (show cfg1.N = 64 from N_1)
  exact ⟨(fun h => by have := (hcond1_0 t).mp h; omega), (fun h => by have := (hcond1_1 t).mp h; omega), ((hcond1_2 t).mpr (by omega)), (fun h => by have := (hcond1_3 t).mp h; omega)⟩

theorem hyp1_E (t : Fin cfg1.N) (h0 : ¬t.val % 4 = 0) (h1 : ¬t.val % 4 < t.val / 4 % 4) (h2 : t.val % 4 = t.val / 4 % 4) (h3 : t.val % 4 = 3) :
    ¬cond1_0 (grid1.coords t) ∧ ¬cond1_1 (grid1.coords t) ∧ cond1_2 (grid1.coords t) ∧ cond1_3 (grid1.coords t) := by
  have hN : t.val < 64 := lt_of_lt_of_eq t.isLt (show cfg1.N = 64 from N_1)
  exact ⟨(fun h => by have := (hcond1_0 t).mp h; omega), (fun h => by have := (hcond1_1 t).mp h; omega), ((hcond1_2 t).mpr (by omega)), ((hcond1_3 t).mpr (by omega))⟩

theorem hyp1_F (t : Fin cfg1.N) (h0 : ¬t.val % 4 = 0) (h1 : ¬t.val % 4 < t.val / 4 % 4) (h2 : ¬t.val % 4 = t.val / 4 % 4) (h3 : ¬t.val % 4 = 3) :
    ¬cond1_0 (grid1.coords t) ∧ ¬cond1_1 (grid1.coords t) ∧ ¬cond1_2 (grid1.coords t) ∧ ¬cond1_3 (grid1.coords t) := by
  have hN : t.val < 64 := lt_of_lt_of_eq t.isLt (show cfg1.N = 64 from N_1)
  exact ⟨(fun h => by have := (hcond1_0 t).mp h; omega), (fun h => by have := (hcond1_1 t).mp h; omega), (fun h => by have := (hcond1_2 t).mp h; omega), (fun h => by have := (hcond1_3 t).mp h; omega)⟩

theorem hyp1_G (t : Fin cfg1.N) (h0 : ¬t.val % 4 = 0) (h1 : ¬t.val % 4 < t.val / 4 % 4) (h2 : ¬t.val % 4 = t.val / 4 % 4) (h3 : t.val % 4 = 3) :
    ¬cond1_0 (grid1.coords t) ∧ ¬cond1_1 (grid1.coords t) ∧ ¬cond1_2 (grid1.coords t) ∧ cond1_3 (grid1.coords t) := by
  have hN : t.val < 64 := lt_of_lt_of_eq t.isLt (show cfg1.N = 64 from N_1)
  exact ⟨(fun h => by have := (hcond1_0 t).mp h; omega), (fun h => by have := (hcond1_1 t).mp h; omega), (fun h => by have := (hcond1_2 t).mp h; omega), ((hcond1_3 t).mpr (by omega))⟩

section Region1

variable (V : (c : Dev nD) → (b : Ref sig .tc) → Buf (Elt F) ((c : Thread nD τ).loc b))

/-- The three scratch buffers' contents: running maximum, running normaliser, running weighted sum. -/
abbrev Scr1 : Type := Vec F S1024x1 .f32 × Vec F S1024x1 .f32 × Vec F S1024x64 .f32
/-- Contents nothing consults: the output's buffer where the window is idle, the scratch before the first reset. -/
def junkO1 : Vec F S1x1024x64 .f32 := VO1_3.read (Elt F) VO1_3.junk
def junkS1 : Scr1 (F := F) := (VS1_0.read (Elt F) VS1_0.junk, VS1_1.read (Elt F) VS1_1.junk, VS1_2.read (Elt F) VS1_2.junk)

/-- ONE POINT: from the scratch contents `p` the point before left, what the body leaves in the output's staging
    buffer and in the scratch. -/
def stepAt1 (c : Dev nD) (t : Fin cfg1.N) (p : Scr1 (F := F)) : Vec F S1x1024x64 .f32 × Scr1 (F := F) :=
  if h0 : t.val % 4 = 0 then
    if h1 : t.val % 4 < t.val / 4 % 4 then (junkO1, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t)))
    else if h2 : t.val % 4 = t.val / 4 % 4 then (junkO1, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t), sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t)))
    else (junkO1, p)
  else if h1 : t.val % 4 < t.val / 4 % 4 then (junkO1, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2))
  else if h2 : t.val % 4 = t.val / 4 % 4 then
    if h3 : t.val % 4 = 3 then (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, (sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2))
    else (junkO1, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2))
  else if h3 : t.val % 4 = 3 then (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_G t h0 h1 h2 h3).1 (hyp1_G t h0 h1 h2 h3).2.1 (hyp1_G t h0 h1 h2 h3).2.2.1 (hyp1_G t h0 h1 h2 h3).2.2.2 (iblk1 V c 0 t) (iblk1 V c 1 t) (iblk1 V c 2 t) p.1 p.2.1 p.2.2, p)
  else (junkO1, p)

theorem stepAt1_A (c : Dev nD) (t : Fin cfg1.N) (h0 : t.val % 4 = 0) (h1 : t.val % 4 < t.val / 4 % 4) (p : Scr1 (F := F)) :
    stepAt1 V c t p = (junkO1, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_A t h0 h1).1 (hyp1_A t h0 h1).2.1 (hyp1_A t h0 h1).2.2.1 (hyp1_A t h0 h1).2.2.2 (iblk1 V c 0 t) (iblk1 V c 1 t) (iblk1 V c 2 t))) := by
  unfold stepAt1; rw [dif_pos h0, dif_pos h1]

theorem stepAt1_B (c : Dev nD) (t : Fin cfg1.N) (h0 : t.val % 4 = 0) (h2 : t.val % 4 = t.val / 4 % 4) (p : Scr1 (F := F)) :
    stepAt1 V c t p = (junkO1, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t), sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_B t h0 h2).1 (hyp1_B t h0 h2).2.1 (hyp1_B t h0 h2).2.2.1 (hyp1_B t h0 h2).2.2.2 (iblk1 V c 0 t) (iblk1 V c 1 t) (iblk1 V c 2 t))) := by
  unfold stepAt1; rw [dif_pos h0, dif_neg (by omega : ¬t.val % 4 < t.val / 4 % 4), dif_pos h2]

theorem stepAt1_C (c : Dev nD) (t : Fin cfg1.N) (h0 : ¬t.val % 4 = 0) (h1 : t.val % 4 < t.val / 4 % 4) (p : Scr1 (F := F)) :
    stepAt1 V c t p = (junkO1, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_C t h0 h1).1 (hyp1_C t h0 h1).2.1 (hyp1_C t h0 h1).2.2.1 (hyp1_C t h0 h1).2.2.2 (iblk1 V c 0 t) (iblk1 V c 1 t) (iblk1 V c 2 t) p.1 p.2.1 p.2.2)) := by
  unfold stepAt1; rw [dif_neg h0, dif_pos h1]

theorem stepAt1_D (c : Dev nD) (t : Fin cfg1.N) (h0 : ¬t.val % 4 = 0) (h1 : ¬t.val % 4 < t.val / 4 % 4) (h2 : t.val % 4 = t.val / 4 % 4) (h3 : ¬t.val % 4 = 3) (p : Scr1 (F := F)) :
    stepAt1 V c t p = (junkO1, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) p.1 p.2.1 p.2.2)) := by
  unfold stepAt1; rw [dif_neg h0, dif_neg h1, dif_pos h2, dif_neg h3]

theorem stepAt1_E (c : Dev nD) (t : Fin cfg1.N) (h0 : ¬t.val % 4 = 0) (h1 : ¬t.val % 4 < t.val / 4 % 4) (h2 : t.val % 4 = t.val / 4 % 4) (h3 : t.val % 4 = 3) (p : Scr1 (F := F)) :
    stepAt1 V c t p = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, (sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) p.1 p.2.1 p.2.2)) := by
  unfold stepAt1; rw [dif_neg h0, dif_neg h1, dif_pos h2, dif_pos h3]

theorem stepAt1_F (c : Dev nD) (t : Fin cfg1.N) (h0 : ¬t.val % 4 = 0) (h1 : ¬t.val % 4 < t.val / 4 % 4) (h2 : ¬t.val % 4 = t.val / 4 % 4) (h3 : ¬t.val % 4 = 3) (p : Scr1 (F := F)) :
    stepAt1 V c t p = (junkO1, p) := by
  unfold stepAt1; rw [dif_neg h0, dif_neg h1, dif_neg h2, dif_neg h3]

theorem stepAt1_G (c : Dev nD) (t : Fin cfg1.N) (h0 : ¬t.val % 4 = 0) (h1 : ¬t.val % 4 < t.val / 4 % 4) (h2 : ¬t.val % 4 = t.val / 4 % 4) (h3 : t.val % 4 = 3) (p : Scr1 (F := F)) :
    stepAt1 V c t p = (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hyp1_G t h0 h1 h2 h3).1 (hyp1_G t h0 h1 h2 h3).2.1 (hyp1_G t h0 h1 h2 h3).2.2.1 (hyp1_G t h0 h1 h2 h3).2.2.2 (iblk1 V c 0 t) (iblk1 V c 1 t) (iblk1 V c 2 t) p.1 p.2.1 p.2.2, p) := by
  unfold stepAt1; rw [dif_neg h0, dif_neg h1, dif_neg h2, dif_pos h3]

/-- THE ACCUMULATION: the output's staging buffer and the scratch after the body at position `n`. -/
def outsAt1 (c : Dev nD) : (n : ℕ) → n < cfg1.N → Vec F S1x1024x64 .f32 × Scr1 (F := F)
  | 0, hn => stepAt1 V c ⟨0, hn⟩ junkS1
  | n + 1, hn => stepAt1 V c ⟨n + 1, hn⟩ (outsAt1 c n (Nat.lt_of_succ_lt hn)).2

/-- What the scratch holds when the body runs at `t`. -/
def prevS1 (c : Dev nD) (t : Fin cfg1.N) : Scr1 (F := F) :=
  if h : t.val = 0 then junkS1 else (outsAt1 V c (t.val - 1) (Nat.lt_of_le_of_lt (Nat.sub_le _ _) t.isLt)).2
theorem prevS1_pos (c : Dev nD) (t : Fin cfg1.N) (hz : t.val ≠ 0) :
    prevS1 V c t = (outsAt1 V c (t.val - 1) (Nat.lt_of_le_of_lt (Nat.sub_le _ _) t.isLt)).2 := dif_neg hz
theorem outsAt1_eq (c : Dev nD) (t : Fin cfg1.N) : outsAt1 V c t.val t.isLt = stepAt1 V c t (prevS1 V c t) := by
  obtain ⟨n, hn⟩ := t
  cases n with
  | zero => rfl
  | succ n => rfl

/-- The region invariant before position `n`: before the first point the class's; afterwards the other scoped buffers
    at anything, the three scratch buffers at what the point before left, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 4 = 0
  · by_cases h1 : t.val % 4 < t.val / 4 % 4
    · rw [Dat.leavesExact_idle (dat1 V c) 3 t (idleAt1_3 t (hyp1_A t h0 h1).2.2.2) (noFlush1_3 t (hyp1_A t h0 h1).2.2.2)]
      rw [outsAt1_eq V c t, stepAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Hr0, Hr1, Hr2, Hr3, Hr4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ (hyp1_A t h0 h1).1 (hyp1_A t h0 h1).2.1 (hyp1_A t h0 h1).2.2.1 (hyp1_A t h0 h1).2.2.2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr0 Hr1 Hr2 Hr3 Hr4 HS0 HS1 HS2 Hg]
        · isplitl [Hr0 Hr1 Hr2 Hr3 Hr4 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr0, Hr1, Hr2, Hr3, Hr4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ (hyp1_A t h0 h1).1 (hyp1_A t h0 h1).2.1 (hyp1_A t h0 h1).2.2.1 (hyp1_A t h0 h1).2.2.2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hr0 Hr1 Hr2 Hr3 Hr4 HS0 HS1 HS2 Hg]
        · isplitl [Hr0 Hr1 Hr2 Hr3 Hr4 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
    · have h2 : t.val % 4 = t.val / 4 % 4 := by omega
      rw [Dat.leavesExact_idle (dat1 V c) 3 t (idleAt1_3 t (hyp1_B t h0 h2).2.2.2) (noFlush1_3 t (hyp1_B t h0 h2).2.2.2)]
      rw [outsAt1_eq V c t, stepAt1_B V c t h0 h2]
      unfold sout1_B_0 sout1_B_1 sout1_B_2; (try dsimp only)
      by_cases hz : t.val = 0
      · rw [PhiS1_castSucc V c t, PhiS1_zero V c _ _ hz, PhiA1_eq]
        iintro ⟨⟨⟨Hr0, Hr1, Hr2, Hr3, Hr4, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (hyp1_B t h0 h2).1 (hyp1_B t h0 h2).2.1 (hyp1_B t h0 h2).2.2.1 (hyp1_B t h0 h2).2.2.2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr0 Hr1 Hr2 Hr3 Hr4 HS0 HS1 HS2 Hg]
        · isplitl [Hr0 Hr1 Hr2 Hr3 Hr4 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [HS0]
            · unfold owns; iexists _; isplitr
              swap; · iexact HS0
              ipureintro; exact View.read_writes_of_cover _ _ _ _ _ (scover1_B_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 _ _ _ _ _ _ _ _ _ _ _ _ _ _ _ _ _ _ _ _ _ _ _)
            unfold owns; iexists _; isplitr
            swap; · iexact HS2
            ipureintro; exact View.read_writes_of_cover _ _ _ _ _ (scover1_B_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr0, Hr1, Hr2, Hr3, Hr4, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (hyp1_B t h0 h2).1 (hyp1_B t h0 h2).2.1 (hyp1_B t h0 h2).2.2.1 (hyp1_B t h0 h2).2.2.2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hr0 Hr1 Hr2 Hr3 Hr4 HS0 HS1 HS2 Hg]
        · isplitl [Hr0 Hr1 Hr2 Hr3 Hr4 HS0 HS1 HS2]
          · isplitl [Hr0]; · iexact Hr0
            isplitl [Hr1]; · iexact Hr1
            isplitl [Hr2]; · iexact Hr2
            isplitl [Hr3]; · iexact Hr3
            isplitl [Hr4]; · iexact Hr4
            isplitl [HS0]
            · unfold owns; iexists _; isplitr
              swap; · iexact HS0
              ipureintro; exact View.read_writes_of_cover _ _ _ _ _ (scover1_B_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 _ _ _ _ _ _ _ _ _ _ _ _ _ _ _ _ _ _ _ _ _ _ _)
            unfold owns; iexists _; isplitr
            swap; · iexact HS2
            ipureintro; exact View.read_writes_of_cover _ _ _ _ _ (scover1_B_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 < t.val / 4 % 4
    · rw [Dat.leavesExact_idle (dat1 V c) 3 t (idleAt1_3 t (hyp1_C t h0 h1).2.2.2) (noFlush1_3 t (hyp1_C t h0 h1).2.2.2)]
      rw [outsAt1_eq V c t, stepAt1_C V c t h0 h1]
      unfold sout1_C_0 sout1_C_1 sout1_C_2; (try dsimp only)
      have hz : t.val ≠ 0 := by omega
      rw [PhiS1_castSucc V c t, PhiS1_pos V c _ _ hz, prevS1_pos V c t hz]
      iintro ⟨⟨⟨Hr0, Hr1, Hr2, Hr3, Hr4, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (hyp1_C t h0 h1).1 (hyp1_C t h0 h1).2.1 (hyp1_C t h0 h1).2.2.1 (hyp1_C t h0 h1).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr0 Hr1 Hr2 Hr3 Hr4 HS0 HS1 HS2 Hg]
      · isplitl [Hr0 Hr1 Hr2 Hr3 Hr4 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_C_0 _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 _ _ _ _ _ _ _ _ _ _ _ _ _ _ _ _ _ _ _ _ _ _ _ _ _ _)
          unfold owns; iexists _; isplitr
          swap; · iexact HS2
          ipureintro; exact View.read_writes_of_cover _ _ _ _ _ (scover1_C_2 _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · by_cases h2 : t.val % 4 = t.val / 4 % 4
      · by_cases h3 : t.val % 4 = 3
        · rw [show (dat1 V c).leavesExact 3 t = owns (c : Thread nD τ) (ms1_3 t) fullShare ((dat1 V c).after 3 t) from by
              unfold Dat.leavesExact; rw [liveAt1_3 t (hyp1_E t h0 h1 h2 h3).2.2.2], after1_3]
          rw [outsAt1_eq V c t, stepAt1_E V c t h0 h1 h2 h3]
          unfold sout1_E_0 sout1_E_1 sout1_E_2 out1_E_3; (try dsimp only)
          have hz : t.val ≠ 0 := by omega
          rw [PhiS1_castSucc V c t, PhiS1_pos V c _ _ hz, prevS1_pos V c t hz]
          iintro ⟨⟨⟨Hr0, Hr1, Hr2, Hr3, Hr4, HS0, HS1, HS2⟩, Hg⟩, Ho, ⟨%d0, H0⟩, ⟨%d1, H1⟩, ⟨%d2, H2⟩, ⟨%d3, H3⟩⟩
          iapply ((kernelRun1_E c (grid1.coords t) _ _ _ _ _ _ _ _ _ _ _ _ _ _ (hyp1_E t h0 h1 h2 h3).1 (hyp1_E t h0 h1 h2 h3).2.1 (hyp1_E t h0 h1 h2 h3).2.2.1 (hyp1_E t h0 h1 h2 h3).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [Hr0 Hr1 Hr2 Hr3 Hr4 HS0 HS1 HS2 Hg]
          · isplitl [Hr0 Hr1 Hr2 Hr3 Hr4 HS0 HS1 HS2]
            · isplitl [Hr0]; · iexact Hr0
              isplitl [Hr1]; · iexact Hr1
              isplitl [Hr2]; · iexact Hr2
              isplitl [Hr3]; · iexact Hr3
              isplitl [Hr4]; · iexact Hr4
              isplitl [HS0]
              · unfold owns; iexists _; isplitr
                swap; · iexact HS0
                ipureintro; exact View.read_writes_of_cover _ _ _ _ _ (scover1_E_0 _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_E_1 _ _ _ _ _ _ _ _ _ _ _ _ _ _ _ _ _ _ _ _ _ _ _ _ _ _)
              unfold owns; iexists _; isplitr
              swap; · iexact HS2
              ipureintro; exact View.read_writes_of_cover _ _ _ _ _ (scover1_E_2 _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_E_3 _ _ _ _ _ _ _ _ _ _ _ _ _ _ _ _ _ _ _ _ _ _ _ _ _ _)
        · rw [Dat.leavesExact_idle (dat1 V c) 3 t (idleAt1_3 t (hyp1_D t h0 h1 h2 h3).2.2.2) (noFlush1_3 t (hyp1_D t h0 h1 h2 h3).2.2.2)]
          rw [outsAt1_eq V c t, stepAt1_D V c t h0 h1 h2 h3]
          unfold sout1_D_0 sout1_D_1 sout1_D_2; (try dsimp only)
          have hz : t.val ≠ 0 := by omega
          rw [PhiS1_castSucc V c t, PhiS1_pos V c _ _ hz, prevS1_pos V c t hz]
          iintro ⟨⟨⟨Hr0, Hr1, Hr2, Hr3, Hr4, HS0, HS1, HS2⟩, Hg⟩, Ho, ⟨%d0, H0⟩, ⟨%d1, H1⟩, ⟨%d2, H2⟩, ⟨%d3, H3⟩⟩
          iapply ((kernelRun1_D c (grid1.coords t) _ _ _ _ _ _ _ _ _ _ _ _ _ _ (hyp1_D t h0 h1 h2 h3).1 (hyp1_D t h0 h1 h2 h3).2.1 (hyp1_D t h0 h1 h2 h3).2.2.1 (hyp1_D t h0 h1 h2 h3).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hr0 Hr1 Hr2 Hr3 Hr4 HS0 HS1 HS2 Hg]
          · isplitl [Hr0 Hr1 Hr2 Hr3 Hr4 HS0 HS1 HS2]
            · isplitl [Hr0]; · iexact Hr0
              isplitl [Hr1]; · iexact Hr1
              isplitl [Hr2]; · iexact Hr2
              isplitl [Hr3]; · iexact Hr3
              isplitl [Hr4]; · iexact Hr4
              isplitl [HS0]
              · unfold owns; iexists _; isplitr
                swap; · iexact HS0
                ipureintro; exact View.read_writes_of_cover _ _ _ _ _ (scover1_D_0 _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_D_1 _ _ _ _ _ _ _ _ _ _ _ _ _ _ _ _ _ _ _ _ _ _ _ _ _ _)
              unfold owns; iexists _; isplitr
              swap; · iexact HS2
              ipureintro; exact View.read_writes_of_cover _ _ _ _ _ (scover1_D_2 _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
      · by_cases h3 : t.val % 4 = 3
        · rw [show (dat1 V c).leavesExact 3 t = owns (c : Thread nD τ) (ms1_3 t) fullShare ((dat1 V c).after 3 t) from by
              unfold Dat.leavesExact; rw [liveAt1_3 t (hyp1_G t h0 h1 h2 h3).2.2.2], after1_3]
          rw [outsAt1_eq V c t, stepAt1_G V c t h0 h1 h2 h3]
          unfold out1_G_3; (try dsimp only)
          have hz : t.val ≠ 0 := by omega
          rw [PhiS1_castSucc V c t, PhiS1_pos V c _ _ hz, prevS1_pos V c t hz]
          iintro ⟨⟨⟨Hr0, Hr1, Hr2, Hr3, Hr4, HS0, HS1, HS2⟩, Hg⟩, Ho, ⟨%d0, H0⟩, ⟨%d1, H1⟩, ⟨%d2, H2⟩, ⟨%d3, H3⟩⟩
          iapply ((kernelRun1_G c (grid1.coords t) _ _ _ _ _ _ _ _ _ _ _ _ _ _ (hyp1_G t h0 h1 h2 h3).1 (hyp1_G t h0 h1 h2 h3).2.1 (hyp1_G t h0 h1 h2 h3).2.2.1 (hyp1_G t h0 h1 h2 h3).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2).2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, HS0, HS1, HS2⟩
          isplitl [Hr0 Hr1 Hr2 Hr3 Hr4 HS0 HS1 HS2 Hg]
          · isplitl [Hr0 Hr1 Hr2 Hr3 Hr4 HS0 HS1 HS2]
            · isplitl [Hr0]; · iexact Hr0
              isplitl [Hr1]; · iexact Hr1
              isplitl [Hr2]; · iexact Hr2
              isplitl [Hr3]; · iexact Hr3
              isplitl [Hr4]; · iexact Hr4
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_G_3 _ _ _ _ _ _ _ _ _ _ _ _ _ _ _ _ _ _ _ _ _ _ _ _ _ _)
        · rw [Dat.leavesExact_idle (dat1 V c) 3 t (idleAt1_3 t (hyp1_F t h0 h1 h2 h3).2.2.2) (noFlush1_3 t (hyp1_F t h0 h1 h2 h3).2.2.2)]
          rw [outsAt1_eq V c t, stepAt1_F V c t h0 h1 h2 h3]
          (try dsimp only)
          have hz : t.val ≠ 0 := by omega
          rw [PhiS1_castSucc V c t, PhiS1_pos V c _ _ hz, prevS1_pos V c t hz]
          iintro ⟨⟨⟨Hr0, Hr1, Hr2, Hr3, Hr4, HS0, HS1, HS2⟩, Hg⟩, Ho, ⟨%d0, H0⟩, ⟨%d1, H1⟩, ⟨%d2, H2⟩, ⟨%d3, H3⟩⟩
          iapply ((kernelRun1_F c (grid1.coords t) _ _ _ _ _ _ _ _ _ _ _ _ _ _ (hyp1_F t h0 h1 h2 h3).1 (hyp1_F t h0 h1 h2 h3).2.1 (hyp1_F t h0 h1 h2 h3).2.2.1 (hyp1_F t h0 h1 h2 h3).2.2.2 (iblk1 V c 0 t) (iblk1 V c 1 t) (iblk1 V c 2 t) (outsAt1 V c (t.val - 1) (by omega)).2.1 (outsAt1 V c (t.val - 1) (by omega)).2.2.1 (outsAt1 V c (t.val - 1) (by omega)).2.2.2) _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [Hr0 Hr1 Hr2 Hr3 Hr4 HS0 HS1 HS2 Hg]
          · isplitl [Hr0 Hr1 Hr2 Hr3 Hr4 HS0 HS1 HS2]
            · isplitl [Hr0]; · iexact Hr0
              isplitl [Hr1]; · iexact Hr1
              isplitl [Hr2]; · iexact Hr2
              isplitl [Hr3]; · iexact Hr3
              isplitl [Hr4]; · iexact Hr4
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨Hr0, Hr1, Hr2, Hr3, Hr4, HS0, HS1, HS2⟩, Hg⟩
  isplitl [Hr0 Hr1 Hr2 Hr3 Hr4 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [HS0]; · iexists _; iexact HS0
    isplitl [HS1]; · iexists _; iexact HS1
    iexists _; iexact HS2
  iexact Hg

end Region1

end Cert.KernelIdeal.Hand

end
-- ==== Proof.KI.Run.lean ====
/- The run of the kernel program's @main over its four segments — the host operations that build the stacked
   weight matrix and flatten the input, the projection region, the host operations that slice and reshape the
   projections, the attention region — from the launch memory to the return: the buffer contents at each segment
   boundary as a fold through @main, each region as a segment over "every unscoped buffer at the boundary's contents,
   the generator register at some state, nothing owed", the launch, and what the final memory holds: every unscoped
   buffer at the last boundary's contents, hence the four arguments as launched. For any float model `F`. -/
import proofs.«103980_j45028437131996_2_alg».proof.Proof.KI.R0
import proofs.«103980_j45028437131996_2_alg».proof.Proof.KI.R1
import Idealize.ShloMosaic.Lib.Pipeline.RegionsLoop
import Idealize.ShloMosaic.Lib.Pipeline.FrameSuffix
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The result array at the end is what the attention region's write-backs leave in its output window's array. -/
theorem W4_main_v9 (c : Dev nD) : W4 m ρ c (Proc.devRef .tc main_v9) = (dat1 (V3 m ρ) c).arrAt 3 cfg1.N :=
  W4_arr m ρ c 3

/-! ### The arguments end as launched: no host operation writes one and no region stages one, so the fold at an
    argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owed
    count, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed count: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. Its
    arrays split out of the unscoped buffers and put back at the exit contents; the generator register into the
    region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. Its
    invariant carries the scratch between points; the launch's state makes it at the first point and it gives the
    same state back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the
    TensorCores terminates, nothing faulting, and every final state has every unscoped buffer at the last
    boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.KernelIdeal.Hand

end
-- ==== Proof.KI.RunGlue.lean ====
/- The host operations around the two regions of the kernel program, read at an index, for any float model: the
   flattened input and the stacked weight matrix the projection region reads, in terms of the four arguments; the
   three projections the attention region reads, in terms of the projection region's output array. -/
import proofs.«103980_j45028437131996_2_alg».proof.Proof.KI.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

variable (m : (ℓ : Loc nD τ sig) → Buf (Elt F) ℓ) (ρ : Dev nD → PrngReg)

/-! ## The host operations between the regions, read at an index -/

/-- The flattened input: row `R = 4096·b + t` of the 16384×1024 array is row `t` of batch `b` of the argument. -/
theorem V1_main_v1_eq (c : Dev nD) :
    (V1 m ρ c main_v1 : S16384x1024.Idx → Elt F .f32)
      = shapeCast S16384x1024 (m ((c : Thread nD τ).loc main_arg0) : S4x4096x1024.Idx → Elt F .f32) shapeCasts_S4x4096x1024_S16384x1024 := by
  show StableHlo.after hostOps0 (W0 m ρ c) (Proc.devRef .tc main_v1) = _
  after_results
  rfl

theorem V1_main_v1_apply (c : Dev nD) (R : Fin 16384) (j : Fin 1024) (b : Fin 4) (t : Fin 4096) (hR : R.val = b.val * 4096 + t.val) :
    (V1 m ρ c main_v1 : S16384x1024.Idx → Elt F .f32) (ix2 R j)
      = (m ((c : Thread nD τ).loc main_arg0) : S4x4096x1024.Idx → Elt F .f32) (ix3 b t j) := by
  rw [V1_main_v1_eq]
  exact shapeCast_apply (s := S4x4096x1024) (t := S16384x1024) _ _ (ix2 R j) (ix3 b t j) (by
    show (S4x4096x1024.rowMajor (ix3 b t j)).val = (S16384x1024.rowMajor (ix2 R j)).val
    rw [Shape.rowMajor_val_three, Shape.rowMajor_val_two]
    show (b.val * 4096 + t.val) * 1024 + j.val = R.val * 1024 + j.val
    rw [hR])

/-- The stacked weight matrix: the three 1024×64 arguments side by side along the columns, in the order the
    program lists them. -/
theorem V1_main_v0_eq (c : Dev nD) :
    (V1 m ρ c main_v0 : S1024x192.Idx → Elt F .f32)
      = concatenate S1024x192 1 [⟨S1024x64, (m ((c : Thread nD τ).loc main_arg2) : S1024x64.Idx → Elt F .f32)⟩,
          ⟨S1024x64, (m ((c : Thread nD τ).loc main_arg1) : S1024x64.Idx → Elt F .f32)⟩,
          ⟨S1024x64, (m ((c : Thread nD τ).loc main_arg3) : S1024x64.Idx → Elt F .f32)⟩] concatenates_S1024x64_S1024x64_S1024x64_S1024x192_d1 := by
  show StableHlo.after hostOps0 (W0 m ρ c) (Proc.devRef .tc main_v0) = _
  after_results
  rfl

/-- Columns 0–63 of the stacked matrix are the first listed argument's, -/
theorem V1_main_v0_apply_q (c : Dev nD) (j : Fin 1024) (C : Fin 192) (q : Fin 64) (hC : C.val = q.val) :
    (V1 m ρ c main_v0 : S1024x192.Idx → Elt F .f32) (ix2 j C)
      = (m ((c : Thread nD τ).loc main_arg2) : S1024x64.Idx → Elt F .f32) (ix2 j q) := by
  rw [V1_main_v0_eq]
  refine concatenate_apply_piece (t := S1024x192) 1 _ _ (ix2 j C) 0 (by show 0 < 3; omega) S1024x64 _ rfl rfl 0 rfl (ix2 j q) ?_ ?_
  · intro b hb
    match b with
    | ⟨0, _⟩ => rfl
    | ⟨1, _⟩ => exact absurd rfl hb
  · show 0 + q.val = C.val
    omega

/-- columns 64–127 the second's, -/
theorem V1_main_v0_apply_k (c : Dev nD) (j : Fin 1024) (C : Fin 192) (q : Fin 64) (hC : C.val = 64 + q.val) :
    (V1 m ρ c main_v0 : S1024x192.Idx → Elt F .f32) (ix2 j C)
      = (m ((c : Thread nD τ).loc main_arg1) : S1024x64.Idx → Elt F .f32) (ix2 j q) := by
  rw [V1_main_v0_eq]
  refine concatenate_apply_piece (t := S1024x192) 1 _ _ (ix2 j C) 1 (by show 1 < 3; omega) S1024x64 _ rfl rfl 64 rfl (ix2 j q) ?_ ?_
  · intro b hb
    match b with
    | ⟨0, _⟩ => rfl
    | ⟨1, _⟩ => exact absurd rfl hb
  · show 64 + q.val = C.val
    omega

/-- columns 128–191 the third's. -/
theorem V1_main_v0_apply_v (c : Dev nD) (j : Fin 1024) (C : Fin 192) (q : Fin 64) (hC : C.val = 128 + q.val) :
    (V1 m ρ c main_v0 : S1024x192.Idx → Elt F .f32) (ix2 j C)
      = (m ((c : Thread nD τ).loc main_arg3) : S1024x64.Idx → Elt F .f32) (ix2 j q) := by
  rw [V1_main_v0_eq]
  refine concatenate_apply_piece (t := S1024x192) 1 _ _ (ix2 j C) 2 (by show 2 < 3; omega) S1024x64 _ rfl rfl 128 rfl (ix2 j q) ?_ ?_
  · intro b hb
    match b with
    | ⟨0, _⟩ => rfl
    | ⟨1, _⟩ => exact absurd rfl hb
  · show 128 + q.val = C.val
    omega

/-- The three projections the attention region reads: batch `b`, position `t`, feature `h` of each is the
    projection array's row `4096·b + t` at column `h`, `64 + h`, `128 + h`. -/
theorem V3_main_v6_eq (c : Dev nD) :
    (V3 m ρ c main_v6 : S4x4096x64.Idx → Elt F .bf16)
      = shapeCast S4x4096x64 (extractStridedSlice S16384x64 ![0, 0] (W2 m ρ c (Proc.devRef .tc main_v2) : S16384x192.Idx → Elt F .bf16) slices_S16384x192_S16384x64_0_0) shapeCasts_S16384x64_S4x4096x64 := by
  show StableHlo.after hostOps1 (W2 m ρ c) (Proc.devRef .tc main_v6) = _
  after_results
  rfl
theorem V3_main_v7_eq (c : Dev nD) :
    (V3 m ρ c main_v7 : S4x4096x64.Idx → Elt F .bf16)
      = shapeCast S4x4096x64 (extractStridedSlice S16384x64 ![0, 64] (W2 m ρ c (Proc.devRef .tc main_v2) : S16384x192.Idx → Elt F .bf16) slices_S16384x192_S16384x64_0_64) shapeCasts_S16384x64_S4x4096x64 := by
  show StableHlo.after hostOps1 (W2 m ρ c) (Proc.devRef .tc main_v7) = _
  after_results
  rfl
theorem V3_main_v8_eq (c : Dev nD) :
    (V3 m ρ c main_v8 : S4x4096x64.Idx → Elt F .bf16)
      = shapeCast S4x4096x64 (extractStridedSlice S16384x64 ![0, 128] (W2 m ρ c (Proc.devRef .tc main_v2) : S16384x192.Idx → Elt F .bf16) slices_S16384x192_S16384x64_0_128) shapeCasts_S16384x64_S4x4096x64 := by
  show StableHlo.after hostOps1 (W2 m ρ c) (Proc.devRef .tc main_v8) = _
  after_results
  rfl

/-- A column slice at offset `off` of a 16384×192 array, regrouped as 4 batches of 4096 rows, at an index. -/
theorem slice_regroup_apply {α : Type} (X : S16384x192.Idx → α) (off : Nat) (hs : S16384x192.Slices ![0, off] S16384x64)
    (b : Fin 4) (t : Fin 4096) (h : Fin 64) (R : Fin 16384) (C : Fin 192) (hR : R.val = b.val * 4096 + t.val) (hC : C.val = off + h.val) :
    shapeCast S4x4096x64 (extractStridedSlice S16384x64 ![0, off] X hs) shapeCasts_S16384x64_S4x4096x64 (ix3 b t h) = X (ix2 R C) := by
  refine (shapeCast_apply (s := S16384x64) (t := S4x4096x64) _ _ (ix3 b t h) (ix2 R h) (by
    show (S16384x64.rowMajor (ix2 R h)).val = (S4x4096x64.rowMajor (ix3 b t h)).val
    rw [Shape.rowMajor_val_three, Shape.rowMajor_val_two]
    show R.val * 64 + h.val = (b.val * 4096 + t.val) * 64 + h.val
    rw [hR])).trans ?_
  refine extractStridedSlice_apply _ _ _ (ix2 R h) (ix2 R C) fun a => ?_
  match a with
  | ⟨0, _⟩ => show R.val = 0 + R.val; omega
  | ⟨1, _⟩ => show C.val = off + h.val; exact hC

theorem V3_main_v6_apply (c : Dev nD) (b : Fin 4) (t : Fin 4096) (h : Fin 64) (R : Fin 16384) (C : Fin 192)
    (hR : R.val = b.val * 4096 + t.val) (hC : C.val = h.val) :
    (V3 m ρ c main_v6 : S4x4096x64.Idx → Elt F .bf16) (ix3 b t h) = (W2 m ρ c (Proc.devRef .tc main_v2) : S16384x192.Idx → Elt F .bf16) (ix2 R C) := by
  rw [V3_main_v6_eq]
  exact slice_regroup_apply _ 0 _ b t h R C hR (by omega)
theorem V3_main_v7_apply (c : Dev nD) (b : Fin 4) (t : Fin 4096) (h : Fin 64) (R : Fin 16384) (C : Fin 192)
    (hR : R.val = b.val * 4096 + t.val) (hC : C.val = 64 + h.val) :
    (V3 m ρ c main_v7 : S4x4096x64.Idx → Elt F .bf16) (ix3 b t h) = (W2 m ρ c (Proc.devRef .tc main_v2) : S16384x192.Idx → Elt F .bf16) (ix2 R C) := by
  rw [V3_main_v7_eq]
  exact slice_regroup_apply _ 64 _ b t h R C hR hC
theorem V3_main_v8_apply (c : Dev nD) (b : Fin 4) (t : Fin 4096) (h : Fin 64) (R : Fin 16384) (C : Fin 192)
    (hR : R.val = b.val * 4096 + t.val) (hC : C.val = 128 + h.val) :
    (V3 m ρ c main_v8 : S4x4096x64.Idx → Elt F .bf16) (ix3 b t h) = (W2 m ρ c (Proc.devRef .tc main_v2) : S16384x192.Idx → Elt F .bf16) (ix2 R C) := by
  rw [V3_main_v8_eq]
  exact slice_regroup_apply _ 128 _ b t h R C hR hC

/-- The projection array the slices read is what the projection region's write-backs leave. -/
theorem W2_main_v2 (c : Dev nD) : W2 m ρ c (Proc.devRef .tc main_v2) = (dat0 (V1 m ρ) c).arrAt 2 cfg0.N :=
  W2_arr m ρ c 2

end Cert.KernelIdeal.Hand

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibLoadAt.lean ====
/-
  A load through a unit-stride rectangle, read at explicit coordinates.

  A rectangle of sizes `(a, b, …)` at offsets `off` inside an array picks, at its own position `(p, q, …)`, the
  array's element whose coordinate on each axis is the offset plus the position. The target coordinates are named by
  the caller and tied to the offsets by one equation per axis, so that offsets a program computes can be read through
  their closed form. Ranks one to three, any extents, any element type; no program needed.
-/
import Idealize.ShloMosaic.Lib.Pipeline.Value
import Idealize.ShloMosaic.Lib.ValueIdx

namespace Cert.LoadAt

open Idealize.ShloMosaic Idealize.ShloMosaic.ValueIdx

variable {Val : EltTy → Type} {e : EltTy}

/-- A window of `a` consecutive entries of a vector. -/
theorem ld_unit1 {A a : ℕ} (X : (⟨1, ![A]⟩ : Shape).Idx → Val e) {off : Fin 1 → ℕ}
    (inb : ∀ i, off i + (![a] : Fin 1 → ℕ) i ≤ (⟨1, ![A]⟩ : Shape).size i)
    (p : Fin a) (P : Fin A) (hP : P.val = off 0 + p.val) :
    View.ld X (Rect.unit (s := ⟨1, ![A]⟩) off ![a] inb) (ix1 p) = X (ix1 P) := by
  show X _ = X _
  congr 1
  funext i
  apply Fin.ext
  match i with
  | ⟨0, _⟩ => show off 0 + 1 * p.val = P.val; rw [Nat.one_mul, hP]

/-- An `a × b` box of a matrix. -/
theorem ld_unit2 {A B a b : ℕ} (X : (⟨2, ![A, B]⟩ : Shape).Idx → Val e) {off : Fin 2 → ℕ}
    (inb : ∀ i, off i + (![a, b] : Fin 2 → ℕ) i ≤ (⟨2, ![A, B]⟩ : Shape).size i)
    (p : Fin a) (q : Fin b) (P : Fin A) (Q : Fin B) (hP : P.val = off 0 + p.val) (hQ : Q.val = off 1 + q.val) :
    View.ld X (Rect.unit (s := ⟨2, ![A, B]⟩) off ![a, b] inb) (ix2 p q) = X (ix2 P Q) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]

/-- An `a × b × c` box of a rank-3 array. -/
theorem ld_unit3 {A B C a b c : ℕ} (X : (⟨3, ![A, B, C]⟩ : Shape).Idx → Val e) {off : Fin 3 → ℕ}
    (inb : ∀ i, off i + (![a, b, c] : Fin 3 → ℕ) i ≤ (⟨3, ![A, B, C]⟩ : Shape).size i)
    (p : Fin a) (q : Fin b) (r : Fin c) (P : Fin A) (Q : Fin B) (R : Fin C)
    (hP : P.val = off 0 + p.val) (hQ : Q.val = off 1 + q.val) (hR : R.val = off 2 + r.val) :
    View.ld X (Rect.unit (s := ⟨3, ![A, B, C]⟩) off ![a, b, c] inb) (ix3 p q r) = X (ix3 P Q R) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]
  | ⟨2, _⟩ => show off 2 + 1 * r.val = R.val; rw [Nat.one_mul, hR]

end Cert.LoadAt
-- ==== Proof.KI.R0Value.lean ====
/- The projection region's output array, at the extended reals: after the region's eight grid points the
   16384×192 array holds, at row R and column C, the sum over j of x2[R, j] · Wqkv[j, C], where x2 and Wqkv are the
   two input arrays as the region finds them. Each grid point t writes back rows 2048·t … 2048·t + 2047; the eight
   row blocks cover the array. -/
import proofs.«103980_j45028437131996_2_alg».proof.Proof.KI.R0
import proofs.«103980_j45028437131996_2_alg».proof.Proof.LibPlainDot
import proofs.«103980_j45028437131996_2_alg».proof.Proof.LibLoadAt
import Idealize.ShloMosaic.Lib.Pipeline.Value
import Idealize.ShloMosaic.Lib.ValueIdx

set_option maxRecDepth 16384

noncomputable section

open scoped BigOperators

namespace Cert.KernelIdeal.Hand.R0Value

open Idealize.ShloMosaic Idealize.ShloMosaic.TcCoe Idealize.SL.Sem
open Idealize.ShloMosaic.Pipeline (Dat)
open Idealize.ShloMosaic.ValueIdx
open Cert.KernelIdeal Cert.KernelIdeal.Gen

theorem hz2 : (![0, 0] : Fin 2 → Nat) = fun _ => 0 := funext fun a => by fin_cases a <;> rfl

/-- The product's dimension numbers are those of a plain matrix product. -/
theorem plain0 : Cert.PlainDot.IsPlain dot_S2048x1024_S1024x192_S2048x192_1_0_0_1_n_n := ⟨rfl, rfl, rfl, rfl, rfl, rfl⟩

/-- The body's payload at entry (r, q): the row of the first block against the column of the second (the format
    changes are the identity on the extended reals). -/
theorem pay0_apply (x0 : Vec Ideal S2048x1024 .f32) (x1 : Vec Ideal S1024x192 .f32) (r : Fin 2048) (q : Fin 192) :
    k0_pay1 (F := Ideal) x0 x1 (ix2 r q) = ∑ j : Fin 1024, x0 (ix2 r j) * x1 (ix2 j q) := by
  unfold k0_pay1
  refine (Cert.PlainDot.matmul_zero_apply plain0 none _ _ r q).trans ?_
  refine Finset.sum_congr rfl fun j _ => ?_
  rw [truncf_apply, truncf_apply, shapeCast_self, shapeCast_self]

section Value0
variable (V : (c : Dev nD) → (b : Ref sig .tc) → Buf (Elt Ideal) ((c : Thread nD τ).loc b))

/-- The product of a 16384×1024 array and a 1024×192 array, entry by entry. -/
def proj (X : S16384x1024.Idx → EReal) (W : S1024x192.Idx → EReal) : S16384x192.Idx → EReal :=
  fun i => ∑ j : Fin 1024, X (ix2 (n0 := 16384) (i 0) j) * W (ix2 (n1 := 192) j (i 1))

/-- The three windows' block indices over the grid: the row windows move with the point, the weight window and
    every column index stay at zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two input arrays. -/
theorem flushed0_2_eq (c : Dev nD) (t : Fin cfg0.N) :
    (dat0 (F := Ideal) V c).flushed 2 t = ((cfg0.win 2).blk t).view.read (Elt Ideal) (proj (V c main_v1) (V c main_v0)) := by
  show (cfg0.win 2).cut (grid0.coords t) ((dat0 V c).after 2 t) = _
  rw [after0_2]
  unfold out0_2
  rw [View.canon_unit_zero hz2]
  simp only [View.ld_unit_zero (S := S2048x1024) hz2, View.ld_unit_zero (S := S1024x192) hz2]
  obtain ⟨e00, e01, e10, e11, e20, e21⟩ := idx_facts0 t
  funext j
  obtain ⟨r, q, rfl⟩ : ∃ (r : Fin 2048) (q : Fin 192), j = ix2 r q := ⟨j 0, j 1, eq_ix2 j⟩
  show k0_pay1 (F := Ideal) (iblk0 V c 0 t) (iblk0 V c 1 t) (ix2 r q) = proj (V c main_v1) (V c main_v0) (((cfg0.win 2).blk t).view.emb (ix2 r q))
  refine (pay0_apply (iblk0 V c 0 t) (iblk0 V c 1 t) r q).trans ?_
  unfold proj
  refine Finset.sum_congr rfl fun k _ => ?_
  have h0 : ((cfg0.win 0).blk t).view.emb (ix2 r k) = ix2 (n0 := 16384) ((((cfg0.win 2).blk t).view.emb (ix2 r q)) 0) k := by
    funext a; apply Fin.ext
    match a with
    | ⟨0, _⟩ => show win0_0.index t (0 : Fin 2) * 2048 + 1 * r.val = win0_2.index t (0 : Fin 2) * 2048 + 1 * r.val; omega
    | ⟨1, _⟩ => show win0_0.index t (1 : Fin 2) * 1024 + 1 * k.val = k.val; omega
  have h1 : ((cfg0.win 1).blk t).view.emb (ix2 k q) = ix2 (n1 := 192) k ((((cfg0.win 2).blk t).view.emb (ix2 r q)) 1) := by
    funext a; apply Fin.ext
    match a with
    | ⟨0, _⟩ => show win0_1.index t (0 : Fin 2) * 1024 + 1 * k.val = k.val; omega
    | ⟨1, _⟩ => show win0_1.index t (1 : Fin 2) * 192 + 1 * q.val = win0_2.index t (1 : Fin 2) * 192 + 1 * q.val; omega
  refine congrArg₂ (fun (a b : EReal) => a * b) ?_ ?_
  · exact congrArg (V c main_v1) h0
  · exact congrArg (V c main_v0) h1

/-- An index of the array is in point `t`'s block iff each coordinate is in the block's range on its axis. -/
theorem mem_blk0_2 (t : Fin cfg0.N) (i : S16384x192.Idx) :
    i ∈ ((cfg0.win 2).blk t).view.set ↔ ∀ a : Fin 2, win0_2.index t a * S2048x192.size a ≤ (i a).val ∧ (i a).val < win0_2.index t a * S2048x192.size a + S2048x192.size a := by
  show i ∈ ((View.whole main_v2).slice (win0_2.rect t)).set ↔ _
  rw [View.set_slice_whole, Rect.mem_set_unit]
  exact Iff.rfl

/-- Row `R` of the array is in the block of point `R / 2048`: the eight row blocks cover the array. -/
theorem cover0_arr (i : S16384x192.Idx) :
    ∃ t : Fin cfg0.N, (cfg0.win 2).flush t = true ∧ i ∈ ((cfg0.win 2).blk t).view.set := by
  have hi0 : (i 0).val < 16384 := idx2_lt0 i
  have hi1 : (i 1).val < 192 := idx2_lt1 i
  have hN : cfg0.N = 8 := N_0
  refine ⟨⟨(i 0).val / 2048, by rw [hN]; omega⟩, flush0_2 _, ?_⟩
  rw [mem_blk0_2]
  obtain ⟨e00, e01, e10, e11, e20, e21⟩ := idx_facts0 ⟨(i 0).val / 2048, by rw [hN]; omega⟩
  intro a
  match a with
  | ⟨0, _⟩ => show win0_2.index _ (0 : Fin 2) * 2048 ≤ (i 0).val ∧ (i 0).val < win0_2.index _ (0 : Fin 2) * 2048 + 2048; rw [e20]; show (i 0).val / 2048 * 2048 ≤ (i 0).val ∧ (i 0).val < (i 0).val / 2048 * 2048 + 2048; omega
  | ⟨1, _⟩ => show win0_2.index _ (1 : Fin 2) * 192 ≤ (i 1).val ∧ (i 1).val < win0_2.index _ (1 : Fin 2) * 192 + 192; rw [e21]; omega

/-- The output array after the region is the product of the two input arrays as the region finds them. -/
theorem final0_2 (c : Dev nD) : (dat0 (F := Ideal) V c).arrAt 2 cfg0.N = proj (V c main_v1) (V c main_v0) :=
  (dat0 (F := Ideal) V c).arrAt_eq_of_cover 2 (proj (V c main_v1) (V c main_v0)) (fun t _ => flushed0_2_eq V c t) cover0_arr

/-- The product at an entry. -/
theorem proj_apply (X : S16384x1024.Idx → EReal) (W : S1024x192.Idx → EReal) (R : Fin 16384) (C : Fin 192) :
    proj X W (ix2 R C) = ∑ j : Fin 1024, X (ix2 R j) * W (ix2 j C) := rfl

/-- The region's two input arrays as it finds them, as functions of literal index types. -/
abbrev x2At (c : Dev nD) : S16384x1024.Idx → EReal := V c main_v1
abbrev wAt (c : Dev nD) : S1024x192.Idx → EReal := V c main_v0

/-- At row `R` and column `C`: the sum over `j` of x2[R, j] · Wqkv[j, C]. -/
theorem proj_value (c : Dev nD) (R : Fin 16384) (C : Fin 192) :
    (dat0 (F := Ideal) V c).arrAt 2 cfg0.N (ix2 R C) = ∑ j : Fin 1024, x2At V c (ix2 R j) * wAt V c (ix2 j C) := by
  rw [final0_2]
  rfl

/-- The same with the two input arrays named by the caller. -/
theorem proj_value_of (c : Dev nD) (X : S16384x1024.Idx → EReal) (W : S1024x192.Idx → EReal)
    (hX : x2At V c = X) (hW : wAt V c = W) (R : Fin 16384) (C : Fin 192) :
    (dat0 (F := Ideal) V c).arrAt 2 cfg0.N (ix2 R C) = ∑ j : Fin 1024, X (ix2 R j) * W (ix2 j C) := by
  rw [proj_value, hX, hW]

end Value0

end Cert.KernelIdeal.Hand.R0Value

end
-- ==== Proof.KI.R1Blocks.lean ====
/-
  The attention region's input blocks read at an index.

  The region's grid is 4 × 4 × 4 in row-major order: point t stands for batch b = t / 16, query tile qi = t / 4 % 4
  and key tile kv = t % 4. Each window's block is [1, 1024, 64]. The query window's block index is (b, qi, 0); the
  key and value windows' is (b, min kv qi, 0) (above the diagonal they stay on the diagonal block); the output
  window's is (b, qi, 0). So entry (0, r, h) of a block is the array's entry (b, index · 1024 + r, h), and a block
  depends on the point only through its block index.
-/
import proofs.«103980_j45028437131996_2_alg».proof.Proof.KI.R1Defs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable {F : FTy → Type} [FloatOps F] [Named F]

/-- The four windows' block indices over the grid, in closed form over the point's number. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4) ∧ win1_1.index t (2 : Fin 3) = 0
    ∧ win1_2.index t (0 : Fin 3) = t.val / 16 ∧ win1_2.index t (1 : Fin 3) = min (t.val % 4) (t.val / 4 % 4) ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

/-- The grid has 64 points. -/
theorem N1_eq : cfg1.N = 64 := N_1

section Blocks1

variable (V : (c : Dev nD) → (b : Ref sig .tc) → Buf (Elt F) ((c : Thread nD τ).loc b))

/-- The query, key and value arrays as the region finds them, as functions of the literal index type. -/
abbrev qAt (c : Dev nD) : S4x4096x64.Idx → Elt F .bf16 := V c main_v6
abbrev kAt (c : Dev nD) : S4x4096x64.Idx → Elt F .bf16 := V c main_v7
abbrev vAt (c : Dev nD) : S4x4096x64.Idx → Elt F .bf16 := V c main_v8

/-- The query block at point t, entry (0, r, h): row qi · 1024 + r of batch b. -/
theorem iblk1_0_apply (c : Dev nD) (t : Fin cfg1.N) (r : Fin 1024) (h : Fin 64) :
    (iblk1 V c 0 t (ix3 (n0 := 1) (n1 := 1024) (n2 := 64) 0 r h) : Elt F .bf16)
      = qAt V c (ix3 (n0 := 4) (n1 := 4096) (n2 := 64) ⟨t.val / 16, by have := t.isLt; have := N1_eq; omega⟩
          ⟨(t.val / 4 % 4) * 1024 + r.val, by have := r.isLt; omega⟩ h) := by
  obtain ⟨e0, e1, e2, -⟩ := idx_facts1 t
  show qAt V c (((cfg1.win 0).blk t).view.emb (ix3 (n0 := 1) (n1 := 1024) (n2 := 64) 0 r h)) = _
  refine congrArg (qAt V c) (funext fun a => Fin.ext ?_)
  match a with
  | ⟨0, _⟩ => show win1_0.index t (0 : Fin 3) * 1 + 1 * 0 = t.val / 16; omega
  | ⟨1, _⟩ => show win1_0.index t (1 : Fin 3) * 1024 + 1 * r.val = (t.val / 4 % 4) * 1024 + r.val; omega
  | ⟨2, _⟩ => show win1_0.index t (2 : Fin 3) * 64 + 1 * h.val = h.val; omega

/-- The key block at point t, entry (0, r, h): row min kv qi · 1024 + r of batch b. -/
theorem iblk1_1_apply (c : Dev nD) (t : Fin cfg1.N) (r : Fin 1024) (h : Fin 64) :
    (iblk1 V c 1 t (ix3 (n0 := 1) (n1 := 1024) (n2 := 64) 0 r h) : Elt F .bf16)
      = kAt V c (ix3 (n0 := 4) (n1 := 4096) (n2 := 64) ⟨t.val / 16, by have := t.isLt; have := N1_eq; omega⟩
          ⟨(min (t.val % 4) (t.val / 4 % 4)) * 1024 + r.val, by have := r.isLt; omega⟩ h) := by
  obtain ⟨-, -, -, e0, e1, e2, -⟩ := idx_facts1 t
  show kAt V c (((cfg1.win 1).blk t).view.emb (ix3 (n0 := 1) (n1 := 1024) (n2 := 64) 0 r h)) = _
  refine congrArg (kAt V c) (funext fun a => Fin.ext ?_)
  match a with
  | ⟨0, _⟩ => show win1_1.index t (0 : Fin 3) * 1 + 1 * 0 = t.val / 16; omega
  | ⟨1, _⟩ => show win1_1.index t (1 : Fin 3) * 1024 + 1 * r.val = (min (t.val % 4) (t.val / 4 % 4)) * 1024 + r.val; omega
  | ⟨2, _⟩ => show win1_1.index t (2 : Fin 3) * 64 + 1 * h.val = h.val; omega

/-- The value block at point t, entry (0, r, h): row min kv qi · 1024 + r of batch b. -/
theorem iblk1_2_apply (c : Dev nD) (t : Fin cfg1.N) (r : Fin 1024) (h : Fin 64) :
    (iblk1 V c 2 t (ix3 (n0 := 1) (n1 := 1024) (n2 := 64) 0 r h) : Elt F .bf16)
      = vAt V c (ix3 (n0 := 4) (n1 := 4096) (n2 := 64) ⟨t.val / 16, by have := t.isLt; have := N1_eq; omega⟩
          ⟨(min (t.val % 4) (t.val / 4 % 4)) * 1024 + r.val, by have := r.isLt; omega⟩ h) := by
  obtain ⟨-, -, -, -, -, -, e0, e1, e2, -⟩ := idx_facts1 t
  show vAt V c (((cfg1.win 2).blk t).view.emb (ix3 (n0 := 1) (n1 := 1024) (n2 := 64) 0 r h)) = _
  refine congrArg (vAt V c) (funext fun a => Fin.ext ?_)
  match a with
  | ⟨0, _⟩ => show win1_2.index t (0 : Fin 3) * 1 + 1 * 0 = t.val / 16; omega
  | ⟨1, _⟩ => show win1_2.index t (1 : Fin 3) * 1024 + 1 * r.val = (min (t.val % 4) (t.val / 4 % 4)) * 1024 + r.val; omega
  | ⟨2, _⟩ => show win1_2.index t (2 : Fin 3) * 64 + 1 * h.val = h.val; omega

/-- Every index of a [1, 1024, 64] block is (0, r, h). -/
theorem eq_ix3_unit (j : (⟨3, ![1, 1024, 64]⟩ : Shape).Idx) :
    ∃ (r : Fin 1024) (h : Fin 64), j = ix3 (n0 := 1) (n1 := 1024) (n2 := 64) 0 r h :=
  ⟨j 1, j 2, by
    funext a
    match a with
    | ⟨0, _⟩ =>
      have h1 : (j 0).val < 1 := (j 0).isLt
      exact Fin.ext (show (j 0).val = 0 by omega)
    | ⟨1, _⟩ => rfl
    | ⟨2, _⟩ => rfl⟩

/-- The query block does not depend on the key tile. -/
theorem iblk1_0_congr (c : Dev nD) (t t' : Fin cfg1.N) (h4 : t.val / 4 = t'.val / 4) :
    iblk1 V c 0 t = iblk1 V c 0 t' := by
  funext j
  obtain ⟨r, h, rfl⟩ := eq_ix3_unit j
  refine (iblk1_0_apply V c t r h).trans ((congrArg (qAt V c) (funext fun a => Fin.ext ?_)).trans (iblk1_0_apply V c t' r h).symm)
  match a with
  | ⟨0, _⟩ => show t.val / 16 = t'.val / 16; omega
  | ⟨1, _⟩ => show (t.val / 4 % 4) * 1024 + r.val = (t'.val / 4 % 4) * 1024 + r.val; omega
  | ⟨2, _⟩ => rfl

/-- The key block depends on the point only through the batch and min kv qi. -/
theorem iblk1_1_congr (c : Dev nD) (t t' : Fin cfg1.N)
    (hb : t.val / 16 = t'.val / 16 ∧ min (t.val % 4) (t.val / 4 % 4) = min (t'.val % 4) (t'.val / 4 % 4)) :
    iblk1 V c 1 t = iblk1 V c 1 t' := by
  funext j
  obtain ⟨r, h, rfl⟩ := eq_ix3_unit j
  refine (iblk1_1_apply V c t r h).trans ((congrArg (kAt V c) (funext fun a => Fin.ext ?_)).trans (iblk1_1_apply V c t' r h).symm)
  match a with
  | ⟨0, _⟩ => exact hb.1
  | ⟨1, _⟩ => show (min (t.val % 4) (t.val / 4 % 4)) * 1024 + r.val = (min (t'.val % 4) (t'.val / 4 % 4)) * 1024 + r.val; rw [hb.2]
  | ⟨2, _⟩ => rfl

/-- The value block likewise. -/
theorem iblk1_2_congr (c : Dev nD) (t t' : Fin cfg1.N)
    (hb : t.val / 16 = t'.val / 16 ∧ min (t.val % 4) (t.val / 4 % 4) = min (t'.val % 4) (t'.val / 4 % 4)) :
    iblk1 V c 2 t = iblk1 V c 2 t' := by
  funext j
  obtain ⟨r, h, rfl⟩ := eq_ix3_unit j
  refine (iblk1_2_apply V c t r h).trans ((congrArg (vAt V c) (funext fun a => Fin.ext ?_)).trans (iblk1_2_apply V c t' r h).symm)
  match a with
  | ⟨0, _⟩ => exact hb.1
  | ⟨1, _⟩ => show (min (t.val % 4) (t.val / 4 % 4)) * 1024 + r.val = (min (t'.val % 4) (t'.val / 4 % 4)) * 1024 + r.val; rw [hb.2]
  | ⟨2, _⟩ => rfl

end Blocks1

end Cert.KernelIdeal.Hand

end
-- ==== Proof.KI.R1Final.lean ====
/-
  The attention region's output array, assembled from its blocks.

  The output window's block at point t = 16 b + 4 qi + kv is rows qi · 1024 … qi · 1024 + 1023 of batch b; it is
  written back only at the points with kv = 3. If what the body leaves in the output's staging buffer at each such
  point is a function G of the array's indices read through the point's block, then after the region the array
  holds G: row T of batch b lies in the block of the point 16 b + 4 (T / 1024) + 3, so the sixteen blocks written
  back cover the array.
-/
import proofs.«103980_j45028437131996_2_alg».proof.Proof.KI.R1
import proofs.«103980_j45028437131996_2_alg».proof.Proof.KI.R1Blocks
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

section Final1

variable (V : (c : Dev nD) → (b : Ref sig .tc) → Buf (Elt Ideal) ((c : Thread nD τ).loc b))

/-- What a point with kv = 3 writes back is G read through the point's block. -/
theorem flushed1_3_eq (c : Dev nD) (G : S4x4096x64.Idx → EReal)
    (hG : ∀ t : Fin cfg1.N, t.val % 4 = 3 → ∀ (r : Fin 1024) (h : Fin 64),
      (outsAt1 (F := Ideal) V c t.val t.isLt).1 (ix3 (n0 := 1) (n1 := 1024) (n2 := 64) 0 r h)
        = G (ix3 (n0 := 4) (n1 := 4096) (n2 := 64) ⟨t.val / 16, by have := t.isLt; have := N1_eq; omega⟩
            ⟨(t.val / 4 % 4) * 1024 + r.val, by have := r.isLt; omega⟩ h))
    (t : Fin cfg1.N) (ht : t.val % 4 = 3) :
    (dat1 (F := Ideal) V c).flushed 3 t = ((cfg1.win 3).blk t).view.read (Elt Ideal) G := by
  show (cfg1.win 3).cut (grid1.coords t) ((dat1 V c).after 3 t) = _
  rw [after1_3]
  obtain ⟨-, -, -, -, -, -, -, -, -, e0, e1, e2⟩ := idx_facts1 t
  funext j
  obtain ⟨r, h, rfl⟩ := eq_ix3_unit j
  show (outsAt1 (F := Ideal) V c t.val t.isLt).1 (ix3 (n0 := 1) (n1 := 1024) (n2 := 64) 0 r h)
    = G (((cfg1.win 3).blk t).view.emb (ix3 (n0 := 1) (n1 := 1024) (n2 := 64) 0 r h))
  rw [hG t ht r h]
  refine congrArg G (funext fun a => Fin.ext ?_)
  match a with
  | ⟨0, _⟩ => show t.val / 16 = win1_3.index t (0 : Fin 3) * 1 + 1 * 0; omega
  | ⟨1, _⟩ => show (t.val / 4 % 4) * 1024 + r.val = win1_3.index t (1 : Fin 3) * 1024 + 1 * r.val; omega
  | ⟨2, _⟩ => show h.val = win1_3.index t (2 : Fin 3) * 64 + 1 * h.val; omega

/-- An index of the array is in point t's output block iff each coordinate is in the block's range on its axis. -/
theorem mem_blk1_3 (t : Fin cfg1.N) (i : S4x4096x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v9).slice (win1_3.rect t)).set ↔ _
  rw [View.set_slice_whole, Rect.mem_set_unit]
  exact Iff.rfl

/-- Row T of batch b is in the block of the point 16 b + 4 (T / 1024) + 3, which writes its block back. -/
theorem cover1_arr (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  have hN : cfg1.N = 64 := N1_eq
  have htN : 16 * (i 0).val + 4 * ((i 1).val / 1024) + 3 < cfg1.N := by rw [hN]; omega
  refine ⟨⟨16 * (i 0).val + 4 * ((i 1).val / 1024) + 3, htN⟩, (flush1_3 _).mpr (by show (16 * (i 0).val + 4 * ((i 1).val / 1024) + 3) % 4 = 3; omega), ?_⟩
  rw [mem_blk1_3]
  obtain ⟨-, -, -, -, -, -, -, -, -, e0, e1, e2⟩ := idx_facts1 ⟨16 * (i 0).val + 4 * ((i 1).val / 1024) + 3, htN⟩
  intro a
  match a with
  | ⟨0, _⟩ =>
    show win1_3.index _ (0 : Fin 3) * 1 ≤ (i 0).val ∧ (i 0).val < win1_3.index _ (0 : Fin 3) * 1 + 1
    rw [e0]
    show (16 * (i 0).val + 4 * ((i 1).val / 1024) + 3) / 16 * 1 ≤ (i 0).val ∧ (i 0).val < (16 * (i 0).val + 4 * ((i 1).val / 1024) + 3) / 16 * 1 + 1
    omega
  | ⟨1, _⟩ =>
    show win1_3.index _ (1 : Fin 3) * 1024 ≤ (i 1).val ∧ (i 1).val < win1_3.index _ (1 : Fin 3) * 1024 + 1024
    rw [e1]
    show (16 * (i 0).val + 4 * ((i 1).val / 1024) + 3) / 4 % 4 * 1024 ≤ (i 1).val ∧ (i 1).val < (16 * (i 0).val + 4 * ((i 1).val / 1024) + 3) / 4 % 4 * 1024 + 1024
    omega
  | ⟨2, _⟩ =>
    show win1_3.index _ (2 : Fin 3) * 64 ≤ (i 2).val ∧ (i 2).val < win1_3.index _ (2 : Fin 3) * 64 + 64
    rw [e2]
    omega

/-- THE OUTPUT ARRAY after the region is G, when every block written back is G read through its rectangle. -/
theorem final1_3 (c : Dev nD) (G : S4x4096x64.Idx → EReal)
    (hG : ∀ t : Fin cfg1.N, t.val % 4 = 3 → ∀ (r : Fin 1024) (h : Fin 64),
      (outsAt1 (F := Ideal) V c t.val t.isLt).1 (ix3 (n0 := 1) (n1 := 1024) (n2 := 64) 0 r h)
        = G (ix3 (n0 := 4) (n1 := 4096) (n2 := 64) ⟨t.val / 16, by have := t.isLt; have := N1_eq; omega⟩
            ⟨(t.val / 4 % 4) * 1024 + r.val, by have := r.isLt; omega⟩ h)) :
    (dat1 (F := Ideal) V c).arrAt 3 cfg1.N = G :=
  (dat1 (F := Ideal) V c).arrAt_eq_of_cover 3 G
    (fun t hf => flushed1_3_eq V c G hG t ((flush1_3 t).mp hf)) cover1_arr

end Final1

end Cert.KernelIdeal.Hand

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.KI.Finite.lean ====
/-
  From the precondition to real entries.

  The precondition says that the printed test "every entry of every argument is finite" answers 1. The test is the
  conjunction of four array tests, one per argument: the absolute value of every entry compared with plus infinity,
  reduced by `and` into a single truth value. A conjunction that is 1 has both conjuncts 1; an `and`-reduction that
  is 1 met a 1 at every entry; and an entry whose absolute value lies below plus infinity is a real number.
-/
import proofs.«103980_j45028437131996_2_alg».proof.Defs
import proofs.«103980_j45028437131996_2_alg».proof.Proof.Gen.Pre_finite_inputs
import proofs.«103980_j45028437131996_2_alg».proof.Proof.LibFiniteAll
import Idealize.ShloMosaic.Lib.ReduceAll
import Idealize.ShloMosaic.Lib.ValueIdx

noncomputable section

namespace Cert.KernelIdeal.Hand

open Idealize.ShloMosaic Idealize.ShloMosaic.TcCoe Idealize.SL.Sem

/-- The scalar shape has one index. -/
instance subsingleton_scalar_idx : Subsingleton Cert.Pre_finite_inputs.S_.Idx :=
  ⟨fun a b => funext fun d => d.elim0⟩

/-- The printed test read back: if it answers 1 on four arrays, every entry of each is a real number. -/
theorem real_of_fn [hP : Cert.Pre_finite_inputs.Facts]
    (a0 : FVec Ideal Cert.Pre_finite_inputs.S4x4096x1024 .f32)
    (a1 a2 a3 : FVec Ideal Cert.Pre_finite_inputs.S1024x64 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, e3⟩ := IntOp.andi_eq_one.mp h0
  obtain ⟨h01, e2⟩ := IntOp.andi_eq_one.mp h012
  obtain ⟨e0, e1⟩ := IntOp.andi_eq_one.mp h01
  exact ⟨fun i => Cert.FiniteAll.all_real_of_reduce_and a0 _ _ _ _ _ _ e0 i,
    fun i => Cert.FiniteAll.all_real_of_reduce_and a1 _ _ _ _ _ _ e1 i,
    fun i => Cert.FiniteAll.all_real_of_reduce_and a2 _ _ _ _ _ _ e2 i,
    fun i => Cert.FiniteAll.all_real_of_reduce_and a3 _ _ _ _ _ _ e3 i⟩

/-- Under the precondition every entry of the four argument arrays is a real number, on every device. -/
theorem finite_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)
        : (⟨3, ![4, 4096, 1024]⟩ : Shape).Idx → EReal) i = (r : EReal))
      ∧ (∀ i, ∃ r : ℝ, (m ((c.tc : Thread Cert.KernelIdeal.nD Cert.KernelIdeal.τ).loc Cert.KernelIdeal.main_arg1)
        : (⟨2, ![1024, 64]⟩ : Shape).Idx → EReal) i = (r : EReal))
      ∧ (∀ i, ∃ r : ℝ, (m ((c.tc : Thread Cert.KernelIdeal.nD Cert.KernelIdeal.τ).loc Cert.KernelIdeal.main_arg2)
        : (⟨2, ![1024, 64]⟩ : Shape).Idx → EReal) i = (r : EReal))
      ∧ (∀ i, ∃ r : ℝ, (m ((c.tc : Thread Cert.KernelIdeal.nD Cert.KernelIdeal.τ).loc Cert.KernelIdeal.main_arg3)
        : (⟨2, ![1024, 64]⟩ : Shape).Idx → EReal) i = (r : EReal)) :=
  real_of_fn _ _ _ _ (hpre c)

end Cert.KernelIdeal.Hand

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.LibOnlineSoftmax.lean ====
/-
  The online softmax law, on the extended reals.

  A softmax-weighted sum  Σ_n (e_n / Σ_n' e_n') · v_n  with  e_n = exp (s_n - M),  M = max_n s_n,  can be
  accumulated tile by tile without knowing M in advance.  The keys are cut into tiles of B consecutive
  positions.  A running maximum m, a running normaliser l and a running weighted sum a are kept; at tile k

      m' = max m (max of the tile's scores)
      l' = exp (m - m') · l + Σ_r exp (s_{kB+r} - m')
      a' = exp (m - m') · a + Σ_r exp (s_{kB+r} - m') · v_{kB+r}

  starting from m = -∞, l = 0, a = 0, and at the end the result is a / l.  When every score and value is a real
  number this is the one-pass softmax-weighted sum: after each tile m is the maximum M' of the scores seen so
  far, l = Σ exp (s_n - M') and a = Σ exp (s_n - M') · v_n over the positions seen so far, because
  exp (M_old - M') · exp (s_n - M_old) = exp (s_n - M'); on the first tile the factor exp (-∞ - M') is 0 and
  multiplies 0.  Dividing a finite real sum by the positive real normaliser distributes over the sum.
-/
import Idealize.ShloMosaic.PureOps.Ideal
import proofs.«103980_j45028437131996_2_alg».proof.Proof.LibLogShift
import proofs.«103980_j45028437131996_2_alg».proof.Proof.LibBlockSum

noncomputable section

open scoped BigOperators

namespace Cert.OnlineSoftmax

open Idealize.ShloMosaic Cert.LogShift

/-- A family over the first N positions, continued by zero: lets a tile address position k·B + r by a natural number. -/
def ext {N : ℕ} (f : Fin N → EReal) : ℕ → EReal := fun n => if h : n < N then f ⟨n, h⟩ else 0

theorem ext_apply {N : ℕ} (f : Fin N → EReal) (n : ℕ) (h : n < N) : ext f n = f ⟨n, h⟩ := dif_pos h

variable (B : ℕ)

/-- The running maximum after tile k, from the running maximum m before it. -/
def stepM (m : EReal) (s : ℕ → EReal) (k : ℕ) : EReal := max m (cmax fun r : Fin B => s (k * B + r.val))

/-- The running normaliser after tile k. -/
def stepL (m l : EReal) (s : ℕ → EReal) (k : ℕ) : EReal :=
  Ideal.exp (m - stepM B m s k) * l + ∑ r : Fin B, Ideal.exp (s (k * B + r.val) - stepM B m s k)

/-- The running weighted sum after tile k. -/
def stepA (m a : EReal) (s v : ℕ → EReal) (k : ℕ) : EReal :=
  Ideal.exp (m - stepM B m s k) * a + ∑ r : Fin B, Ideal.exp (s (k * B + r.val) - stepM B m s k) * v (k * B + r.val)

/-- The three running quantities after tiles 0, …, k, started from -∞, 0, 0. -/
def runM (s : ℕ → EReal) : ℕ → EReal
  | 0 => stepM B ⊥ s 0
  | k + 1 => stepM B (runM s k) s (k + 1)

def runL (s : ℕ → EReal) : ℕ → EReal
  | 0 => stepL B ⊥ 0 s 0
  | k + 1 => stepL B (runM B s k) (runL s k) s (k + 1)

def runA (s v : ℕ → EReal) : ℕ → EReal
  | 0 => stepA B ⊥ 0 s v 0
  | k + 1 => stepA B (runM B s k) (runA s v k) s v (k + 1)

/-! ## Real families

  With real scores and values every quantity of the recursion is a real number, so the law is proved over real
  families indexed by the natural numbers and transferred through `ext` at the end. -/

/-- A real family over the first N positions, continued by zero. -/
def rext {N : ℕ} (f : Fin N → ℝ) : ℕ → ℝ := fun n => if h : n < N then f ⟨n, h⟩ else 0

theorem rext_apply {N : ℕ} (f : Fin N → ℝ) (n : Fin N) : rext f n.val = f n := dif_pos n.2

/-- The continuation by zero of a family of real numbers is a family of real numbers. -/
theorem ext_coe {N : ℕ} (f : Fin N → ℝ) :
    ext (fun n => (f n : EReal)) = fun n => ((rext f n : ℝ) : EReal) := by
  funext n
  unfold ext rext
  split <;> rfl

theorem exp_coe_sub (a b : ℝ) : Ideal.exp ((a : EReal) - (b : EReal)) = ((Real.exp (a - b) : ℝ) : EReal) := by
  rw [← EReal.coe_sub, Ideal.exp_coe]

/-- A nonempty tile of real scores has a real maximum, which bounds the tile and is attained in it. -/
theorem tile_max (hB : 0 < B) (x : ℕ → ℝ) (k : ℕ) :
    ∃ μt : ℝ, cmax (fun r : Fin B => ((x (k * B + r.val) : ℝ) : EReal)) = (μt : EReal)
      ∧ (∀ r : Fin B, x (k * B + r.val) ≤ μt) ∧ ∃ r : Fin B, x (k * B + r.val) = μt := by
  have hne_bot : cmax (fun r : Fin B => ((x (k * B + r.val) : ℝ) : EReal)) ≠ ⊥ := by
    intro e
    exact EReal.coe_ne_bot _ (eq_bot_of_cmax_eq_bot e ⟨0, hB⟩)
  obtain ⟨r0, hr0⟩ := exists_eq_cmax hne_bot
  refine ⟨x (k * B + r0.val), hr0.symm, fun r => ?_, r0, rfl⟩
  have h := le_cmax (fun r : Fin B => ((x (k * B + r.val) : ℝ) : EReal)) r
  rw [← hr0] at h
  exact EReal.coe_le_coe_iff.mp h

/-- The running maximum from -∞ is the tile's maximum. -/
theorem stepM_bot (x : ℕ → ℝ) (k : ℕ) (μt : ℝ)
    (ht : cmax (fun r : Fin B => ((x (k * B + r.val) : ℝ) : EReal)) = (μt : EReal)) :
    stepM B ⊥ (fun n => ((x n : ℝ) : EReal)) k = (μt : EReal) := by
  unfold stepM
  rw [ht]
  exact max_eq_right bot_le

/-- The running maximum from a real number is the larger of it and the tile's maximum. -/
theorem stepM_coe (x : ℕ → ℝ) (k : ℕ) (μ μt : ℝ)
    (ht : cmax (fun r : Fin B => ((x (k * B + r.val) : ℝ) : EReal)) = (μt : EReal)) :
    stepM B (μ : EReal) (fun n => ((x n : ℝ) : EReal)) k = ((max μ μt : ℝ) : EReal) := by
  unfold stepM
  rw [ht]
  exact (EReal.coe_strictMono.monotone.map_max).symm

/-- From -∞ and 0 the normaliser is the tile's sum: the factor exp (-∞ - m') multiplies 0. -/
theorem stepL_bot (x : ℕ → ℝ) (k : ℕ) (μ' : ℝ)
    (hm : stepM B ⊥ (fun n => ((x n : ℝ) : EReal)) k = (μ' : EReal)) :
    stepL B ⊥ 0 (fun n => ((x n : ℝ) : EReal)) k
      = ((∑ r : Fin B, Real.exp (x (k * B + r.val) - μ') : ℝ) : EReal) := by
  unfold stepL
  rw [hm, mul_zero, zero_add]
  simp only [exp_coe_sub]
  rw [coe_sum]

theorem stepA_bot (x y : ℕ → ℝ) (k : ℕ) (μ' : ℝ)
    (hm : stepM B ⊥ (fun n => ((x n : ℝ) : EReal)) k = (μ' : EReal)) :
    stepA B ⊥ 0 (fun n => ((x n : ℝ) : EReal)) (fun n => ((y n : ℝ) : EReal)) k
      = ((∑ r : Fin B, Real.exp (x (k * B + r.val) - μ') * y (k * B + r.val) : ℝ) : EReal) := by
  unfold stepA
  rw [hm, mul_zero, zero_add]
  simp only [exp_coe_sub, ← EReal.coe_mul]
  rw [coe_sum]

/-- From real numbers the normaliser is a real number. -/
theorem stepL_coe (x : ℕ → ℝ) (k : ℕ) (μ μ' l : ℝ)
    (hm : stepM B (μ : EReal) (fun n => ((x n : ℝ) : EReal)) k = (μ' : EReal)) :
    stepL B (μ : EReal) (l : EReal) (fun n => ((x n : ℝ) : EReal)) k
      = ((Real.exp (μ - μ') * l + ∑ r : Fin B, Real.exp (x (k * B + r.val) - μ') : ℝ) : EReal) := by
  unfold stepL
  rw [hm]
  simp only [exp_coe_sub]
  rw [coe_sum, ← EReal.coe_mul, ← EReal.coe_add]

theorem stepA_coe (x y : ℕ → ℝ) (k : ℕ) (μ μ' a : ℝ)
    (hm : stepM B (μ : EReal) (fun n => ((x n : ℝ) : EReal)) k = (μ' : EReal)) :
    stepA B (μ : EReal) (a : EReal) (fun n => ((x n : ℝ) : EReal)) (fun n => ((y n : ℝ) : EReal)) k
      = ((Real.exp (μ - μ') * a + ∑ r : Fin B, Real.exp (x (k * B + r.val) - μ') * y (k * B + r.val) : ℝ) : EReal) := by
  unfold stepA
  rw [hm]
  simp only [exp_coe_sub, ← EReal.coe_mul]
  rw [coe_sum, ← EReal.coe_add]

/-- THE INVARIANT: after tile k the running maximum is a real number μ that bounds the (k + 1) · B scores seen so
    far and is one of them, and the normaliser and the weighted sum are the sums of exp (x n - μ) and of
    exp (x n - μ) · y n over those positions. -/
theorem run_inv (hB : 0 < B) (x y : ℕ → ℝ) (k : ℕ) :
    ∃ μ : ℝ, runM B (fun n => ((x n : ℝ) : EReal)) k = (μ : EReal)
      ∧ (∀ n, n < (k + 1) * B → x n ≤ μ)
      ∧ (∃ n, n < (k + 1) * B ∧ x n = μ)
      ∧ runL B (fun n => ((x n : ℝ) : EReal)) k
          = ((∑ n ∈ Finset.range ((k + 1) * B), Real.exp (x n - μ) : ℝ) : EReal)
      ∧ runA B (fun n => ((x n : ℝ) : EReal)) (fun n => ((y n : ℝ) : EReal)) k
          = ((∑ n ∈ Finset.range ((k + 1) * B), Real.exp (x n - μ) * y n : ℝ) : EReal) := by
  induction k with
  | zero =>
    obtain ⟨μt, ht, hub, r0, hr0⟩ := tile_max B hB x 0
    have hm := stepM_bot B x 0 μt ht
    refine ⟨μt, hm, ?_, ?_, ?_, ?_⟩
    · intro n hn
      have hn' : n < B := by simpa using hn
      simpa using hub ⟨n, hn'⟩
    · exact ⟨r0.val, by simpa using r0.2, by simpa using hr0⟩
    · show stepL B ⊥ 0 (fun n => ((x n : ℝ) : EReal)) 0 = _
      rw [stepL_bot B x 0 μt hm, Fin.sum_univ_eq_sum_range (fun n => Real.exp (x (0 * B + n) - μt)) B]
      simp
    · show stepA B ⊥ 0 (fun n => ((x n : ℝ) : EReal)) (fun n => ((y n : ℝ) : EReal)) 0 = _
      rw [stepA_bot B x y 0 μt hm,
        Fin.sum_univ_eq_sum_range (fun n => Real.exp (x (0 * B + n) - μt) * y (0 * B + n)) B]
      simp
  | succ k ih =>
    obtain ⟨μ, hM, hub, ⟨n0, hn0, hatt⟩, hL, hA⟩ := ih
    obtain ⟨μt, ht, hubt, r0, hr0⟩ := tile_max B hB x (k + 1)
    have hm := stepM_coe B x (k + 1) μ μt ht
    have hsucc : (k + 1 + 1) * B = (k + 1) * B + B := Nat.succ_mul (k + 1) B
    refine ⟨max μ μt, ?_, ?_, ?_, ?_, ?_⟩
    · show stepM B (runM B (fun n => ((x n : ℝ) : EReal)) k) (fun n => ((x n : ℝ) : EReal)) (k + 1) = _
      rw [hM]; exact hm
    · intro n hn
      by_cases h : n < (k + 1) * B
      · exact le_trans (hub n h) (le_max_left _ _)
      · obtain ⟨r, rfl⟩ := Nat.exists_eq_add_of_le (not_lt.mp h)
        have hr : r < B := by omega
        exact le_trans (hubt ⟨r, hr⟩) (le_max_right _ _)
    · rcases le_total μt μ with h | h
      · exact ⟨n0, by omega, by rw [max_eq_left h]; exact hatt⟩
      · exact ⟨(k + 1) * B + r0.val, by have := r0.2; omega, by rw [max_eq_right h]; exact hr0⟩
    · show stepL B (runM B (fun n => ((x n : ℝ) : EReal)) k) (runL B (fun n => ((x n : ℝ) : EReal)) k)
          (fun n => ((x n : ℝ) : EReal)) (k + 1) = _
      rw [hM, hL, stepL_coe B x (k + 1) μ (max μ μt) _ hm, hsucc, Finset.sum_range_add, Finset.mul_sum,
        Fin.sum_univ_eq_sum_range (fun n => Real.exp (x ((k + 1) * B + n) - max μ μt)) B]
      congr 2
      refine Finset.sum_congr rfl fun n _ => ?_
      rw [← Real.exp_add]
      congr 1
      ring
    · show stepA B (runM B (fun n => ((x n : ℝ) : EReal)) k)
          (runA B (fun n => ((x n : ℝ) : EReal)) (fun n => ((y n : ℝ) : EReal)) k)
          (fun n => ((x n : ℝ) : EReal)) (fun n => ((y n : ℝ) : EReal)) (k + 1) = _
      rw [hM, hA, stepA_coe B x y (k + 1) μ (max μ μt) _ hm, hsucc, Finset.sum_range_add, Finset.mul_sum,
        Fin.sum_univ_eq_sum_range
          (fun n => Real.exp (x ((k + 1) * B + n) - max μ μt) * y ((k + 1) * B + n)) B]
      congr 2
      refine Finset.sum_congr rfl fun n _ => ?_
      rw [← mul_assoc, ← Real.exp_add]
      congr 2
      ring

/-- THE LAW: for real scores σ and values ν over N = (T + 1) · B positions (B > 0), the tile-by-tile result
    a / l after the last tile is the one-pass softmax-weighted sum. -/
theorem online_softmax (T : ℕ) (hB : 0 < B) (N : ℕ) (hN : N = (T + 1) * B) (σ ν : Fin N → ℝ) :
    Ideal.div (runA B (ext fun n => (σ n : EReal)) (ext fun n => (ν n : EReal)) T) (runL B (ext fun n => (σ n : EReal)) T)
      = ∑ n : Fin N, Ideal.div (Ideal.exp ((σ n : EReal) - cmax fun n' : Fin N => (σ n' : EReal)))
            (∑ n' : Fin N, Ideal.exp ((σ n' : EReal) - cmax fun n'' : Fin N => (σ n'' : EReal))) * (ν n : EReal) := by
  subst hN
  rw [ext_coe, ext_coe]
  obtain ⟨μ, -, hub, ⟨n0, hn0, hatt⟩, hL, hA⟩ := run_inv B hB (rext σ) (rext ν) T
  -- the maximum of all the scores is μ
  have hcm : cmax (fun n : Fin ((T + 1) * B) => (σ n : EReal)) = (μ : EReal) := by
    apply le_antisymm
    · refine cmax_le fun n => EReal.coe_le_coe_iff.mpr ?_
      rw [← rext_apply σ n]
      exact hub n.val n.2
    · refine le_trans (le_of_eq ?_) (le_cmax (fun n : Fin ((T + 1) * B) => (σ n : EReal)) ⟨n0, hn0⟩)
      show (μ : EReal) = ((σ ⟨n0, hn0⟩ : ℝ) : EReal)
      rw [← hatt, ← rext_apply σ ⟨n0, hn0⟩]
  -- the sums over the first N natural numbers are the sums over the N positions
  have hLs : (∑ n ∈ Finset.range ((T + 1) * B), Real.exp (rext σ n - μ))
      = ∑ n : Fin ((T + 1) * B), Real.exp (σ n - μ) := by
    rw [← Fin.sum_univ_eq_sum_range (fun n => Real.exp (rext σ n - μ))]
    exact Finset.sum_congr rfl fun n _ => by rw [rext_apply]
  have hAs : (∑ n ∈ Finset.range ((T + 1) * B), Real.exp (rext σ n - μ) * rext ν n)
      = ∑ n : Fin ((T + 1) * B), Real.exp (σ n - μ) * ν n := by
    rw [← Fin.sum_univ_eq_sum_range (fun n => Real.exp (rext σ n - μ) * rext ν n)]
    exact Finset.sum_congr rfl fun n _ => by rw [rext_apply, rext_apply]
  -- the normaliser is a positive real number
  have hpos : 0 < ∑ n : Fin ((T + 1) * B), Real.exp (σ n - μ) :=
    Finset.sum_pos (fun _ _ => Real.exp_pos _) ⟨⟨n0, hn0⟩, Finset.mem_univ _⟩
  rw [hcm, hA, hL, hLs, hAs]
  simp only [exp_coe_sub]
  rw [coe_sum]
  simp only [Ideal.div_coe (ne_of_gt hpos), ← EReal.coe_mul]
  rw [coe_sum, Finset.sum_mul]
  congr 1
  exact Finset.sum_congr rfl fun n _ => by ring

end Cert.OnlineSoftmax

end
-- ==== Proof.CausalRow.lean ====
/-
  The causal row law: the online softmax of a row whose scores are masked after a prefix.

  The keys are cut into tiles of B consecutive positions. Query row qi · B + r of a causal attention sees the key
  positions n ≤ qi · B + r; the later positions carry the score -∞. The tile-by-tile recursion of the online
  softmax (running maximum m, normaliser l, weighted sum a, started from -∞, 0, 0) is run over the tiles
  0, …, qi only: the tiles before qi are wholly live, and in tile qi the live positions are the prefix of length
  r + 1 ≥ 1. So every tile processed has a real maximum; a masked position contributes exp (-∞ - m') = 0 to the
  normaliser and 0 · v = 0 to the weighted sum. After tile qi the running maximum is the maximum μ of the live
  scores, l = Σ exp (s_n - μ) and a = Σ exp (s_n - μ) · v_n over the live positions. On the other side, the
  one-pass softmax over all N positions has the same maximum μ (the masked scores are -∞), the masked terms of
  both of its sums vanish, and dividing the finite real sum by the positive real normaliser distributes over the sum.
-/
import proofs.«103980_j45028437131996_2_alg».proof.Proof.LibOnlineSoftmax

noncomputable section

open scoped BigOperators

namespace Cert.CausalRow

open Idealize.ShloMosaic Cert.LogShift Cert.OnlineSoftmax

/-- A sum of a family that vanishes after the first M of N positions is the sum over the first M. -/
theorem sum_prefix (g : ℕ → ℝ) (M N : ℕ) (h : M ≤ N) :
    ∑ n ∈ Finset.range N, (if n < M then g n else 0) = ∑ n ∈ Finset.range M, g n := by
  rw [← Finset.sum_filter]
  congr 1
  ext n
  simp only [Finset.mem_filter, Finset.mem_range]
  omega

/-- The exponential of a masked score shifted by a real number: the real exponential where the score is live,
    zero where it is -∞. -/
theorem exp_masked (p : Prop) [Decidable p] (x μ : ℝ) :
    Ideal.exp ((if p then ((x : ℝ) : EReal) else ⊥) - (μ : EReal))
      = (((if p then Real.exp (x - μ) else 0 : ℝ)) : EReal) := by
  by_cases h : p
  · rw [if_pos h, if_pos h]; exact exp_coe_sub x μ
  · rw [if_neg h, if_neg h, sub_eq_add_neg, EReal.bot_add, Ideal.exp_bot, EReal.coe_zero]

variable (B : ℕ)

/-! ## One tile whose live positions are a prefix of length c -/

/-- The tile's exponentials, shifted by a real number, sum to the real sum over the live prefix. -/
theorem tile_sumL (s : ℕ → EReal) (x : ℕ → ℝ) (k c : ℕ) (hcB : c ≤ B)
    (ht : ∀ j, j < B → s (k * B + j) = if j < c then ((x (k * B + j) : ℝ) : EReal) else ⊥) (μ' : ℝ) :
    ∑ j : Fin B, Ideal.exp (s (k * B + j.val) - (μ' : EReal))
      = ((∑ j ∈ Finset.range c, Real.exp (x (k * B + j) - μ') : ℝ) : EReal) := by
  rw [← sum_prefix (fun j => Real.exp (x (k * B + j) - μ')) c B hcB,
    ← Fin.sum_univ_eq_sum_range (fun j => if j < c then Real.exp (x (k * B + j) - μ') else 0) B, ← coe_sum]
  refine Finset.sum_congr rfl fun j _ => ?_
  rw [ht j.val j.isLt]
  exact exp_masked _ _ _

/-- The same with each exponential weighted by a real value. -/
theorem tile_sumA (s : ℕ → EReal) (x y : ℕ → ℝ) (k c : ℕ) (hcB : c ≤ B)
    (ht : ∀ j, j < B → s (k * B + j) = if j < c then ((x (k * B + j) : ℝ) : EReal) else ⊥) (μ' : ℝ) :
    ∑ j : Fin B, Ideal.exp (s (k * B + j.val) - (μ' : EReal)) * ((y (k * B + j.val) : ℝ) : EReal)
      = ((∑ j ∈ Finset.range c, Real.exp (x (k * B + j) - μ') * y (k * B + j) : ℝ) : EReal) := by
  rw [← sum_prefix (fun j => Real.exp (x (k * B + j) - μ') * y (k * B + j)) c B hcB,
    ← Fin.sum_univ_eq_sum_range
      (fun j => if j < c then Real.exp (x (k * B + j) - μ') * y (k * B + j) else 0) B, ← coe_sum]
  refine Finset.sum_congr rfl fun j _ => ?_
  rw [ht j.val j.isLt, exp_masked, ← EReal.coe_mul]
  by_cases h : j.val < c
  · rw [if_pos h, if_pos h]
  · rw [if_neg h, if_neg h, zero_mul]

/-- Such a tile (c ≥ 1) has a real maximum, which bounds the live scores and is one of them. -/
theorem tile_max' (hB : 0 < B) (s : ℕ → EReal) (x : ℕ → ℝ) (k c : ℕ) (hc0 : 0 < c) (hcB : c ≤ B)
    (ht : ∀ j, j < B → s (k * B + j) = if j < c then ((x (k * B + j) : ℝ) : EReal) else ⊥) :
    ∃ μt : ℝ, cmax (fun j : Fin B => s (k * B + j.val)) = (μt : EReal)
      ∧ (∀ j, j < c → x (k * B + j) ≤ μt) ∧ ∃ j, j < c ∧ x (k * B + j) = μt := by
  have h0 : s (k * B + 0) = ((x (k * B + 0) : ℝ) : EReal) := by rw [ht 0 hB, if_pos hc0]
  have hne_bot : cmax (fun j : Fin B => s (k * B + j.val)) ≠ ⊥ := by
    intro e
    have hb : s (k * B + 0) = ⊥ := eq_bot_of_cmax_eq_bot e ⟨0, hB⟩
    rw [h0] at hb
    exact EReal.coe_ne_bot _ hb
  obtain ⟨j0, hj0⟩ := exists_eq_cmax hne_bot
  have hj0' : s (k * B + j0.val) = cmax (fun j : Fin B => s (k * B + j.val)) := hj0
  have hj0c : j0.val < c := by
    by_contra hn
    apply hne_bot
    rw [← hj0', ht j0.val j0.isLt, if_neg hn]
  have hj0x : s (k * B + j0.val) = ((x (k * B + j0.val) : ℝ) : EReal) := by
    rw [ht j0.val j0.isLt, if_pos hj0c]
  refine ⟨x (k * B + j0.val), ?_, fun j hj => ?_, j0.val, hj0c, rfl⟩
  · rw [← hj0']; exact hj0x
  · have hjB : j < B := lt_of_lt_of_le hj hcB
    have h : s (k * B + j) ≤ cmax (fun j : Fin B => s (k * B + j.val)) :=
      le_cmax (fun j : Fin B => s (k * B + j.val)) ⟨j, hjB⟩
    rw [← hj0', hj0x, ht j hjB, if_pos hj] at h
    exact EReal.coe_le_coe_iff.mp h

/-- The running maximum from -∞ is the tile's maximum. -/
theorem stepM_bot' (s : ℕ → EReal) (k : ℕ) (μt : ℝ)
    (hcm : cmax (fun j : Fin B => s (k * B + j.val)) = (μt : EReal)) : stepM B ⊥ s k = (μt : EReal) := by
  unfold stepM
  rw [hcm]
  exact max_eq_right bot_le

/-- The running maximum from a real number is the larger of it and the tile's maximum. -/
theorem stepM_coe' (s : ℕ → EReal) (k : ℕ) (μ μt : ℝ)
    (hcm : cmax (fun j : Fin B => s (k * B + j.val)) = (μt : EReal)) :
    stepM B (μ : EReal) s k = ((max μ μt : ℝ) : EReal) := by
  unfold stepM
  rw [hcm]
  exact (EReal.coe_strictMono.monotone.map_max).symm

/-- From -∞ and 0 the normaliser is the sum over the tile's live prefix. -/
theorem stepL_bot' (s : ℕ → EReal) (x : ℕ → ℝ) (k c : ℕ) (hcB : c ≤ B)
    (ht : ∀ j, j < B → s (k * B + j) = if j < c then ((x (k * B + j) : ℝ) : EReal) else ⊥) (μ' : ℝ)
    (hm : stepM B ⊥ s k = (μ' : EReal)) :
    stepL B ⊥ 0 s k = ((∑ j ∈ Finset.range c, Real.exp (x (k * B + j) - μ') : ℝ) : EReal) := by
  unfold stepL
  rw [hm, mul_zero, zero_add]
  exact tile_sumL B s x k c hcB ht μ'

theorem stepA_bot' (s : ℕ → EReal) (x y : ℕ → ℝ) (k c : ℕ) (hcB : c ≤ B)
    (ht : ∀ j, j < B → s (k * B + j) = if j < c then ((x (k * B + j) : ℝ) : EReal) else ⊥) (μ' : ℝ)
    (hm : stepM B ⊥ s k = (μ' : EReal)) :
    stepA B ⊥ 0 s (fun n => ((y n : ℝ) : EReal)) k
      = ((∑ j ∈ Finset.range c, Real.exp (x (k * B + j) - μ') * y (k * B + j) : ℝ) : EReal) := by
  unfold stepA
  rw [hm, mul_zero, zero_add]
  exact tile_sumA B s x y k c hcB ht μ'

/-- From real numbers the normaliser is a real number. -/
theorem stepL_coe' (s : ℕ → EReal) (x : ℕ → ℝ) (k c : ℕ) (hcB : c ≤ B)
    (ht : ∀ j, j < B → s (k * B + j) = if j < c then ((x (k * B + j) : ℝ) : EReal) else ⊥) (μ μ' l : ℝ)
    (hm : stepM B (μ : EReal) s k = (μ' : EReal)) :
    stepL B (μ : EReal) (l : EReal) s k
      = ((Real.exp (μ - μ') * l + ∑ j ∈ Finset.range c, Real.exp (x (k * B + j) - μ') : ℝ) : EReal) := by
  unfold stepL
  rw [hm, tile_sumL B s x k c hcB ht μ', exp_coe_sub, ← EReal.coe_mul, ← EReal.coe_add]

theorem stepA_coe' (s : ℕ → EReal) (x y : ℕ → ℝ) (k c : ℕ) (hcB : c ≤ B)
    (ht : ∀ j, j < B → s (k * B + j) = if j < c then ((x (k * B + j) : ℝ) : EReal) else ⊥) (μ μ' a : ℝ)
    (hm : stepM B (μ : EReal) s k = (μ' : EReal)) :
    stepA B (μ : EReal) (a : EReal) s (fun n => ((y n : ℝ) : EReal)) k
      = ((Real.exp (μ - μ') * a + ∑ j ∈ Finset.range c, Real.exp (x (k * B + j) - μ') * y (k * B + j) : ℝ) : EReal) := by
  unfold stepA
  rw [hm, tile_sumA B s x y k c hcB ht μ', exp_coe_sub, ← EReal.coe_mul, ← EReal.coe_add]

/-! ## The invariant -/

/-- THE INVARIANT for scores that are real on the first k · B + c positions (1 ≤ c ≤ B) and -∞ on the rest of
    tile k: after tile k the running maximum is a real number μ that bounds the live scores and is one of them, and
    the normaliser and the weighted sum are the sums of exp (x n - μ) and exp (x n - μ) · y n over the live
    positions. -/
theorem run_inv' (hB : 0 < B) (x y : ℕ → ℝ) (s : ℕ → EReal) (k : ℕ) :
    ∀ c : ℕ, 0 < c → c ≤ B →
      (∀ n, n < (k + 1) * B → s n = if n < k * B + c then ((x n : ℝ) : EReal) else ⊥) →
      ∃ μ : ℝ, runM B s k = (μ : EReal)
        ∧ (∀ n, n < k * B + c → x n ≤ μ)
        ∧ (∃ n, n < k * B + c ∧ x n = μ)
        ∧ runL B s k = ((∑ n ∈ Finset.range (k * B + c), Real.exp (x n - μ) : ℝ) : EReal)
        ∧ runA B s (fun n => ((y n : ℝ) : EReal)) k
            = ((∑ n ∈ Finset.range (k * B + c), Real.exp (x n - μ) * y n : ℝ) : EReal) := by
  induction k with
  | zero =>
    intro c hc0 hcB hs
    have ht : ∀ j, j < B → s (0 * B + j) = if j < c then ((x (0 * B + j) : ℝ) : EReal) else ⊥ := by
      intro j hj
      rw [hs (0 * B + j) (by omega)]
      by_cases h : j < c
      · rw [if_pos h, if_pos (by omega)]
      · rw [if_neg h, if_neg (by omega)]
    obtain ⟨μt, hcm, hub, j0, hj0, hatt⟩ := tile_max' B hB s x 0 c hc0 hcB ht
    have hm := stepM_bot' B s 0 μt hcm
    refine ⟨μt, hm, ?_, ?_, ?_, ?_⟩
    · intro n hn
      have := hub n (by omega)
      simpa using this
    · exact ⟨j0, by omega, by simpa using hatt⟩
    · show stepL B ⊥ 0 s 0 = _
      rw [stepL_bot' B s x 0 c hcB ht μt hm]
      simp
    · show stepA B ⊥ 0 s (fun n => ((y n : ℝ) : EReal)) 0 = _
      rw [stepA_bot' B s x y 0 c hcB ht μt hm]
      simp
  | succ k ih =>
    intro c hc0 hcB hs
    have hsucc : (k + 1) * B = k * B + B := Nat.succ_mul k B
    have hsucc2 : (k + 1 + 1) * B = (k + 1) * B + B := Nat.succ_mul (k + 1) B
    obtain ⟨μ, hM, hub, ⟨n0, hn0, hatt⟩, hL, hA⟩ := ih B hB le_rfl (by
      intro n hn
      rw [hs n (by omega), if_pos (by omega), if_pos (by omega)])
    have ht : ∀ j, j < B →
        s ((k + 1) * B + j) = if j < c then ((x ((k + 1) * B + j) : ℝ) : EReal) else ⊥ := by
      intro j hj
      rw [hs ((k + 1) * B + j) (by omega)]
      by_cases h : j < c
      · rw [if_pos h, if_pos (by omega)]
      · rw [if_neg h, if_neg (by omega)]
    obtain ⟨μt, hcm, hubt, j0, hj0, hattt⟩ := tile_max' B hB s x (k + 1) c hc0 hcB ht
    have hm := stepM_coe' B s (k + 1) μ μt hcm
    rw [← hsucc] at hL hA
    refine ⟨max μ μt, ?_, ?_, ?_, ?_, ?_⟩
    · show stepM B (runM B s k) s (k + 1) = _
      rw [hM]; exact hm
    · intro n hn
      by_cases h : n < (k + 1) * B
      · exact le_trans (hub n (by omega)) (le_max_left _ _)
      · obtain ⟨j, rfl⟩ := Nat.exists_eq_add_of_le (not_lt.mp h)
        exact le_trans (hubt j (by omega)) (le_max_right _ _)
    · rcases le_total μt μ with h | h
      · exact ⟨n0, by omega, by rw [max_eq_left h]; exact hatt⟩
      · exact ⟨(k + 1) * B + j0, by omega, by rw [max_eq_right h]; exact hattt⟩
    · show stepL B (runM B s k) (runL B s k) s (k + 1) = _
      have e1 : Real.exp (μ - max μ μt) * ∑ n ∈ Finset.range ((k + 1) * B), Real.exp (x n - μ)
          = ∑ n ∈ Finset.range ((k + 1) * B), Real.exp (x n - max μ μt) := by
        rw [Finset.mul_sum]
        refine Finset.sum_congr rfl fun n _ => ?_
        rw [← Real.exp_add]
        congr 1
        ring
      rw [hM, hL, stepL_coe' B s x (k + 1) c hcB ht μ (max μ μt) _ hm, e1, Finset.sum_range_add]
    · show stepA B (runM B s k) (runA B s (fun n => ((y n : ℝ) : EReal)) k) s (fun n => ((y n : ℝ) : EReal)) (k + 1) = _
      have e1 : Real.exp (μ - max μ μt) * ∑ n ∈ Finset.range ((k + 1) * B), Real.exp (x n - μ) * y n
          = ∑ n ∈ Finset.range ((k + 1) * B), Real.exp (x n - max μ μt) * y n := by
        rw [Finset.mul_sum]
        refine Finset.sum_congr rfl fun n _ => ?_
        rw [← mul_assoc, ← Real.exp_add]
        congr 2
        ring
      rw [hM, hA, stepA_coe' B s x y (k + 1) c hcB ht μ (max μ μt) _ hm, e1, Finset.sum_range_add]

/-! ## The law -/

/-- THE CAUSAL ROW LAW: for real scores σ and values ν over N = (T + 1) · B positions (B > 0), masked to -∞ after
    position qi · B + r (qi ≤ T, r < B), the tile-by-tile result a / l after tile qi is the one-pass
    softmax-weighted sum of the masked row over all N positions. -/
theorem causal_row (T : ℕ) (hB : 0 < B) (qi : ℕ) (hqi : qi ≤ T) (r : ℕ) (hr : r < B) (N : ℕ)
    (hN : N = (T + 1) * B) (σ ν : Fin N → ℝ) (w : Fin N → EReal)
    (hw : ∀ n, w n = if n.val ≤ qi * B + r then ((σ n : ℝ) : EReal) else ⊥) :
    Ideal.div (runA B (ext w) (ext fun n => (ν n : EReal)) qi) (runL B (ext w) qi)
      = ∑ n : Fin N, Ideal.div (Ideal.exp (w n - cmax w)) (∑ n' : Fin N, Ideal.exp (w n' - cmax w))
          * (ν n : EReal) := by
  subst hN
  have h1 : (qi + 1) * B ≤ (T + 1) * B := Nat.mul_le_mul_right B (by omega)
  have h2 : (qi + 1) * B = qi * B + B := Nat.succ_mul qi B
  rw [ext_coe ν]
  obtain ⟨μ, -, hub, ⟨n0, hn0, hatt⟩, hLs, hAs⟩ :=
    run_inv' B hB (rext σ) (rext ν) (ext w) qi (r + 1) (by omega) (by omega) (by
      intro n hn
      have hnN : n < (T + 1) * B := by omega
      rw [ext_apply w n hnN, hw, ← rext_apply σ ⟨n, hnN⟩]
      by_cases h : n ≤ qi * B + r
      · rw [if_pos h, if_pos (by omega)]
      · rw [if_neg h, if_neg (by omega)])
  -- the shifted exponentials of the masked row, as real numbers
  obtain ⟨e, he⟩ : ∃ e : Fin ((T + 1) * B) → ℝ,
      ∀ n, e n = if n.val ≤ qi * B + r then Real.exp (σ n - μ) else 0 := ⟨_, fun _ => rfl⟩
  have hexp : ∀ n, Ideal.exp (w n - (μ : EReal)) = ((e n : ℝ) : EReal) := by
    intro n
    rw [hw, he]
    exact exp_masked _ _ _
  -- the maximum of the masked row is μ
  have hcm : cmax w = (μ : EReal) := by
    apply le_antisymm
    · refine cmax_le fun n => ?_
      rw [hw]
      by_cases h : n.val ≤ qi * B + r
      · rw [if_pos h]
        refine EReal.coe_le_coe_iff.mpr ?_
        rw [← rext_apply σ n]
        exact hub n.val (by omega)
      · rw [if_neg h]; exact bot_le
    · have hn0N : n0 < (T + 1) * B := by omega
      refine le_trans (le_of_eq ?_) (le_cmax w ⟨n0, hn0N⟩)
      rw [hw, if_pos (show n0 ≤ qi * B + r by omega), ← hatt, ← rext_apply σ ⟨n0, hn0N⟩]
  -- the sums over the live prefix are the sums over all N positions of the masked terms
  have hLsum : (∑ n ∈ Finset.range (qi * B + (r + 1)), Real.exp (rext σ n - μ))
      = ∑ n : Fin ((T + 1) * B), e n := by
    rw [← sum_prefix (fun n => Real.exp (rext σ n - μ)) (qi * B + (r + 1)) ((T + 1) * B) (by omega),
      ← Fin.sum_univ_eq_sum_range (fun n => if n < qi * B + (r + 1) then Real.exp (rext σ n - μ) else 0)
        ((T + 1) * B)]
    refine Finset.sum_congr rfl fun n _ => ?_
    rw [he, rext_apply]
    by_cases h : n.val ≤ qi * B + r
    · rw [if_pos h, if_pos (by omega)]
    · rw [if_neg h, if_neg (by omega)]
  have hAsum : (∑ n ∈ Finset.range (qi * B + (r + 1)), Real.exp (rext σ n - μ) * rext ν n)
      = ∑ n : Fin ((T + 1) * B), e n * ν n := by
    rw [← sum_prefix (fun n => Real.exp (rext σ n - μ) * rext ν n) (qi * B + (r + 1)) ((T + 1) * B) (by omega),
      ← Fin.sum_univ_eq_sum_range
        (fun n => if n < qi * B + (r + 1) then Real.exp (rext σ n - μ) * rext ν n else 0) ((T + 1) * B)]
    refine Finset.sum_congr rfl fun n _ => ?_
    rw [he, rext_apply, rext_apply]
    by_cases h : n.val ≤ qi * B + r
    · rw [if_pos h, if_pos (by omega)]
    · rw [if_neg h, if_neg (by omega), zero_mul]
  -- the normaliser is a positive real number
  have hpos : 0 < ∑ n : Fin ((T + 1) * B), e n := by
    rw [← hLsum]
    exact Finset.sum_pos (fun _ _ => Real.exp_pos _) ⟨0, Finset.mem_range.mpr (by omega)⟩
  rw [hcm, hAs, hLs, hLsum, hAsum]
  simp only [hexp]
  rw [coe_sum]
  simp only [Ideal.div_coe (ne_of_gt hpos), ← EReal.coe_mul]
  rw [coe_sum, Finset.sum_mul]
  congr 1
  exact Finset.sum_congr rfl fun n _ => by ring

end Cert.CausalRow

end
-- ==== Proof.RowBridge.lean ====
/-
  The row bridge: one entry of the causal attention output is the tile-by-tile online softmax of its row.

  The 4096 key positions are cut into 4 tiles of 1024. The query position t = qi · 1024 + r sees the keys n ≤ t;
  its masked row is real on that prefix and -∞ after it, so the causal row law applies with the scores of the row
  and the entries of the value projection, all real numbers when the inputs are. The recursion is run over the
  tiles 0, …, qi and its quotient a / l is the softmax-weighted sum over all 4096 positions, which is the
  attention output at (b, t, h).
-/
import proofs.«103980_j45028437131996_2_alg».proof.Proof.AttnSpec
import proofs.«103980_j45028437131996_2_alg».proof.Proof.CausalRow

noncomputable section

open scoped BigOperators

namespace Cert.RowBridge

open Idealize.ShloMosaic Idealize.ShloMosaic.ValueIdx Cert.LogShift Cert.OnlineSoftmax Cert.AttnSpec

/-- THE ROW BRIDGE. -/
theorem row_bridge (x : (⟨3, ![4, 4096, 1024]⟩ : Shape).Idx → EReal)
    (wk wq wv : (⟨2, ![1024, 64]⟩ : Shape).Idx → EReal)
    (hx : ∀ i, ∃ r : ℝ, x i = (r : EReal)) (hk : ∀ i, ∃ r : ℝ, wk i = (r : EReal))
    (hq : ∀ i, ∃ r : ℝ, wq i = (r : EReal)) (hwv : ∀ i, ∃ r : ℝ, wv i = (r : EReal))
    (b : Fin 4) (t : Fin 4096) (qi : Fin 4) (r : Fin 1024) (ht : t.val = qi.val * 1024 + r.val) (h : Fin 64)
    (w v : Fin 4096 → EReal) (hw : ∀ n, w n = wmask x wk wq b t n) (hv : ∀ n, v n = proj x wv b n h) :
    Ideal.div (runA 1024 (ext w) (ext v) qi.val) (runL 1024 (ext w) qi.val) = attnOut x wk wq wv b t h := by
  choose σ hσ using score_real x wk wq hx hk hq b t
  choose ν hν using fun s => proj_real x wv hx hwv b s h
  have hvf : v = fun s => ((ν s : ℝ) : EReal) := funext fun s => (hv s).trans (hν s)
  have hwf : w = wmask x wk wq b t := funext hw
  rw [hvf, hwf, Cert.CausalRow.causal_row 1024 3 (by norm_num) qi.val (by have := qi.isLt; omega) r.val r.isLt 4096
    (by norm_num) σ ν (wmask x wk wq b t) (by
      intro n
      unfold wmask
      rw [hσ n, ht])]
  unfold attnOut
  exact Finset.sum_congr rfl fun s _ => by rw [hν s]

end Cert.RowBridge

end
-- ==== Proof.KI.TileOps.lean ====
/-
  The attention body's effect on its three scratch buffers as pure functions of what it loads — the running
  maximum m, the running normaliser l and the running weighted sum a (a triple) —: the reset at the first key
  tile, the update by a key tile wholly below the diagonal, the update by the diagonal tile (scores masked above
  the diagonal), and the quotient a / l stored at the last key tile. Each component is the payload of the one
  store that writes it, over the values the body has loaded when it stores.
-/
import proofs.«103980_j45028437131996_2_alg».proof.Proof.Gen.KernelIdeal.Skeleton

noncomputable section

namespace Cert.KernelIdeal.Hand

open Idealize.ShloMosaic Cert.KernelIdeal Cert.KernelIdeal.Gen

variable {F : FTy → Type} [FloatOps F] [Named F]

/-- Running maximum, running normaliser, running weighted sum. -/
abbrev St1 : Type := Vec F S1024x1 .f32 × Vec F S1024x1 .f32 × Vec F S1024x64 .f32

/-- The reset: m = -inf, l = 0, a = 0. -/
def initS1 : St1 (F := F) := (k1_pay1, k1_pay2, k1_pay3)

/-- A key tile wholly below the diagonal: m' = max m (row max of the scores), l' = exp (m - m') l + row sum of
    exp (s - m'), a' = exp (m - m') a + exp (s - m') · v. -/
def fullUpd1 (q k v : Vec F S1x1024x64 .bf16) (p : St1 (F := F)) : St1 (F := F) :=
  (k1_pay5 (k1_pay10 q k p.1), k1_pay13 q k p.1 p.1 p.2.1, k1_pay4 (k1_pay14 q k p.1 p.1 v p.2.2))

/-- The diagonal tile: the same with the scores above the diagonal replaced by the named fill. `W1`, `W2` are the
    query tile's and the key tile's numbers as words. -/
def diagUpd1 (W1 W2 : BitVec 32) (q k v : Vec F S1x1024x64 .bf16) (p : St1 (F := F)) : St1 (F := F) :=
  (k1_pay7 (k1_pay16 W1 W2 q k p.1), k1_pay19 W1 W2 q k p.1 p.1 p.2.1,
    k1_pay6 (k1_pay17 W1 W2 q k p.1 p.1) (k1_pay18 W1 W2 q k p.1) v p.2.2)

/-- The quotient stored into the output block at the last key tile. -/
def fin1 (p : St1 (F := F)) : Vec F S1x1024x64 .f32 := k1_pay8 p.2.2 p.2.1

end Cert.KernelIdeal.Hand

end
-- ==== Proof.KI.R1Step.lean ====
/-
  The attention region's step at a grid point in closed form: in each of the seven cases, what the run's stores
  leave in the scratch buffers and in the output's staging buffer is the pure update of the scratch triple —
  reset then unmasked update, reset then masked update, unmasked update, masked update, masked update followed
  by the quotient, nothing, the quotient alone — over the blocks the point's windows hold. Each store is a store
  of the whole buffer, so what it leaves is its payload, and a load between two stores reads the earlier payload.
-/
import proofs.«103980_j45028437131996_2_alg».proof.Proof.KI.R1
import proofs.«103980_j45028437131996_2_alg».proof.Proof.KI.TileOps
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- The point's query-tile and key-tile numbers are its second and third coordinates. -/
theorem coords1_1 : ∀ t : Fin cfg1.N, ((grid1.coords t) 1).val = t.val / 4 % 4 :=
  (by decide +kernel : ∀ t : Fin grid1.N, ((grid1.coords t) 1).val = t.val / 4 % 4)
theorem coords1_2 : ∀ t : Fin cfg1.N, ((grid1.coords t) 2).val = t.val % 4 :=
  (by decide +kernel : ∀ t : Fin grid1.N, ((grid1.coords t) 2).val = t.val % 4)

theorem sout1_A_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) :
    sout1_A_0 c i arg3 harg3 arg4 harg4 arg5 harg5 arg6 harg6 arg7 harg7 arg8 harg8 arg9 harg9 hc0 hc1 hc2 hc3 x0 x1 x2 = (fullUpd1 x0 x1 x2 initS1).1 := by
  unfold sout1_A_0
  rw [View.read_writes_eq_canon _ _ _ (scover1_A_0 c i arg3 harg3 arg4 harg4 arg5 harg5 arg6 harg6 arg7 harg7 arg8 harg8 arg9 harg9 hc0 hc1 hc2 hc3 x0 x1 x2)]
  unfold kernelRun1_A
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_A_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) :
    sout1_A_1 c i arg3 harg3 arg4 harg4 arg5 harg5 arg6 harg6 arg7 harg7 arg8 harg8 arg9 harg9 hc0 hc1 hc2 hc3 x0 x1 x2 = (fullUpd1 x0 x1 x2 initS1).2.1 := by
  unfold sout1_A_1
  rw [View.read_writes_eq_canon _ _ _ (scover1_A_1 c i arg3 harg3 arg4 harg4 arg5 harg5 arg6 harg6 arg7 harg7 arg8 harg8 arg9 harg9 hc0 hc1 hc2 hc3 x0 x1 x2)]
  unfold kernelRun1_A
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_A_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i) (x0 x1 x2 : Vec F S1x1024x64 .bf16) :
    sout1_A_2 c i arg3 harg3 arg4 harg4 arg5 harg5 arg6 harg6 arg7 harg7 arg8 harg8 arg9 harg9 hc0 hc1 hc2 hc3 x0 x1 x2 = (fullUpd1 x0 x1 x2 initS1).2.2 := by
  unfold sout1_A_2
  rw [View.read_writes_eq_canon _ _ _ (scover1_A_2 c i arg3 harg3 arg4 harg4 arg5 harg5 arg6 harg6 arg7 harg7 arg8 harg8 arg9 harg9 hc0 hc1 hc2 hc3 x0 x1 x2)]
  unfold kernelRun1_A
  dsimp only
  sl_unfold_words
  rw [View.canon_cons_unit_zero (S := S1024x64) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_B_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) :
    sout1_B_0 c i arg3 harg3 arg4 harg4 arg5 harg5 arg6 harg6 arg7 harg7 arg8 harg8 arg9 harg9 hc0 hc1 hc2 hc3 x0 x1 x2 = (diagUpd1 (BitVec.ofNat 32 (i 1).val) (BitVec.ofNat 32 (i 2).val) x0 x1 x2 initS1).1 := by
  unfold sout1_B_0
  rw [View.read_writes_eq_canon _ _ _ (scover1_B_0 c i arg3 harg3 arg4 harg4 arg5 harg5 arg6 harg6 arg7 harg7 arg8 harg8 arg9 harg9 hc0 hc1 hc2 hc3 x0 x1 x2)]
  unfold kernelRun1_B
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_B_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) :
    sout1_B_1 c i arg3 harg3 arg4 harg4 arg5 harg5 arg6 harg6 arg7 harg7 arg8 harg8 arg9 harg9 hc0 hc1 hc2 hc3 x0 x1 x2 = (diagUpd1 (BitVec.ofNat 32 (i 1).val) (BitVec.ofNat 32 (i 2).val) x0 x1 x2 initS1).2.1 := by
  unfold sout1_B_1
  rw [View.read_writes_eq_canon _ _ _ (scover1_B_1 c i arg3 harg3 arg4 harg4 arg5 harg5 arg6 harg6 arg7 harg7 arg8 harg8 arg9 harg9 hc0 hc1 hc2 hc3 x0 x1 x2)]
  unfold kernelRun1_B
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_B_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i) (x0 x1 x2 : Vec F S1x1024x64 .bf16) :
    sout1_B_2 c i arg3 harg3 arg4 harg4 arg5 harg5 arg6 harg6 arg7 harg7 arg8 harg8 arg9 harg9 hc0 hc1 hc2 hc3 x0 x1 x2 = (diagUpd1 (BitVec.ofNat 32 (i 1).val) (BitVec.ofNat 32 (i 2).val) x0 x1 x2 initS1).2.2 := by
  unfold sout1_B_2
  rw [View.read_writes_eq_canon _ _ _ (scover1_B_2 c i arg3 harg3 arg4 harg4 arg5 harg5 arg6 harg6 arg7 harg7 arg8 harg8 arg9 harg9 hc0 hc1 hc2 hc3 x0 x1 x2)]
  unfold kernelRun1_B
  dsimp only
  sl_unfold_words
  rw [View.canon_cons_unit_zero (S := S1024x64) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_C_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) :
    sout1_C_0 c i arg3 harg3 arg4 harg4 arg5 harg5 arg6 harg6 arg7 harg7 arg8 harg8 arg9 harg9 hc0 hc1 hc2 hc3 x0 x1 x2 xs0 xs1 xs2 = (fullUpd1 x0 x1 x2 (xs0, xs1, xs2)).1 := by
  unfold sout1_C_0
  rw [View.read_writes_eq_canon _ _ _ (scover1_C_0 c i arg3 harg3 arg4 harg4 arg5 harg5 arg6 harg6 arg7 harg7 arg8 harg8 arg9 harg9 hc0 hc1 hc2 hc3 x0 x1 x2 xs0 xs1 xs2)]
  unfold kernelRun1_C
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_C_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) :
    sout1_C_1 c i arg3 harg3 arg4 harg4 arg5 harg5 arg6 harg6 arg7 harg7 arg8 harg8 arg9 harg9 hc0 hc1 hc2 hc3 x0 x1 x2 xs0 xs1 xs2 = (fullUpd1 x0 x1 x2 (xs0, xs1, xs2)).2.1 := by
  unfold sout1_C_1
  rw [View.read_writes_eq_canon _ _ _ (scover1_C_1 c i arg3 harg3 arg4 harg4 arg5 harg5 arg6 harg6 arg7 harg7 arg8 harg8 arg9 harg9 hc0 hc1 hc2 hc3 x0 x1 x2 xs0 xs1 xs2)]
  unfold kernelRun1_C
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_C_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i) (x0 x1 x2 : Vec F S1x1024x64 .bf16) (xs0 xs1 : Vec F S1024x1 .f32) (xs2 : Vec F S1024x64 .f32) :
    sout1_C_2 c i arg3 harg3 arg4 harg4 arg5 harg5 arg6 harg6 arg7 harg7 arg8 harg8 arg9 harg9 hc0 hc1 hc2 hc3 x0 x1 x2 xs0 xs1 xs2 = (fullUpd1 x0 x1 x2 (xs0, xs1, xs2)).2.2 := by
  unfold sout1_C_2
  rw [View.read_writes_eq_canon _ _ _ (scover1_C_2 c i arg3 harg3 arg4 harg4 arg5 harg5 arg6 harg6 arg7 harg7 arg8 harg8 arg9 harg9 hc0 hc1 hc2 hc3 x0 x1 x2 xs0 xs1 xs2)]
  unfold kernelRun1_C
  dsimp only
  sl_unfold_words
  rw [View.canon_cons_unit_zero (S := S1024x64) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_D_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) :
    sout1_D_0 c i arg3 harg3 arg4 harg4 arg5 harg5 arg6 harg6 arg7 harg7 arg8 harg8 arg9 harg9 hc0 hc1 hc2 hc3 x0 x1 x2 xs0 xs1 xs2 = (diagUpd1 (BitVec.ofNat 32 (i 1).val) (BitVec.ofNat 32 (i 2).val) x0 x1 x2 (xs0, xs1, xs2)).1 := by
  unfold sout1_D_0
  rw [View.read_writes_eq_canon _ _ _ (scover1_D_0 c i arg3 harg3 arg4 harg4 arg5 harg5 arg6 harg6 arg7 harg7 arg8 harg8 arg9 harg9 hc0 hc1 hc2 hc3 x0 x1 x2 xs0 xs1 xs2)]
  unfold kernelRun1_D
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_D_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) :
    sout1_D_1 c i arg3 harg3 arg4 harg4 arg5 harg5 arg6 harg6 arg7 harg7 arg8 harg8 arg9 harg9 hc0 hc1 hc2 hc3 x0 x1 x2 xs0 xs1 xs2 = (diagUpd1 (BitVec.ofNat 32 (i 1).val) (BitVec.ofNat 32 (i 2).val) x0 x1 x2 (xs0, xs1, xs2)).2.1 := by
  unfold sout1_D_1
  rw [View.read_writes_eq_canon _ _ _ (scover1_D_1 c i arg3 harg3 arg4 harg4 arg5 harg5 arg6 harg6 arg7 harg7 arg8 harg8 arg9 harg9 hc0 hc1 hc2 hc3 x0 x1 x2 xs0 xs1 xs2)]
  unfold kernelRun1_D
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_D_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i) (x0 x1 x2 : Vec F S1x1024x64 .bf16) (xs0 xs1 : Vec F S1024x1 .f32) (xs2 : Vec F S1024x64 .f32) :
    sout1_D_2 c i arg3 harg3 arg4 harg4 arg5 harg5 arg6 harg6 arg7 harg7 arg8 harg8 arg9 harg9 hc0 hc1 hc2 hc3 x0 x1 x2 xs0 xs1 xs2 = (diagUpd1 (BitVec.ofNat 32 (i 1).val) (BitVec.ofNat 32 (i 2).val) x0 x1 x2 (xs0, xs1, xs2)).2.2 := by
  unfold sout1_D_2
  rw [View.read_writes_eq_canon _ _ _ (scover1_D_2 c i arg3 harg3 arg4 harg4 arg5 harg5 arg6 harg6 arg7 harg7 arg8 harg8 arg9 harg9 hc0 hc1 hc2 hc3 x0 x1 x2 xs0 xs1 xs2)]
  unfold kernelRun1_D
  dsimp only
  sl_unfold_words
  rw [View.canon_cons_unit_zero (S := S1024x64) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_E_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) :
    sout1_E_0 c i arg3 harg3 arg4 harg4 arg5 harg5 arg6 harg6 arg7 harg7 arg8 harg8 arg9 harg9 hc0 hc1 hc2 hc3 x0 x1 x2 xs0 xs1 xs2 = (diagUpd1 (BitVec.ofNat 32 (i 1).val) (BitVec.ofNat 32 (i 2).val) x0 x1 x2 (xs0, xs1, xs2)).1 := by
  unfold sout1_E_0
  rw [View.read_writes_eq_canon _ _ _ (scover1_E_0 c i arg3 harg3 arg4 harg4 arg5 harg5 arg6 harg6 arg7 harg7 arg8 harg8 arg9 harg9 hc0 hc1 hc2 hc3 x0 x1 x2 xs0 xs1 xs2)]
  unfold kernelRun1_E
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_E_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) :
    sout1_E_1 c i arg3 harg3 arg4 harg4 arg5 harg5 arg6 harg6 arg7 harg7 arg8 harg8 arg9 harg9 hc0 hc1 hc2 hc3 x0 x1 x2 xs0 xs1 xs2 = (diagUpd1 (BitVec.ofNat 32 (i 1).val) (BitVec.ofNat 32 (i 2).val) x0 x1 x2 (xs0, xs1, xs2)).2.1 := by
  unfold sout1_E_1
  rw [View.read_writes_eq_canon _ _ _ (scover1_E_1 c i arg3 harg3 arg4 harg4 arg5 harg5 arg6 harg6 arg7 harg7 arg8 harg8 arg9 harg9 hc0 hc1 hc2 hc3 x0 x1 x2 xs0 xs1 xs2)]
  unfold kernelRun1_E
  dsimp only
  sl_unfold_words
  rw [View.canon_cons_unit_zero (S := S1024x1) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem sout1_E_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) :
    sout1_E_2 c i arg3 harg3 arg4 harg4 arg5 harg5 arg6 harg6 arg7 harg7 arg8 harg8 arg9 harg9 hc0 hc1 hc2 hc3 x0 x1 x2 xs0 xs1 xs2 = (diagUpd1 (BitVec.ofNat 32 (i 1).val) (BitVec.ofNat 32 (i 2).val) x0 x1 x2 (xs0, xs1, xs2)).2.2 := by
  unfold sout1_E_2
  rw [View.read_writes_eq_canon _ _ _ (scover1_E_2 c i arg3 harg3 arg4 harg4 arg5 harg5 arg6 harg6 arg7 harg7 arg8 harg8 arg9 harg9 hc0 hc1 hc2 hc3 x0 x1 x2 xs0 xs1 xs2)]
  unfold kernelRun1_E
  dsimp only
  sl_unfold_words
  rw [View.canon_cons_unit_zero (S := S1024x64) hz2]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem out1_E_3_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i) (x0 x1 x2 : Vec F S1x1024x64 .bf16) (xs0 xs1 : Vec F S1024x1 .f32) (xs2 : Vec F S1024x64 .f32) :
    out1_E_3 c i arg3 harg3 arg4 harg4 arg5 harg5 arg6 harg6 arg7 harg7 arg8 harg8 arg9 harg9 hc0 hc1 hc2 hc3 x0 x1 x2 xs0 xs1 xs2 = fin1 (diagUpd1 (BitVec.ofNat 32 (i 1).val) (BitVec.ofNat 32 (i 2).val) x0 x1 x2 (xs0, xs1, xs2)) := by
  unfold out1_E_3
  rw [View.read_writes_eq_canon _ _ _ (cover1_E_3 c i arg3 harg3 arg4 harg4 arg5 harg5 arg6 harg6 arg7 harg7 arg8 harg8 arg9 harg9 hc0 hc1 hc2 hc3 x0 x1 x2 xs0 xs1 xs2)]
  unfold kernelRun1_E
  dsimp only
  sl_unfold_words
  rw [View.canon_cons_unit_zero (S := S1x1024x64) hz3]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

theorem out1_G_3_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i) (x0 x1 x2 : Vec F S1x1024x64 .bf16) (xs0 xs1 : Vec F S1024x1 .f32) (xs2 : Vec F S1024x64 .f32) :
    out1_G_3 c i arg3 harg3 arg4 harg4 arg5 harg5 arg6 harg6 arg7 harg7 arg8 harg8 arg9 harg9 hc0 hc1 hc2 hc3 x0 x1 x2 xs0 xs1 xs2 = fin1 (xs0, xs1, xs2) := by
  unfold out1_G_3
  rw [View.read_writes_eq_canon _ _ _ (cover1_G_3 c i arg3 harg3 arg4 harg4 arg5 harg5 arg6 harg6 arg7 harg7 arg8 harg8 arg9 harg9 hc0 hc1 hc2 hc3 x0 x1 x2 xs0 xs1 xs2)]
  unfold kernelRun1_G
  dsimp only
  sl_unfold_words
  rw [View.canon_cons_unit_zero (S := S1x1024x64) hz3]
  simp only [View.readAt_eq_ld, Memref.IsWhole.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

section Region1

variable (V : (c : Dev nD) → (b : Ref sig .tc) → Buf (Elt F) ((c : Thread nD τ).loc b))

theorem stepAt1_A_eq (c : Dev nD) (t : Fin cfg1.N) (h0 : t.val % 4 = 0) (h1 : t.val % 4 < t.val / 4 % 4) (p : Scr1 (F := F)) :
    stepAt1 V c t p = (junkO1, fullUpd1 (iblk1 V c 0 t) (iblk1 V c 1 t) (iblk1 V c 2 t) initS1) := by
  rw [stepAt1_A V c t h0 h1 p]
  rw [sout1_A_0_eq, sout1_A_1_eq, sout1_A_2_eq]

theorem stepAt1_B_eq (c : Dev nD) (t : Fin cfg1.N) (h0 : t.val % 4 = 0) (h2 : t.val % 4 = t.val / 4 % 4) (p : Scr1 (F := F)) :
    stepAt1 V c t p = (junkO1, diagUpd1 (BitVec.ofNat 32 ((grid1.coords t) 1).val) (BitVec.ofNat 32 ((grid1.coords t) 2).val) (iblk1 V c 0 t) (iblk1 V c 1 t) (iblk1 V c 2 t) initS1) := by
  rw [stepAt1_B V c t h0 h2 p]
  rw [sout1_B_0_eq, sout1_B_1_eq, sout1_B_2_eq]

theorem stepAt1_C_eq (c : Dev nD) (t : Fin cfg1.N) (h0 : ¬t.val % 4 = 0) (h1 : t.val % 4 < t.val / 4 % 4) (p : Scr1 (F := F)) :
    stepAt1 V c t p = (junkO1, fullUpd1 (iblk1 V c 0 t) (iblk1 V c 1 t) (iblk1 V c 2 t) p) := by
  rw [stepAt1_C V c t h0 h1 p]
  rw [sout1_C_0_eq, sout1_C_1_eq, sout1_C_2_eq]

theorem stepAt1_D_eq (c : Dev nD) (t : Fin cfg1.N) (h0 : ¬t.val % 4 = 0) (h1 : ¬t.val % 4 < t.val / 4 % 4) (h2 : t.val % 4 = t.val / 4 % 4) (h3 : ¬t.val % 4 = 3) (p : Scr1 (F := F)) :
    stepAt1 V c t p = (junkO1, diagUpd1 (BitVec.ofNat 32 ((grid1.coords t) 1).val) (BitVec.ofNat 32 ((grid1.coords t) 2).val) (iblk1 V c 0 t) (iblk1 V c 1 t) (iblk1 V c 2 t) p) := by
  rw [stepAt1_D V c t h0 h1 h2 h3 p]
  rw [sout1_D_0_eq, sout1_D_1_eq, sout1_D_2_eq]

theorem stepAt1_E_eq (c : Dev nD) (t : Fin cfg1.N) (h0 : ¬t.val % 4 = 0) (h1 : ¬t.val % 4 < t.val / 4 % 4) (h2 : t.val % 4 = t.val / 4 % 4) (h3 : t.val % 4 = 3) (p : Scr1 (F := F)) :
    stepAt1 V c t p = (fin1 (diagUpd1 (BitVec.ofNat 32 ((grid1.coords t) 1).val) (BitVec.ofNat 32 ((grid1.coords t) 2).val) (iblk1 V c 0 t) (iblk1 V c 1 t) (iblk1 V c 2 t) p), diagUpd1 (BitVec.ofNat 32 ((grid1.coords t) 1).val) (BitVec.ofNat 32 ((grid1.coords t) 2).val) (iblk1 V c 0 t) (iblk1 V c 1 t) (iblk1 V c 2 t) p) := by
  rw [stepAt1_E V c t h0 h1 h2 h3 p]
  rw [sout1_E_0_eq, sout1_E_1_eq, sout1_E_2_eq, out1_E_3_eq]

theorem stepAt1_F_eq (c : Dev nD) (t : Fin cfg1.N) (h0 : ¬t.val % 4 = 0) (h1 : ¬t.val % 4 < t.val / 4 % 4) (h2 : ¬t.val % 4 = t.val / 4 % 4) (h3 : ¬t.val % 4 = 3) (p : Scr1 (F := F)) :
    stepAt1 V c t p = (junkO1, p) := by
  rw [stepAt1_F V c t h0 h1 h2 h3 p]

theorem stepAt1_G_eq (c : Dev nD) (t : Fin cfg1.N) (h0 : ¬t.val % 4 = 0) (h1 : ¬t.val % 4 < t.val / 4 % 4) (h2 : ¬t.val % 4 = t.val / 4 % 4) (h3 : t.val % 4 = 3) (p : Scr1 (F := F)) :
    stepAt1 V c t p = (fin1 p, p) := by
  rw [stepAt1_G V c t h0 h1 h2 h3 p]
  rw [out1_G_3_eq]

end Region1

end Cert.KernelIdeal.Hand

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibDropUnit.lean ====
/-
  A leading axis of extent one cast away, read at an index.

  A block of shape [1, A, B] reshaped to [A, B] keeps its elements in row-major order, so entry `(p, q)` of
  the reshaped block is entry `(0, p, q)` of the block. Any extents, any element type, no program needed.
-/
import Idealize.ShloMosaic.Lib.Pipeline.Value
import Idealize.ShloMosaic.Lib.ValueIdx

namespace Cert.DropUnit

open Idealize.ShloMosaic Idealize.ShloMosaic.ValueIdx

/-- An array of shape [1, A, B] with the unit axis cast away reads, at `(p, q)`, the array at `(0, p, q)`. -/
theorem dropUnit_apply {α : Type} {A B : Nat} (x : (⟨3, ![1, A, B]⟩ : Shape).Idx → α)
    (h : (⟨3, ![1, A, B]⟩ : Shape).ShapeCasts ⟨2, ![A, B]⟩) (p : Fin A) (q : Fin B) :
    shapeCast ⟨2, ![A, B]⟩ x h (ix2 p q) = x (ix3 0 p q) := by
  refine shapeCast_apply x h (ix2 p q) (ix3 0 p q) ?_
  rw [Shape.rowMajor_val_three, Shape.rowMajor_val_two]
  show ((0 : Fin 1).val * A + p.val) * B + q.val = p.val * B + q.val
  simp

end Cert.DropUnit
-- ==== Proof.LibAddUnit.lean ====
/-
  A leading axis of extent one added, read at an index.

  An array of shape [A, B] reshaped to [1, A, B] keeps its elements in row-major order, so entry `(0, p, q)` of the
  reshaped block is entry `(p, q)` of the array. Any extents, any element type, no program needed.
-/
import Idealize.ShloMosaic.Lib.Pipeline.Value
import Idealize.ShloMosaic.Lib.ValueIdx

namespace Cert.AddUnit

open Idealize.ShloMosaic Idealize.ShloMosaic.ValueIdx

/-- An array of shape [A, B] given a leading unit axis reads, at `(u, p, q)`, the array at `(p, q)`. -/
theorem addUnit_apply {α : Type} {A B : Nat} (x : (⟨2, ![A, B]⟩ : Shape).Idx → α)
    (h : (⟨2, ![A, B]⟩ : Shape).ShapeCasts ⟨3, ![1, A, B]⟩) (u : Fin 1) (p : Fin A) (q : Fin B) :
    shapeCast ⟨3, ![1, A, B]⟩ x h (ix3 u p q) = x (ix2 p q) := by
  refine shapeCast_apply x h (ix3 u p q) (ix2 p q) ?_
  rw [Shape.rowMajor_val_three, Shape.rowMajor_val_two]
  show p.val * B + q.val = (u.val * A + p.val) * B + q.val
  have hu : u.val = 0 := by omega
  rw [hu]
  simp

end Cert.AddUnit
-- ==== Proof.KI.TileReads.lean ====
/-
  The attention tile's arithmetic and the projection tile's arithmetic, read at one index, on the extended
  reals.

  Each value a tile of the kernel stores is a pure function of the values it loaded. Here every one of them is
  read at an explicit coordinate: the scaled scores `s[r, c] = (Σ_h q[r, h] · k[c, h]) · 2⁻⁵`, the running row
  maximum `max (m[r]) (max_c s[r, c])`, the rescaling factor `exp (m[r] - m'[r])`, the shifted exponentials
  `exp (s[r, c] - m'[r])`, the running denominator `a · l + Σ_c p[r, c]`, the running numerator
  `a · acc[r, h] + Σ_c p[r, c] · v[c, h]`, the final quotient, the initial values `-∞, 0, 0`, and the
  projection `Σ_j X[r, j] · W[j, c]`. Casts between the two float formats are the identity on the extended
  reals, and casts of a shape to itself are the identity.
-/
import proofs.«103980_j45028437131996_2_alg».proof.Proof.Gen.KernelIdeal.Skeleton
import proofs.«103980_j45028437131996_2_alg».proof.Proof.LibDotNT
import proofs.«103980_j45028437131996_2_alg».proof.Proof.LibPlainDot
import proofs.«103980_j45028437131996_2_alg».proof.Proof.LibAxisFold
import proofs.«103980_j45028437131996_2_alg».proof.Proof.LibColumn
import proofs.«103980_j45028437131996_2_alg».proof.Proof.LibDropUnit
import proofs.«103980_j45028437131996_2_alg».proof.Proof.LibAddUnit
import proofs.«103980_j45028437131996_2_alg».proof.Proof.LibLogShift
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The scaled score of query row `r` against key row `c`. -/
def sfull (q k : Vec Ideal S1x1024x64 .bf16) (r c : Fin 1024) : EReal :=
  (∑ h : Fin 64, q (ix3 0 r h) * k (ix3 0 c h)) * Ideal.ofBits .f32 0x3D000000#32

/-! ## The initial values and the identity casts -/

theorem pay1_apply (r : Fin 1024) : k1_pay1 (F := Ideal) (ix2 r 0) = ⊥ := by
  unfold k1_pay1
  rw [shapeCast_self]
  exact Cert.LogShift.neg_inf

theorem pay2_apply (r : Fin 1024) : k1_pay2 (F := Ideal) (ix2 r 0) = 0 := by
  unfold k1_pay2
  rw [shapeCast_self]
  exact Ideal.ofBits_zero_f32

theorem pay3_apply (r : Fin 1024) (h : Fin 64) : k1_pay3 (F := Ideal) (ix2 r h) = 0 := by
  unfold k1_pay3
  rw [shapeCast_self]
  exact Ideal.ofBits_zero_f32

theorem pay4_eq (v : FVec Ideal S1024x64 .f32) : k1_pay4 v = v := shapeCast_self v _

theorem pay5_eq (v : FVec Ideal S1024x1 .f32) : k1_pay5 v = v := shapeCast_self v _

theorem pay7_eq (v : FVec Ideal S1024x1 .f32) : k1_pay7 v = v := shapeCast_self v _

/-! ## The three products' dimension numbers -/

theorem scoreDims : Cert.DotNT.IsNT dot_S1024x64_S1024x64_S1024x1024_1_1_0_0_n_n := ⟨rfl, rfl, rfl, rfl, rfl, rfl⟩

theorem valueDims : Cert.PlainDot.IsPlain dot_S1024x1024_S1024x64_S1024x64_1_0_0_1_n_n := ⟨rfl, rfl, rfl, rfl, rfl, rfl⟩

theorem projDims : Cert.PlainDot.IsPlain dot_S2048x1024_S1024x192_S2048x192_1_0_0_1_n_n := ⟨rfl, rfl, rfl, rfl, rfl, rfl⟩

/-! ## A full tile -/

theorem pay9_apply (q k : Vec Ideal S1x1024x64 .bf16) (r c : Fin 1024) :
    k1_pay9 (F := Ideal) q k (ix2 r c) = sfull q k r c := by
  unfold k1_pay9 sfull
  refine congrArg (fun t => t * Ideal.ofBits .f32 0x3D000000#32) ?_
  refine (Cert.DotNT.matmul_zero_apply scoreDims none _ _ r c).trans ?_
  refine Finset.sum_congr rfl fun h _ => ?_
  rw [Cert.DropUnit.dropUnit_apply, Cert.DropUnit.dropUnit_apply]

theorem pay10_apply (q k : Vec Ideal S1x1024x64 .bf16) (m : Vec Ideal S1024x1 .f32) (r : Fin 1024) :
    k1_pay10 (F := Ideal) q k m (ix2 r 0)
      = max (m (ix2 r 0)) (Cert.LogShift.cmax fun c : Fin 1024 => sfull q k r c) := by
  unfold k1_pay10
  refine congrArg (max (m (ix2 r 0))) ?_
  refine (Cert.Column.shapeCast_a_a1_apply _ _ r 0).trans ?_
  refine (Cert.AxisFold.row_max _ _ _ _ _ r).trans ?_
  exact Cert.LogShift.fold_eq_cmax _ _ _ Cert.LogShift.neg_inf fun c => pay9_apply q k r c

theorem pay11_apply (q k : Vec Ideal S1x1024x64 .bf16) (m m' : Vec Ideal S1024x1 .f32) (r : Fin 1024) :
    k1_pay11 (F := Ideal) q k m m' (ix2 r 0)
      = Ideal.exp (m' (ix2 r 0) - k1_pay10 (F := Ideal) q k m (ix2 r 0)) := by
  unfold k1_pay11
  rfl

theorem pay12_apply (q k : Vec Ideal S1x1024x64 .bf16) (m : Vec Ideal S1024x1 .f32) (r c : Fin 1024) :
    k1_pay12 (F := Ideal) q k m (ix2 r c)
      = Ideal.exp (sfull q k r c - k1_pay10 (F := Ideal) q k m (ix2 r 0)) := by
  unfold k1_pay12
  refine congrArg Ideal.exp ?_
  refine congrArg₂ (· - ·) (pay9_apply q k r c) ?_
  exact Cert.Column.broadcastTo_a1_ab_apply _ _ r c

theorem pay13_apply (q k : Vec Ideal S1x1024x64 .bf16) (m m' l : Vec Ideal S1024x1 .f32) (r : Fin 1024) :
    k1_pay13 (F := Ideal) q k m m' l (ix2 r 0)
      = Ideal.exp (m' (ix2 r 0) - k1_pay10 (F := Ideal) q k m (ix2 r 0)) * l (ix2 r 0)
        + ∑ c : Fin 1024, Ideal.exp (sfull q k r c - k1_pay10 (F := Ideal) q k m (ix2 r 0)) := by
  unfold k1_pay13
  refine (congrFun (shapeCast_self _ _) _).trans ?_
  refine congrArg₂ (· + ·) (congrArg (· * l (ix2 r 0)) (pay11_apply q k m m' r)) ?_
  refine (Cert.Column.shapeCast_a_a1_apply _ _ r 0).trans ?_
  refine (Cert.AxisFold.row_sum _ _ _ _ r).trans ?_
  exact Finset.sum_congr rfl fun c _ => pay12_apply q k m r c

theorem pay14_apply (q k : Vec Ideal S1x1024x64 .bf16) (m m' : Vec Ideal S1024x1 .f32)
    (v : Vec Ideal S1x1024x64 .bf16) (acc : Vec Ideal S1024x64 .f32) (r : Fin 1024) (h : Fin 64) :
    k1_pay14 (F := Ideal) q k m m' v acc (ix2 r h)
      = Ideal.exp (m' (ix2 r 0) - k1_pay10 (F := Ideal) q k m (ix2 r 0)) * acc (ix2 r h)
        + ∑ c : Fin 1024, Ideal.exp (sfull q k r c - k1_pay10 (F := Ideal) q k m (ix2 r 0)) * v (ix3 0 c h) := by
  unfold k1_pay14
  refine congrArg₂ (· + ·) (congrArg (· * acc (ix2 r h)) ?_) ?_
  · exact (Cert.Column.broadcastTo_a1_ab_apply _ _ r h).trans (pay11_apply q k m m' r)
  · refine (Cert.PlainDot.matmul_zero_apply valueDims none _ _ r h).trans ?_
    refine Finset.sum_congr rfl fun c _ => ?_
    exact congrArg₂ (· * ·) ((truncf_apply (ψ := .bf16) _ bitsLt_bf16_f32 _).trans (pay12_apply q k m r c))
      (Cert.DropUnit.dropUnit_apply _ _ c h)

/-! ## The last key tile's quotient -/

theorem pay8_apply (acc : Vec Ideal S1024x64 .f32) (l : Vec Ideal S1024x1 .f32) (r : Fin 1024) (h : Fin 64) :
    k1_pay8 (F := Ideal) acc l (ix3 0 r h) = Ideal.div (acc (ix2 r h)) (l (ix2 r 0)) := by
  unfold k1_pay8
  refine (Cert.AddUnit.addUnit_apply _ _ 0 r h).trans ?_
  exact congrArg (Ideal.div (acc (ix2 r h))) (Cert.Column.broadcastTo_a1_ab_apply _ _ r h)

/-! ## The projection tile -/

theorem proj_pay_apply (X : Vec Ideal S2048x1024 .f32) (W : Vec Ideal S1024x192 .f32) (r : Fin 2048) (c : Fin 192) :
    k0_pay1 (F := Ideal) X W (ix2 r c) = ∑ j : Fin 1024, X (ix2 r j) * W (ix2 j c) := by
  unfold k0_pay1
  refine (truncf_apply (ψ := .bf16) _ bitsLt_bf16_f32 _).trans ?_
  refine (Cert.PlainDot.matmul_zero_apply projDims none _ _ r c).trans ?_
  refine Finset.sum_congr rfl fun j _ => ?_
  rw [truncf_apply, truncf_apply, shapeCast_self, shapeCast_self]

end Cert.KernelIdeal.Tile

end
-- ==== Proof.KI.TileReads2.lean ====
/-
  The diagonal attention tile's arithmetic read at one index, on the extended reals.

  On the tile whose keys and queries cover the same 1024 positions, the score of query row `r` against key
  row `c` is kept when `c ≤ r` and replaced by `-∞` otherwise. Both positions are the tile's offset
  `1024 · t` (with `t < 4`) plus a coordinate below 1024, as 32-bit words; these numbers stay below 4096, so
  the signed comparison of the words is the comparison of the coordinates. The rest of the tile's update is
  that of a full tile with the masked scores in place of the scores.
-/
import proofs.«103980_j45028437131996_2_alg».proof.Proof.KI.TileReads
import Idealize.ShloMosaic.Lib.Affine
import Idealize.ShloMosaic.PureOps.IdealRules

noncomputable section

open scoped BigOperators

namespace Cert.KernelIdeal.Tile

open Cert.KernelIdeal Cert.KernelIdeal.Gen Idealize.ShloMosaic Idealize.ShloMosaic.ValueIdx

/-- The causally masked score of query row `r` against key row `c` on the diagonal tile. -/
def smask (q k : Vec Ideal S1x1024x64 .bf16) (r c : Fin 1024) : EReal :=
  if c.val ≤ r.val then sfull q k r c else ⊥

/-! ## Positions as 32-bit words -/

/-- A coordinate below 1024 plus the offset of tile `t < 4`, as a signed 32-bit word, is that number. -/
theorem tileWord_toInt (t : Fin 4) (x : Fin 1024) :
    (IntOp.addi (BitVec.ofNat 32 x.val) (Scalar.muli (BitVec.ofNat 32 t.val) 1024#32)).toInt
      = (x.val : Int) + (t.val : Int) * 1024 := by
  have ht := t.isLt
  have hx := x.isLt
  rw [BitVec.toInt_eq_toNat_cond]
  simp only [IntOp.addi, Scalar.muli, IntOp.muli, BitVec.toNat_add, BitVec.toNat_mul, BitVec.toNat_ofNat,
    Nat.reducePow, Nat.reduceMod]
  omega

/-- On one tile, the comparison of two positions is the comparison of their coordinates. -/
theorem diag_bit (t : Fin 4) (r c : Fin 1024) :
    IntOp.cmpi .sle (IntOp.addi (BitVec.ofNat 32 c.val) (Scalar.muli (BitVec.ofNat 32 t.val) 1024#32))
      (IntOp.addi (BitVec.ofNat 32 r.val) (Scalar.muli (BitVec.ofNat 32 t.val) 1024#32)) = 1#1
      ↔ c.val ≤ r.val := by
  rw [IntOp.cmpi_sle, tileWord_toInt, tileWord_toInt]
  omega

/-- A choice by that comparison is a choice by `c ≤ r`. -/
theorem select_diag {α : Type} (t : Fin 4) (r c : Fin 1024) (x y : α) :
    Scalar.select (IntOp.cmpi .sle (IntOp.addi (BitVec.ofNat 32 c.val) (Scalar.muli (BitVec.ofNat 32 t.val) 1024#32))
      (IntOp.addi (BitVec.ofNat 32 r.val) (Scalar.muli (BitVec.ofNat 32 t.val) 1024#32))) x y
      = if c.val ≤ r.val then x else y := by
  by_cases h : c.val ≤ r.val
  · exact (if_pos ((diag_bit t r c).mpr h)).trans (if_pos h).symm
  · exact (if_neg fun e => h ((diag_bit t r c).mp e)).trans (if_neg h).symm

/-- The key positions, one row broadcast down the tile: at `(r, c)` the word of `c` plus the offset. -/
theorem colWord (w : BitVec 32) (r c : Fin 1024) :
    broadcastTo S1024x1024 (addi (iota .tc S1x1024 32 [1] iota_S1x1024_d1_w32) (broadcast S1x1024 w))
        broadcasts_S1x1024_S1024x1024 (ix2 r c)
      = IntOp.addi (BitVec.ofNat 32 c.val) w :=
  (broadcastTo_1b_ab_apply _ _ r c).trans
    (congrArg (IntOp.addi · w) (iota_single_apply .tc S1x1024 32 1 iota_S1x1024_d1_w32 (ix2 0 c)))

/-- The query positions, one column broadcast across the tile: at `(r, c)` the word of `r` plus the offset. -/
theorem rowWord (w : BitVec 32) (r c : Fin 1024) :
    broadcastTo S1024x1024 (addi (iota .tc S1024x1 32 [0] iota_S1024x1_d0_w32) (broadcast S1024x1 w))
        broadcasts_S1024x1_S1024x1024 (ix2 r c)
      = IntOp.addi (BitVec.ofNat 32 r.val) w :=
  (Cert.Column.broadcastTo_a1_ab_apply _ _ r c).trans
    (congrArg (IntOp.addi · w) (iota_single_apply .tc S1024x1 32 0 iota_S1024x1_d0_w32 (ix2 r 0)))

/-- The named constant that stands for `-∞`. -/
theorem neg_big : Named.named (F := Ideal) κ "neg_big" (φ := .f32) 0xF149F2CA#32 = (⊥ : EReal) :=
  IdealRules.named_const.ideal_named_scalar _ _ _ _ rfl

/-! ## The diagonal tile -/

theorem pay15_apply (t : Fin 4) (q k : Vec Ideal S1x1024x64 .bf16) (r c : Fin 1024) :
    k1_pay15 (F := Ideal) (BitVec.ofNat 32 t.val) (BitVec.ofNat 32 t.val) q k (ix2 r c)
      = if c.val ≤ r.val then sfull q k r c else ⊥ := by
  unfold k1_pay15
  refine (select_apply _ _ _ _).trans ?_
  refine (congrArg (fun b => Scalar.select b _ _)
    (congrArg₂ (IntOp.cmpi .sle) (colWord _ r c) (rowWord _ r c))).trans ?_
  refine (select_diag t r c _ _).trans ?_
  exact congrArg₂ (fun a b => if c.val ≤ r.val then a else b) (pay9_apply q k r c) neg_big

theorem pay15_smask (t : Fin 4) (q k : Vec Ideal S1x1024x64 .bf16) (r c : Fin 1024) :
    k1_pay15 (F := Ideal) (BitVec.ofNat 32 t.val) (BitVec.ofNat 32 t.val) q k (ix2 r c) = smask q k r c :=
  pay15_apply t q k r c

theorem pay16_apply (t : Fin 4) (q k : Vec Ideal S1x1024x64 .bf16) (m : Vec Ideal S1024x1 .f32) (r : Fin 1024) :
    k1_pay16 (F := Ideal) (BitVec.ofNat 32 t.val) (BitVec.ofNat 32 t.val) q k m (ix2 r 0)
      = max (m (ix2 r 0)) (Cert.LogShift.cmax fun c : Fin 1024 => smask q k r c) := by
  unfold k1_pay16
  refine congrArg (max (m (ix2 r 0))) ?_
  refine (Cert.Column.shapeCast_a_a1_apply _ _ r 0).trans ?_
  refine (Cert.AxisFold.row_max _ _ _ _ _ r).trans ?_
  exact Cert.LogShift.fold_eq_cmax _ _ _ Cert.LogShift.neg_inf fun c => pay15_smask t q k r c

theorem pay17_apply (t : Fin 4) (q k : Vec Ideal S1x1024x64 .bf16) (m m' : Vec Ideal S1024x1 .f32) (r : Fin 1024) :
    k1_pay17 (F := Ideal) (BitVec.ofNat 32 t.val) (BitVec.ofNat 32 t.val) q k m m' (ix2 r 0)
      = Ideal.exp (m' (ix2 r 0)
          - k1_pay16 (F := Ideal) (BitVec.ofNat 32 t.val) (BitVec.ofNat 32 t.val) q k m (ix2 r 0)) := by
  unfold k1_pay17
  rfl

theorem pay18_apply (t : Fin 4) (q k : Vec Ideal S1x1024x64 .bf16) (m : Vec Ideal S1024x1 .f32) (r c : Fin 1024) :
    k1_pay18 (F := Ideal) (BitVec.ofNat 32 t.val) (BitVec.ofNat 32 t.val) q k m (ix2 r c)
      = Ideal.exp (smask q k r c
          - k1_pay16 (F := Ideal) (BitVec.ofNat 32 t.val) (BitVec.ofNat 32 t.val) q k m (ix2 r 0)) := by
  unfold k1_pay18
  refine congrArg Ideal.exp ?_
  refine congrArg₂ (· - ·) (pay15_smask t q k r c) ?_
  exact Cert.Column.broadcastTo_a1_ab_apply _ _ r c

theorem pay19_apply (t : Fin 4) (q k : Vec Ideal S1x1024x64 .bf16) (m m' l : Vec Ideal S1024x1 .f32) (r : Fin 1024) :
    k1_pay19 (F := Ideal) (BitVec.ofNat 32 t.val) (BitVec.ofNat 32 t.val) q k m m' l (ix2 r 0)
      = Ideal.exp (m' (ix2 r 0)
            - k1_pay16 (F := Ideal) (BitVec.ofNat 32 t.val) (BitVec.ofNat 32 t.val) q k m (ix2 r 0)) * l (ix2 r 0)
        + ∑ c : Fin 1024, Ideal.exp (smask q k r c
            - k1_pay16 (F := Ideal) (BitVec.ofNat 32 t.val) (BitVec.ofNat 32 t.val) q k m (ix2 r 0)) := by
  unfold k1_pay19
  refine (congrFun (shapeCast_self _ _) _).trans ?_
  refine congrArg₂ (· + ·) (congrArg (· * l (ix2 r 0)) (pay17_apply t q k m m' r)) ?_
  refine (Cert.Column.shapeCast_a_a1_apply _ _ r 0).trans ?_
  refine (Cert.AxisFold.row_sum _ _ _ _ r).trans ?_
  exact Finset.sum_congr rfl fun c _ => pay18_apply t q k m r c

/-- The diagonal tile's numerator, from the rescaling factor `a` and the shifted exponentials `p` it kept. -/
theorem pay6_apply (a : FVec Ideal S1024x1 .f32) (p : FVec Ideal S1024x1024 .f32) (v : Vec Ideal S1x1024x64 .bf16)
    (acc : Vec Ideal S1024x64 .f32) (r : Fin 1024) (h : Fin 64) :
    k1_pay6 (F := Ideal) a p v acc (ix2 r h)
      = a (ix2 r 0) * acc (ix2 r h) + ∑ c : Fin 1024, p (ix2 r c) * v (ix3 0 c h) := by
  unfold k1_pay6
  refine (congrFun (shapeCast_self _ _) _).trans ?_
  refine congrArg₂ (· + ·) (congrArg (· * acc (ix2 r h)) (Cert.Column.broadcastTo_a1_ab_apply _ _ r h)) ?_
  refine (Cert.PlainDot.matmul_zero_apply valueDims none _ _ r h).trans ?_
  exact Finset.sum_congr rfl fun c _ => congrArg (p (ix2 r c) * ·) (Cert.DropUnit.dropUnit_apply _ _ c h)

end Cert.KernelIdeal.Tile

end
-- ==== Proof.KI.TileFold.lean ====
/-
  One query tile's sweep over its key tiles is the online softmax recursion, row by row.

  Fix a query tile `t < 4` (1024 query rows) and the key and value blocks of the four key tiles. The sweep
  visits key tiles 0, …, t: tiles below `t` update the running maximum, normaliser and weighted sum with all
  their scores; tile `t` itself, on the diagonal, with the scores of the keys at or before the query and `-∞`
  for the later ones. For query row `r` the scores against all 4096 key positions, masked causally at position
  `1024 · t + r`, form one family; key tile `k` holds its positions `1024 · k + c`. Read at row `r`, the state
  after key tile `k ≤ t` is the recursion's state after `k + 1` tiles of 1024 positions of that family, and the
  stored quotient is the recursion's final quotient.
-/
import proofs.«103980_j45028437131996_2_alg».proof.Proof.KI.TileReads2
import proofs.«103980_j45028437131996_2_alg».proof.Proof.KI.TileOps
import proofs.«103980_j45028437131996_2_alg».proof.Proof.LibOnlineSoftmax

noncomputable section

open scoped BigOperators

namespace Cert.KernelIdeal.Tile

open Cert.KernelIdeal Cert.KernelIdeal.Gen Cert.KernelIdeal.Hand Idealize.ShloMosaic Idealize.ShloMosaic.ValueIdx
open Cert.OnlineSoftmax Cert.LogShift

/-! ## Positions and tiles -/

/-- The key tile visited at step `k` (only `k < 4` is ever used). -/
def kt (k : ℕ) : Fin 4 := ⟨k % 4, Nat.mod_lt k (by decide)⟩

/-- The key tile that holds position `n`. -/
def tileOf (n : Fin 4096) : Fin 4 := ⟨n.val / 1024, by have := n.isLt; omega⟩

/-- The place of position `n` inside its key tile. -/
def posOf (n : Fin 4096) : Fin 1024 := ⟨n.val % 1024, Nat.mod_lt n.val (by decide)⟩

theorem tileOf_mk (k : ℕ) (c : Fin 1024) (hk : k < 4) (h : k * 1024 + c.val < 4096) :
    tileOf ⟨k * 1024 + c.val, h⟩ = kt k :=
  Fin.ext (by
    have hc := c.isLt
    show (k * 1024 + c.val) / 1024 = k % 4
    omega)

theorem posOf_mk (k : ℕ) (c : Fin 1024) (h : k * 1024 + c.val < 4096) : posOf ⟨k * 1024 + c.val, h⟩ = c :=
  Fin.ext (by
    have hc := c.isLt
    show (k * 1024 + c.val) % 1024 = c.val
    omega)

/-- The sweep's state: running maximum, normaliser and weighted sum after key tiles `0, …, k`. -/
def upd (t : Fin 4) (q : Vec Ideal S1x1024x64 .bf16) (kb vb : Fin 4 → Vec Ideal S1x1024x64 .bf16) (k : ℕ)
    (p : St1 (F := Ideal)) : St1 (F := Ideal) :=
  if k < t.val then fullUpd1 q (kb (kt k)) (vb (kt k)) p
  else diagUpd1 (BitVec.ofNat 32 t.val) (BitVec.ofNat 32 t.val) q (kb (kt k)) (vb (kt k)) p

def tileState (t : Fin 4) (q : Vec Ideal S1x1024x64 .bf16) (kb vb : Fin 4 → Vec Ideal S1x1024x64 .bf16) :
    ℕ → St1 (F := Ideal)
  | 0 => upd t q kb vb 0 initS1
  | k + 1 => upd t q kb vb (k + 1) (tileState t q kb vb k)

/-- Query row `r` of tile `t` against all 4096 key positions, masked after position `1024 · t + r`. -/
def wrow (t : Fin 4) (q : Vec Ideal S1x1024x64 .bf16) (kb : Fin 4 → Vec Ideal S1x1024x64 .bf16) (r : Fin 1024) :
    Fin 4096 → EReal :=
  fun n => if n.val ≤ t.val * 1024 + r.val then sfull q (kb (tileOf n)) r (posOf n) else ⊥

/-- Column `h` of the values at all 4096 key positions. -/
def vcol (vb : Fin 4 → Vec Ideal S1x1024x64 .bf16) (h : Fin 64) : Fin 4096 → EReal :=
  fun n => vb (tileOf n) (ix3 0 (posOf n) h)

theorem wrow_tile (t : Fin 4) (q : Vec Ideal S1x1024x64 .bf16) (kb : Fin 4 → Vec Ideal S1x1024x64 .bf16)
    (r c : Fin 1024) (k : ℕ) (hk : k < 4) :
    ext (wrow t q kb r) (k * 1024 + c.val)
      = if k * 1024 + c.val ≤ t.val * 1024 + r.val then sfull q (kb (kt k)) r c else ⊥ := by
  have hc := c.isLt
  have hlt : k * 1024 + c.val < 4096 := by omega
  rw [ext_apply _ _ hlt]
  show (if k * 1024 + c.val ≤ t.val * 1024 + r.val
      then sfull q (kb (tileOf ⟨k * 1024 + c.val, hlt⟩)) r (posOf ⟨k * 1024 + c.val, hlt⟩) else ⊥) = _
  rw [tileOf_mk k c hk hlt, posOf_mk k c hlt]

theorem vcol_tile (vb : Fin 4 → Vec Ideal S1x1024x64 .bf16) (h : Fin 64) (k : ℕ) (hk : k < 4) (c : Fin 1024) :
    ext (vcol vb h) (k * 1024 + c.val) = vb (kt k) (ix3 0 c h) := by
  have hc := c.isLt
  have hlt : k * 1024 + c.val < 4096 := by omega
  rw [ext_apply _ _ hlt]
  show vb (tileOf ⟨k * 1024 + c.val, hlt⟩) (ix3 0 (posOf ⟨k * 1024 + c.val, hlt⟩) h) = _
  rw [tileOf_mk k c hk hlt, posOf_mk k c hlt]

/-! ## One step of the recursion, from the tile's scores and values -/

theorem stepM_of (m : EReal) (s : ℕ → EReal) (k : ℕ) (S : Fin 1024 → EReal)
    (hS : ∀ c : Fin 1024, s (k * 1024 + c.val) = S c) : stepM 1024 m s k = max m (cmax S) := by
  unfold stepM
  exact congrArg (max m) (congrArg cmax (funext hS))

theorem stepL_of (m l : EReal) (s : ℕ → EReal) (k : ℕ) (S : Fin 1024 → EReal)
    (hS : ∀ c : Fin 1024, s (k * 1024 + c.val) = S c) :
    stepL 1024 m l s k
      = Ideal.exp (m - max m (cmax S)) * l + ∑ c : Fin 1024, Ideal.exp (S c - max m (cmax S)) := by
  unfold stepL
  rw [stepM_of m s k S hS]
  exact congrArg (_ + ·) (Finset.sum_congr rfl fun c _ => by rw [hS c])

theorem stepA_of (m a : EReal) (s v : ℕ → EReal) (k : ℕ) (S V : Fin 1024 → EReal)
    (hS : ∀ c : Fin 1024, s (k * 1024 + c.val) = S c) (hV : ∀ c : Fin 1024, v (k * 1024 + c.val) = V c) :
    stepA 1024 m a s v k
      = Ideal.exp (m - max m (cmax S)) * a + ∑ c : Fin 1024, Ideal.exp (S c - max m (cmax S)) * V c := by
  unfold stepA
  rw [stepM_of m s k S hS]
  exact congrArg (_ + ·) (Finset.sum_congr rfl fun c _ => by rw [hS c, hV c])

/-! ## The two updates read at a row -/

theorem full_m (q k v : Vec Ideal S1x1024x64 .bf16) (p : St1 (F := Ideal)) (r : Fin 1024) :
    (fullUpd1 q k v p).1 (ix2 r 0) = max (p.1 (ix2 r 0)) (cmax fun c : Fin 1024 => sfull q k r c) :=
  (congrFun (pay5_eq _) _).trans (pay10_apply q k p.1 r)

theorem full_l (q k v : Vec Ideal S1x1024x64 .bf16) (p : St1 (F := Ideal)) (r : Fin 1024) :
    (fullUpd1 q k v p).2.1 (ix2 r 0)
      = Ideal.exp (p.1 (ix2 r 0) - max (p.1 (ix2 r 0)) (cmax fun c : Fin 1024 => sfull q k r c)) * p.2.1 (ix2 r 0)
        + ∑ c : Fin 1024,
            Ideal.exp (sfull q k r c - max (p.1 (ix2 r 0)) (cmax fun c : Fin 1024 => sfull q k r c)) := by
  refine (pay13_apply q k p.1 p.1 p.2.1 r).trans ?_
  rw [pay10_apply]

theorem full_a (q k v : Vec Ideal S1x1024x64 .bf16) (p : St1 (F := Ideal)) (r : Fin 1024) (h : Fin 64) :
    (fullUpd1 q k v p).2.2 (ix2 r h)
      = Ideal.exp (p.1 (ix2 r 0) - max (p.1 (ix2 r 0)) (cmax fun c : Fin 1024 => sfull q k r c)) * p.2.2 (ix2 r h)
        + ∑ c : Fin 1024,
            Ideal.exp (sfull q k r c - max (p.1 (ix2 r 0)) (cmax fun c : Fin 1024 => sfull q k r c))
              * v (ix3 0 c h) := by
  show k1_pay4 (k1_pay14 q k p.1 p.1 v p.2.2) (ix2 r h) = _
  rw [pay4_eq, pay14_apply, pay10_apply]

theorem diag_m (t : Fin 4) (q k v : Vec Ideal S1x1024x64 .bf16) (p : St1 (F := Ideal)) (r : Fin 1024) :
    (diagUpd1 (BitVec.ofNat 32 t.val) (BitVec.ofNat 32 t.val) q k v p).1 (ix2 r 0)
      = max (p.1 (ix2 r 0)) (cmax fun c : Fin 1024 => smask q k r c) :=
  (congrFun (pay7_eq _) _).trans (pay16_apply t q k p.1 r)

theorem diag_l (t : Fin 4) (q k v : Vec Ideal S1x1024x64 .bf16) (p : St1 (F := Ideal)) (r : Fin 1024) :
    (diagUpd1 (BitVec.ofNat 32 t.val) (BitVec.ofNat 32 t.val) q k v p).2.1 (ix2 r 0)
      = Ideal.exp (p.1 (ix2 r 0) - max (p.1 (ix2 r 0)) (cmax fun c : Fin 1024 => smask q k r c)) * p.2.1 (ix2 r 0)
        + ∑ c : Fin 1024,
            Ideal.exp (smask q k r c - max (p.1 (ix2 r 0)) (cmax fun c : Fin 1024 => smask q k r c)) := by
  refine (pay19_apply t q k p.1 p.1 p.2.1 r).trans ?_
  rw [pay16_apply]

theorem diag_a (t : Fin 4) (q k v : Vec Ideal S1x1024x64 .bf16) (p : St1 (F := Ideal)) (r : Fin 1024) (h : Fin 64) :
    (diagUpd1 (BitVec.ofNat 32 t.val) (BitVec.ofNat 32 t.val) q k v p).2.2 (ix2 r h)
      = Ideal.exp (p.1 (ix2 r 0) - max (p.1 (ix2 r 0)) (cmax fun c : Fin 1024 => smask q k r c)) * p.2.2 (ix2 r h)
        + ∑ c : Fin 1024,
            Ideal.exp (smask q k r c - max (p.1 (ix2 r 0)) (cmax fun c : Fin 1024 => smask q k r c))
              * v (ix3 0 c h) := by
  refine (pay6_apply _ _ v p.2.2 r h).trans ?_
  rw [pay17_apply, pay16_apply]
  refine congrArg (_ + ·) (Finset.sum_congr rfl fun c _ => ?_)
  rw [pay18_apply, pay16_apply]

/-- Key tile `k ≤ t` advances the row's state by one step of the recursion. -/
theorem upd_spec (t : Fin 4) (q : Vec Ideal S1x1024x64 .bf16) (kb vb : Fin 4 → Vec Ideal S1x1024x64 .bf16)
    (k : ℕ) (hk : k ≤ t.val) (p : St1 (F := Ideal)) (r : Fin 1024) (h : Fin 64) :
    (upd t q kb vb k p).1 (ix2 r 0) = stepM 1024 (p.1 (ix2 r 0)) (ext (wrow t q kb r)) k
    ∧ (upd t q kb vb k p).2.1 (ix2 r 0)
        = stepL 1024 (p.1 (ix2 r 0)) (p.2.1 (ix2 r 0)) (ext (wrow t q kb r)) k
    ∧ (upd t q kb vb k p).2.2 (ix2 r h)
        = stepA 1024 (p.1 (ix2 r 0)) (p.2.2 (ix2 r h)) (ext (wrow t q kb r)) (ext (vcol vb h)) k := by
  have ht := t.isLt
  have hk4 : k < 4 := by omega
  have hV : ∀ c : Fin 1024, ext (vcol vb h) (k * 1024 + c.val) = vb (kt k) (ix3 0 c h) :=
    fun c => vcol_tile vb h k hk4 c
  by_cases hlt : k < t.val
  · have hS : ∀ c : Fin 1024, ext (wrow t q kb r) (k * 1024 + c.val) = sfull q (kb (kt k)) r c := fun c =>
      (wrow_tile t q kb r c k hk4).trans (if_pos (by have := c.isLt; omega))
    have hu : upd t q kb vb k p = fullUpd1 q (kb (kt k)) (vb (kt k)) p := if_pos hlt
    rw [hu, stepM_of _ _ _ _ hS, stepL_of _ _ _ _ _ hS, stepA_of _ _ _ _ _ _ _ hS hV]
    exact ⟨full_m _ _ _ p r, full_l _ _ _ p r, full_a _ _ _ p r h⟩
  · have hkt : k = t.val := by omega
    have hS : ∀ c : Fin 1024, ext (wrow t q kb r) (k * 1024 + c.val) = smask q (kb (kt k)) r c := fun c =>
      (wrow_tile t q kb r c k hk4).trans (if_congr (by omega) rfl rfl)
    have hu : upd t q kb vb k p
        = diagUpd1 (BitVec.ofNat 32 t.val) (BitVec.ofNat 32 t.val) q (kb (kt k)) (vb (kt k)) p := if_neg hlt
    rw [hu, stepM_of _ _ _ _ hS, stepL_of _ _ _ _ _ hS, stepA_of _ _ _ _ _ _ _ hS hV]
    exact ⟨diag_m t _ _ _ p r, diag_l t _ _ _ p r, diag_a t _ _ _ p r h⟩

/-! ## The sweep -/

theorem tileState_zero (t : Fin 4) (q : Vec Ideal S1x1024x64 .bf16) (kb vb : Fin 4 → Vec Ideal S1x1024x64 .bf16) :
    tileState t q kb vb 0 = upd t q kb vb 0 initS1 := rfl

theorem tileState_succ (t : Fin 4) (q : Vec Ideal S1x1024x64 .bf16) (kb vb : Fin 4 → Vec Ideal S1x1024x64 .bf16)
    (k : ℕ) : tileState t q kb vb (k + 1) = upd t q kb vb (k + 1) (tileState t q kb vb k) := rfl

/-- After key tiles `0, …, k` (with `k ≤ t`) row `r` of the state is the recursion's state after `k + 1` tiles. -/
theorem tileState_spec (t : Fin 4) (q : Vec Ideal S1x1024x64 .bf16) (kb vb : Fin 4 → Vec Ideal S1x1024x64 .bf16)
    (k : ℕ) (hk : k ≤ t.val) (r : Fin 1024) (h : Fin 64) :
    (tileState t q kb vb k).1 (ix2 r 0) = runM 1024 (ext (wrow t q kb r)) k
    ∧ (tileState t q kb vb k).2.1 (ix2 r 0) = runL 1024 (ext (wrow t q kb r)) k
    ∧ (tileState t q kb vb k).2.2 (ix2 r h) = runA 1024 (ext (wrow t q kb r)) (ext (vcol vb h)) k := by
  induction k with
  | zero =>
    obtain ⟨h1, h2, h3⟩ := upd_spec t q kb vb 0 hk initS1 r h
    have e1 : (initS1 (F := Ideal)).1 (ix2 r 0) = ⊥ := pay1_apply r
    have e2 : (initS1 (F := Ideal)).2.1 (ix2 r 0) = 0 := pay2_apply r
    have e3 : (initS1 (F := Ideal)).2.2 (ix2 r h) = 0 := pay3_apply r h
    rw [e1] at h1
    rw [e1, e2] at h2
    rw [e1, e3] at h3
    rw [tileState_zero]
    exact ⟨h1, h2, h3⟩
  | succ k ih =>
    obtain ⟨i1, i2, i3⟩ := ih (Nat.le_of_succ_le hk)
    obtain ⟨h1, h2, h3⟩ := upd_spec t q kb vb (k + 1) hk (tileState t q kb vb k) r h
    rw [i1] at h1
    rw [i1, i2] at h2
    rw [i1, i3] at h3
    rw [tileState_succ]
    exact ⟨h1, h2, h3⟩

/-- The quotient stored at the last key tile is the recursion's final quotient. -/
theorem fin_spec (t : Fin 4) (q : Vec Ideal S1x1024x64 .bf16) (kb vb : Fin 4 → Vec Ideal S1x1024x64 .bf16)
    (r : Fin 1024) (h : Fin 64) :
    fin1 (tileState t q kb vb t.val) (ix3 0 r h)
      = Ideal.div (runA 1024 (ext (wrow t q kb r)) (ext (vcol vb h)) t.val)
          (runL 1024 (ext (wrow t q kb r)) t.val) := by
  obtain ⟨-, h2, h3⟩ := tileState_spec t q kb vb t.val le_rfl r h
  refine (pay8_apply _ _ r h).trans ?_
  rw [h2, h3]

end Cert.KernelIdeal.Tile

end
-- ==== Proof.KI.R1Fold.lean ====
/-
  The attention region's scratch after every grid point is a query tile's sweep, and its stored output is the
  online softmax recursion's quotient.

  The region's 64 points are (b, t, kv) = (n / 16, n / 4 mod 4, n mod 4): batch, query tile, key tile. Within one
  group of four points (b and t fixed) the scratch is reset at kv = 0, updated by a full key tile while kv < t,
  by the diagonal tile at kv = t, and left alone for kv > t; so after point n it is the sweep of query tile t of
  batch b over key tiles 0, …, min kv t. The blocks the points load are the true tiles of the three arrays:
  rows 1024 · t + r of the queries, rows 1024 · kv + r of the keys and values (for kv ≤ t). At kv = 3 the stored
  block is the quotient of the sweep after key tile t, which row by row is the recursion's quotient over the
  causally masked scores of query position 1024 · t + r against all 4096 key positions.
-/
import proofs.«103980_j45028437131996_2_alg».proof.Proof.KI.R1Step
import proofs.«103980_j45028437131996_2_alg».proof.Proof.KI.R1Blocks
import proofs.«103980_j45028437131996_2_alg».proof.Proof.KI.TileFold

set_option maxRecDepth 16384

noncomputable section

open scoped BigOperators

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Tile
open Cert.OnlineSoftmax Cert.LogShift

section Fold1

variable (V : (c : Dev nD) → (b : Ref sig .tc) → Buf (Elt Ideal) ((c : Thread nD τ).loc b))

/-! ## Points, tiles, and the arrays' true tiles -/

/-- The batch, the query tile and the key tile of a point. -/
def bOf (t : Fin cfg1.N) : Fin 4 := ⟨t.val / 16, by have := t.isLt; have := N1_eq; omega⟩
def qiOf (t : Fin cfg1.N) : Fin 4 := ⟨t.val / 4 % 4, Nat.mod_lt _ (by decide)⟩
def kvOf (t : Fin cfg1.N) : Fin 4 := ⟨t.val % 4, Nat.mod_lt _ (by decide)⟩

/-- Row `r` of tile `k` of batch `b`, column `h`, as an index of a [4, 4096, 64] array. -/
def tileIdx (b k : Fin 4) (r : Fin 1024) (h : Fin 64) : S4x4096x64.Idx :=
  ix3 (n0 := 4) (n1 := 4096) (n2 := 64) b ⟨k.val * 1024 + r.val, by have := k.isLt; have := r.isLt; omega⟩ h

/-- Tile `k` of batch `b` of the queries, the keys and the values. -/
def qTile (c : Dev nD) (b k : Fin 4) : Vec Ideal S1x1024x64 .bf16 := fun j => qAt V c (tileIdx b k (j 1) (j 2))
def kTile (c : Dev nD) (b k : Fin 4) : Vec Ideal S1x1024x64 .bf16 := fun j => kAt V c (tileIdx b k (j 1) (j 2))
def vTile (c : Dev nD) (b k : Fin 4) : Vec Ideal S1x1024x64 .bf16 := fun j => vAt V c (tileIdx b k (j 1) (j 2))

theorem qTile_apply (c : Dev nD) (b k : Fin 4) (r : Fin 1024) (h : Fin 64) :
    qTile V c b k (ix3 0 r h) = qAt V c (tileIdx b k r h) := rfl
theorem kTile_apply (c : Dev nD) (b k : Fin 4) (r : Fin 1024) (h : Fin 64) :
    kTile V c b k (ix3 0 r h) = kAt V c (tileIdx b k r h) := rfl
theorem vTile_apply (c : Dev nD) (b k : Fin 4) (r : Fin 1024) (h : Fin 64) :
    vTile V c b k (ix3 0 r h) = vAt V c (tileIdx b k r h) := rfl

/-- A position's tile and place give the position back. -/
theorem tileIdx_pos (b : Fin 4) (n : Fin 4096) (h : Fin 64) :
    tileIdx b (tileOf n) (posOf n) h = ix3 (n0 := 4) (n1 := 4096) (n2 := 64) b n h :=
  funext fun a => Fin.ext (by
    match a with
    | ⟨0, _⟩ => rfl
    | ⟨1, _⟩ => show n.val / 1024 * 1024 + n.val % 1024 = n.val; omega
    | ⟨2, _⟩ => rfl)

/-! ## The blocks the points load are the true tiles -/

theorem iblk1_0_tile (c : Dev nD) (t : Fin cfg1.N) :
    (iblk1 V c 0 t : Vec Ideal S1x1024x64 .bf16) = qTile V c (bOf t) (qiOf t) := by
  funext j
  obtain ⟨r, h, rfl⟩ := eq_ix3_unit j
  exact iblk1_0_apply V c t r h

theorem iblk1_1_tile (c : Dev nD) (t : Fin cfg1.N) (hle : t.val % 4 ≤ t.val / 4 % 4) :
    (iblk1 V c 1 t : Vec Ideal S1x1024x64 .bf16) = kTile V c (bOf t) (kvOf t) := by
  funext j
  obtain ⟨r, h, rfl⟩ := eq_ix3_unit j
  refine (iblk1_1_apply V c t r h).trans (congrArg (kAt V c) (funext fun a => Fin.ext ?_))
  match a with
  | ⟨0, _⟩ => rfl
  | ⟨1, _⟩ =>
    show (min (t.val % 4) (t.val / 4 % 4)) * 1024 + r.val = (t.val % 4) * 1024 + r.val
    rw [Nat.min_eq_left hle]
  | ⟨2, _⟩ => rfl

theorem iblk1_2_tile (c : Dev nD) (t : Fin cfg1.N) (hle : t.val % 4 ≤ t.val / 4 % 4) :
    (iblk1 V c 2 t : Vec Ideal S1x1024x64 .bf16) = vTile V c (bOf t) (kvOf t) := by
  funext j
  obtain ⟨r, h, rfl⟩ := eq_ix3_unit j
  refine (iblk1_2_apply V c t r h).trans (congrArg (vAt V c) (funext fun a => Fin.ext ?_))
  match a with
  | ⟨0, _⟩ => rfl
  | ⟨1, _⟩ =>
    show (min (t.val % 4) (t.val / 4 % 4)) * 1024 + r.val = (t.val % 4) * 1024 + r.val
    rw [Nat.min_eq_left hle]
  | ⟨2, _⟩ => rfl

/-! ## The families in terms of the arrays -/

/-- Query position `1024 · t + r` of batch `b` against key position `n`, masked causally. -/
theorem wrow_arrays (c : Dev nD) (b t : Fin 4) (r : Fin 1024) (n : Fin 4096) :
    wrow t (qTile V c b t) (kTile V c b) r n
      = if n.val ≤ t.val * 1024 + r.val
        then (∑ h : Fin 64, (qAt V c (tileIdx b t r h) : EReal)
            * (kAt V c (ix3 (n0 := 4) (n1 := 4096) (n2 := 64) b n h) : EReal)) * Ideal.ofBits .f32 0x3D000000#32
        else ⊥ := by
  unfold wrow sfull
  refine if_congr Iff.rfl (congrArg (· * Ideal.ofBits .f32 0x3D000000#32) (Finset.sum_congr rfl fun h _ => ?_)) rfl
  rw [qTile_apply, kTile_apply, tileIdx_pos]

/-- Column `h` of the values of batch `b` at key position `n`. -/
theorem vcol_arrays (c : Dev nD) (b : Fin 4) (h : Fin 64) (n : Fin 4096) :
    vcol (vTile V c b) h n = (vAt V c (ix3 (n0 := 4) (n1 := 4096) (n2 := 64) b n h) : EReal) := by
  unfold vcol
  rw [vTile_apply, tileIdx_pos]

/-! ## The fold -/

/-- Query tile `t` of batch `b` swept over key tiles `0, …, k`. -/
def sweep (c : Dev nD) (b t : Fin 4) (k : ℕ) : St1 (F := Ideal) :=
  tileState t (qTile V c b t) (kTile V c b) (vTile V c b) k

theorem kvOf_eq_kt (t : Fin cfg1.N) : kvOf t = kt (t.val % 4) :=
  Fin.ext (by show t.val % 4 = t.val % 4 % 4; omega)

theorem sweep_zero_full (c : Dev nD) (b t : Fin 4) (ht : 0 < t.val) :
    sweep V c b t 0 = fullUpd1 (qTile V c b t) (kTile V c b (kt 0)) (vTile V c b (kt 0)) initS1 := by
  unfold sweep
  rw [tileState_zero]
  exact if_pos ht

theorem sweep_zero_diag (c : Dev nD) (b t : Fin 4) (ht : ¬0 < t.val) :
    sweep V c b t 0 = diagUpd1 (BitVec.ofNat 32 t.val) (BitVec.ofNat 32 t.val) (qTile V c b t) (kTile V c b (kt 0))
      (vTile V c b (kt 0)) initS1 := by
  unfold sweep
  rw [tileState_zero]
  exact if_neg ht

theorem sweep_succ_full (c : Dev nD) (b t : Fin 4) (k : ℕ) (ht : k + 1 < t.val) :
    sweep V c b t (k + 1)
      = fullUpd1 (qTile V c b t) (kTile V c b (kt (k + 1))) (vTile V c b (kt (k + 1))) (sweep V c b t k) := by
  unfold sweep
  rw [tileState_succ]
  exact if_pos ht

theorem sweep_succ_diag (c : Dev nD) (b t : Fin 4) (k : ℕ) (ht : ¬k + 1 < t.val) :
    sweep V c b t (k + 1)
      = diagUpd1 (BitVec.ofNat 32 t.val) (BitVec.ofNat 32 t.val) (qTile V c b t) (kTile V c b (kt (k + 1)))
          (vTile V c b (kt (k + 1))) (sweep V c b t k) := by
  unfold sweep
  rw [tileState_succ]
  exact if_neg ht

/-- ONE POINT: if the scratch before a point with `kv ≠ 0` is the sweep over key tiles `0, …, min (kv - 1) t`,
    the scratch after it is the sweep over key tiles `0, …, min kv t`; a point with `kv = 0` starts the sweep. -/
theorem step_sweep (c : Dev nD) (t : Fin cfg1.N) (p : St1 (F := Ideal))
    (hp : ¬t.val % 4 = 0 → p = sweep V c (bOf t) (qiOf t) (min (t.val % 4 - 1) (t.val / 4 % 4))) :
    (stepAt1 V c t p).2 = sweep V c (bOf t) (qiOf t) (min (t.val % 4) (t.val / 4 % 4)) := by
  have hq : (qiOf t).val = t.val / 4 % 4 := rfl
  have hW1 : BitVec.ofNat 32 ((grid1.coords t) 1).val = BitVec.ofNat 32 (qiOf t).val :=
    congrArg (BitVec.ofNat 32) (coords1_1 t)
  by_cases h0 : t.val % 4 = 0
  · by_cases h1 : t.val % 4 < t.val / 4 % 4
    · -- the first key tile, below the diagonal
      rw [stepAt1_A_eq V c t h0 h1 p, Nat.min_eq_left (Nat.le_of_lt h1), h0,
        sweep_zero_full V c (bOf t) (qiOf t) (by rw [hq]; omega)]
      show fullUpd1 (iblk1 V c 0 t) (iblk1 V c 1 t) (iblk1 V c 2 t) initS1 = _
      rw [iblk1_0_tile V c t, iblk1_1_tile V c t (Nat.le_of_lt h1), iblk1_2_tile V c t (Nat.le_of_lt h1), kvOf_eq_kt, h0]
    · -- the first key tile is the diagonal tile
      have h2 : t.val % 4 = t.val / 4 % 4 := by omega
      have hW2 : BitVec.ofNat 32 ((grid1.coords t) 2).val = BitVec.ofNat 32 (qiOf t).val := by
        rw [coords1_2 t, hq, h2]
      rw [stepAt1_B_eq V c t h0 h2 p, Nat.min_eq_left (Nat.le_of_eq h2), h0,
        sweep_zero_diag V c (bOf t) (qiOf t) (by rw [hq]; omega)]
      show diagUpd1 _ _ (iblk1 V c 0 t) (iblk1 V c 1 t) (iblk1 V c 2 t) initS1 = _
      rw [hW1, hW2, iblk1_0_tile V c t, iblk1_1_tile V c t (Nat.le_of_eq h2), iblk1_2_tile V c t (Nat.le_of_eq h2),
        kvOf_eq_kt, h0]
  · have hp' := hp h0
    obtain ⟨k, hk⟩ : ∃ k, t.val % 4 = k + 1 := ⟨t.val % 4 - 1, by omega⟩
    by_cases h1 : t.val % 4 < t.val / 4 % 4
    · -- a later key tile below the diagonal
      rw [stepAt1_C_eq V c t h0 h1 p, hp', Nat.min_eq_left (Nat.le_of_lt h1), hk, Nat.add_sub_cancel,
        Nat.min_eq_left (by omega), sweep_succ_full V c (bOf t) (qiOf t) k (by rw [hq]; omega)]
      show fullUpd1 (iblk1 V c 0 t) (iblk1 V c 1 t) (iblk1 V c 2 t) _ = _
      rw [iblk1_0_tile V c t, iblk1_1_tile V c t (Nat.le_of_lt h1), iblk1_2_tile V c t (Nat.le_of_lt h1), kvOf_eq_kt, hk]
    · by_cases h2 : t.val % 4 = t.val / 4 % 4
      · -- the diagonal tile after key tiles below it
        have hW2 : BitVec.ofNat 32 ((grid1.coords t) 2).val = BitVec.ofNat 32 (qiOf t).val := by
          rw [coords1_2 t, hq, h2]
        have hs : (stepAt1 V c t p).2
            = diagUpd1 (BitVec.ofNat 32 ((grid1.coords t) 1).val) (BitVec.ofNat 32 ((grid1.coords t) 2).val)
                (iblk1 V c 0 t) (iblk1 V c 1 t) (iblk1 V c 2 t) p := by
          by_cases h3 : t.val % 4 = 3
          · rw [stepAt1_E_eq V c t h0 h1 h2 h3 p]
          · rw [stepAt1_D_eq V c t h0 h1 h2 h3 p]
        rw [hs, hp', Nat.min_eq_left (Nat.le_of_eq h2), hk, Nat.add_sub_cancel,
          Nat.min_eq_left (by omega), sweep_succ_diag V c (bOf t) (qiOf t) k (by rw [hq]; omega),
          hW1, hW2, iblk1_0_tile V c t, iblk1_1_tile V c t (Nat.le_of_eq h2), iblk1_2_tile V c t (Nat.le_of_eq h2),
          kvOf_eq_kt, hk]
      · -- above the diagonal the scratch is left alone
        have hs : (stepAt1 V c t p).2 = p := by
          by_cases h3 : t.val % 4 = 3
          · rw [stepAt1_G_eq V c t h0 h1 h2 h3 p]
          · rw [stepAt1_F_eq V c t h0 h1 h2 h3 p]
        rw [hs, hp', Nat.min_eq_right (by omega), Nat.min_eq_right (by omega)]

/-- THE FOLD: after point `n` the scratch is the sweep of the point's query tile over key tiles `0, …, min kv t`. -/
theorem fold1 (c : Dev nD) : ∀ (n : ℕ) (hn : n < cfg1.N),
    (outsAt1 V c n hn).2
      = sweep V c (bOf ⟨n, hn⟩) (qiOf ⟨n, hn⟩) (min (n % 4) (n / 4 % 4)) := by
  intro n
  induction n with
  | zero =>
    intro hn
    exact step_sweep V c ⟨0, hn⟩ junkS1 (fun h => absurd rfl h)
  | succ n ih =>
    intro hn
    refine step_sweep V c ⟨n + 1, hn⟩ (outsAt1 V c n (Nat.lt_of_succ_lt hn)).2 fun h0 => ?_
    have hN := N1_eq
    have h0' : ¬(n + 1) % 4 = 0 := h0
    rw [ih (Nat.lt_of_succ_lt hn)]
    have eb : bOf ⟨n, Nat.lt_of_succ_lt hn⟩ = bOf ⟨n + 1, hn⟩ := Fin.ext (by show n / 16 = (n + 1) / 16; omega)
    have eq : qiOf ⟨n, Nat.lt_of_succ_lt hn⟩ = qiOf ⟨n + 1, hn⟩ :=
      Fin.ext (by show n / 4 % 4 = (n + 1) / 4 % 4; omega)
    have e4 : n / 4 % 4 = (n + 1) / 4 % 4 := by omega
    have ek : n % 4 = (n + 1) % 4 - 1 := by omega
    rw [eb, eq]
    show sweep V c _ _ (min (n % 4) (n / 4 % 4)) = sweep V c _ _ (min ((n + 1) % 4 - 1) ((n + 1) / 4 % 4))
    rw [e4, ek]

theorem fold1_at (c : Dev nD) (t : Fin cfg1.N) :
    (outsAt1 V c t.val t.isLt).2 = sweep V c (bOf t) (qiOf t) (min (t.val % 4) (t.val / 4 % 4)) :=
  fold1 V c t.val t.isLt

/-! ## The stored output -/

/-- At the last key tile the stored block is the quotient of the scratch the point leaves. -/
theorem out_eq_fin (c : Dev nD) (t : Fin cfg1.N) (h3 : t.val % 4 = 3) (p : St1 (F := Ideal)) :
    (stepAt1 V c t p).1 = fin1 (stepAt1 V c t p).2 := by
  have h0 : ¬t.val % 4 = 0 := by omega
  have h1 : ¬t.val % 4 < t.val / 4 % 4 := by omega
  by_cases h2 : t.val % 4 = t.val / 4 % 4
  · rw [stepAt1_E_eq V c t h0 h1 h2 h3 p]
  · rw [stepAt1_G_eq V c t h0 h1 h2 h3 p]

/-- THE OUTPUT at the last key tile: the quotient of the query tile's whole sweep. -/
theorem out1_eq (c : Dev nD) (t : Fin cfg1.N) (h3 : t.val % 4 = 3) :
    (outsAt1 V c t.val t.isLt).1 = fin1 (sweep V c (bOf t) (qiOf t) (qiOf t).val) := by
  have e : (outsAt1 V c t.val t.isLt).1 = fin1 (outsAt1 V c t.val t.isLt).2 := by
    rw [outsAt1_eq V c t]
    exact out_eq_fin V c t h3 _
  rw [e, fold1_at V c t, Nat.min_eq_right (by omega)]
  rfl

/-- Row by row it is the recursion's quotient over the masked scores of the query position. -/
theorem out1_spec (c : Dev nD) (t : Fin cfg1.N) (h3 : t.val % 4 = 3) (r : Fin 1024) (h : Fin 64) :
    (outsAt1 V c t.val t.isLt).1 (ix3 0 r h)
      = Ideal.div
          (runA 1024 (ext (wrow (qiOf t) (qTile V c (bOf t) (qiOf t)) (kTile V c (bOf t)) r))
            (ext (vcol (vTile V c (bOf t)) h)) (qiOf t).val)
          (runL 1024 (ext (wrow (qiOf t) (qTile V c (bOf t) (qiOf t)) (kTile V c (bOf t)) r)) (qiOf t).val) := by
  rw [out1_eq V c t h3]
  exact fin_spec (qiOf t) (qTile V c (bOf t) (qiOf t)) (kTile V c (bOf t)) (vTile V c (bOf t)) r h

end Fold1

end Cert.KernelIdeal.Hand

end
-- ==== Proof.KI.Value.lean ====
/-
  The kernel's value, composed.

  The kernel flattens x to 16384 × 1024, stacks the weights as [Wq | Wk | Wv], computes the 16384 × 192 product in
  the projection region, slices its columns into Q, K, V regrouped as 4 batches of 4096 rows, and runs the
  attention region. So Q, K, V at (b, t, h) are the projections of x by Wq, Wk, Wv; every block the attention
  region writes back is, row by row, the tile-by-tile online softmax of the masked score row against the value
  rows, which for real inputs is the attention output; and the blocks written back cover the result array.
-/
import proofs.«103980_j45028437131996_2_alg».proof.Proof.KI.RunGlue
import proofs.«103980_j45028437131996_2_alg».proof.Proof.KI.R0Value
import proofs.«103980_j45028437131996_2_alg».proof.Proof.KI.R1Final
import proofs.«103980_j45028437131996_2_alg».proof.Proof.KI.Finite
import proofs.«103980_j45028437131996_2_alg».proof.Proof.RowBridge
import proofs.«103980_j45028437131996_2_alg».proof.Proof.KI.R1Fold

set_option maxRecDepth 16384

noncomputable section

open scoped BigOperators

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Tile
open Cert.AttnSpec Cert.OnlineSoftmax

variable (m : (ℓ : Loc nD τ sig) → Buf (Elt Ideal) ℓ) (ρ : Dev nD → PrngReg)

/-- The four argument arrays as launched, as functions of the literal index types. -/
abbrev xArg (c : Dev nD) : (⟨3, ![4, 4096, 1024]⟩ : Shape).Idx → EReal := m ((c : Thread nD τ).loc main_arg0)
abbrev wkArg (c : Dev nD) : (⟨2, ![1024, 64]⟩ : Shape).Idx → EReal := m ((c : Thread nD τ).loc main_arg1)
abbrev wqArg (c : Dev nD) : (⟨2, ![1024, 64]⟩ : Shape).Idx → EReal := m ((c : Thread nD τ).loc main_arg2)
abbrev wvArg (c : Dev nD) : (⟨2, ![1024, 64]⟩ : Shape).Idx → EReal := m ((c : Thread nD τ).loc main_arg3)

/-- The attention output of the launched arguments, as an array. -/
def attnG (c : Dev nD) : S4x4096x64.Idx → EReal :=
  fun i => attnOut (xArg m c) (wkArg m c) (wqArg m c) (wvArg m c) (i 0) (i 1) (i 2)

/-! ## Q, K, V are the projections -/

/-- The query array the attention region reads is the projection of x by Wq. -/
theorem qAt_V3 (c : Dev nD) (b : Fin 4) (t : Fin 4096) (h : Fin 64) :
    qAt (V3 (F := Ideal) m ρ) c (ix3 b t h) = proj (xArg m c) (wqArg m c) b t h := by
  have hRlt : b.val * 4096 + t.val < 16384 := by have := b.isLt; have := t.isLt; omega
  have key : (∑ j : Fin 1024, R0Value.x2At (V1 (F := Ideal) m ρ) c (ix2 (⟨b.val * 4096 + t.val, hRlt⟩ : Fin 16384) j)
        * R0Value.wAt (V1 (F := Ideal) m ρ) c (ix2 j (⟨h.val, by have := h.isLt; omega⟩ : Fin 192)) : EReal)
      = proj (xArg m c) (wqArg m c) b t h := by
    unfold proj
    exact Finset.sum_congr rfl fun j _ =>
      congrArg₂ (fun (a b : EReal) => a * b) (V1_main_v1_apply m ρ c _ j b t rfl) (V1_main_v0_apply_q m ρ c j _ h rfl)
  exact ((V3_main_v6_apply m ρ c b t h ⟨b.val * 4096 + t.val, hRlt⟩ ⟨h.val, by have := h.isLt; omega⟩ rfl rfl).trans
    ((congrFun (W2_main_v2 m ρ c) _).trans (R0Value.proj_value (V1 (F := Ideal) m ρ) c _ _))).trans key

/-- The key array is the projection of x by Wk. -/
theorem kAt_V3 (c : Dev nD) (b : Fin 4) (t : Fin 4096) (h : Fin 64) :
    kAt (V3 (F := Ideal) m ρ) c (ix3 b t h) = proj (xArg m c) (wkArg m c) b t h := by
  have hRlt : b.val * 4096 + t.val < 16384 := by have := b.isLt; have := t.isLt; omega
  have key : (∑ j : Fin 1024, R0Value.x2At (V1 (F := Ideal) m ρ) c (ix2 (⟨b.val * 4096 + t.val, hRlt⟩ : Fin 16384) j)
        * R0Value.wAt (V1 (F := Ideal) m ρ) c (ix2 j (⟨64 + h.val, by have := h.isLt; omega⟩ : Fin 192)) : EReal)
      = proj (xArg m c) (wkArg m c) b t h := by
    unfold proj
    exact Finset.sum_congr rfl fun j _ =>
      congrArg₂ (fun (a b : EReal) => a * b) (V1_main_v1_apply m ρ c _ j b t rfl) (V1_main_v0_apply_k m ρ c j _ h rfl)
  exact ((V3_main_v7_apply m ρ c b t h ⟨b.val * 4096 + t.val, hRlt⟩ ⟨64 + h.val, by have := h.isLt; omega⟩ rfl rfl).trans
    ((congrFun (W2_main_v2 m ρ c) _).trans (R0Value.proj_value (V1 (F := Ideal) m ρ) c _ _))).trans key

/-- The value array is the projection of x by Wv. -/
theorem vAt_V3 (c : Dev nD) (b : Fin 4) (t : Fin 4096) (h : Fin 64) :
    vAt (V3 (F := Ideal) m ρ) c (ix3 b t h) = proj (xArg m c) (wvArg m c) b t h := by
  have hRlt : b.val * 4096 + t.val < 16384 := by have := b.isLt; have := t.isLt; omega
  have key : (∑ j : Fin 1024, R0Value.x2At (V1 (F := Ideal) m ρ) c (ix2 (⟨b.val * 4096 + t.val, hRlt⟩ : Fin 16384) j)
        * R0Value.wAt (V1 (F := Ideal) m ρ) c (ix2 j (⟨128 + h.val, by have := h.isLt; omega⟩ : Fin 192)) : EReal)
      = proj (xArg m c) (wvArg m c) b t h := by
    unfold proj
    exact Finset.sum_congr rfl fun j _ =>
      congrArg₂ (fun (a b : EReal) => a * b) (V1_main_v1_apply m ρ c _ j b t rfl) (V1_main_v0_apply_v m ρ c j _ h rfl)
  exact ((V3_main_v8_apply m ρ c b t h ⟨b.val * 4096 + t.val, hRlt⟩ ⟨128 + h.val, by have := h.isLt; omega⟩ rfl rfl).trans
    ((congrFun (W2_main_v2 m ρ c) _).trans (R0Value.proj_value (V1 (F := Ideal) m ρ) c _ _))).trans key

/-! ## The result array -/

/-- THE KERNEL'S VALUE: with real arguments the result array after the run is the attention output. -/
theorem kernel_value (c : Dev nD)
    (hx : ∀ i, ∃ r : ℝ, xArg m c i = (r : EReal)) (hk : ∀ i, ∃ r : ℝ, wkArg m c i = (r : EReal))
    (hq : ∀ i, ∃ r : ℝ, wqArg m c i = (r : EReal)) (hwv : ∀ i, ∃ r : ℝ, wvArg m c i = (r : EReal)) :
    (W4 (F := Ideal) m ρ c (Proc.devRef .tc main_v9) : S4x4096x64.Idx → EReal)
      = fun i => attnOut (xArg m c) (wkArg m c) (wqArg m c) (wvArg m c) (i 0) (i 1) (i 2) := by
  refine (W4_main_v9 m ρ c).trans ?_
  refine final1_3 (V3 (F := Ideal) m ρ) c _ fun t ht r h => ?_
  refine (out1_spec (V3 (F := Ideal) m ρ) c t ht r h).trans ?_
  refine Cert.RowBridge.row_bridge (xArg m c) (wkArg m c) (wqArg m c) (wvArg m c) hx hk hq hwv (bOf t)
    ⟨(t.val / 4 % 4) * 1024 + r.val, by have := r.isLt; omega⟩ (qiOf t) r rfl h _ _ (fun n => ?_) (fun n => ?_)
  · rw [wrow_arrays]
    unfold wmask score
    refine if_congr Iff.rfl (congrArg (· * Ideal.ofBits .f32 0x3D000000#32) (Finset.sum_congr rfl fun h' _ => ?_)) rfl
    exact congrArg₂ (fun (a b : EReal) => a * b)
      (qAt_V3 m ρ c (bOf t) ⟨(t.val / 4 % 4) * 1024 + r.val, by have := r.isLt; omega⟩ h') (kAt_V3 m ρ c (bOf t) n h')
  · exact (vcol_arrays (V3 (F := Ideal) m ρ) c (bOf t) h n).trans (vAt_V3 m ρ c (bOf t) n h)

/-- THE KERNEL'S RUN with its value: under the precondition every weakly fair execution terminates with the result
    array at the attention output of the launched arguments and the four arguments unchanged. -/
theorem run_value [hP : Cert.Pre_finite_inputs.Facts] (hpre : Cert.Pre_KernelIdeal m) :
    θ_run defs (onTc (τ := τ) (main (F := Ideal))) ⟨m, fun _ => 0, ρ⟩ (fun r => ∀ c : Dev nD,
      r.2.mem ((c.tc : Thread nD τ).loc main_v9)
        = (fun i => Cert.AttnSpec.attnOut (m ((c.tc : Thread nD τ).loc main_arg0)) (m ((c.tc : Thread nD τ).loc main_arg1))
            (m ((c.tc : Thread nD τ).loc main_arg2)) (m ((c.tc : Thread nD τ).loc main_arg3)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v9 (by decide))).trans
        (kernel_value m ρ c (finite_of_pre m hpre c).1 (finite_of_pre m hpre c).2.1 (finite_of_pre m hpre c).2.2.1
          (finite_of_pre m hpre c).2.2.2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.KernelIdeal.Hand

end
-- ==== Proof.Claims.lean ====
/- The five claims of this certificate, each as a theorem: the three programs run and leave their arguments as
   launched; the idealized kernel is the kernel with its one masking constant named and read as -∞; and, on the
   extended reals and finite inputs, the idealized kernel's result array and the reference's are one function of the
   four arguments — causal softmax attention of the projected input. -/
import proofs.«103980_j45028437131996_2_alg».proof.Defs
import proofs.«103980_j45028437131996_2_alg».proof.Proof.Gen.Kernel
import proofs.«103980_j45028437131996_2_alg».proof.Proof.Gen.KernelIdeal
import proofs.«103980_j45028437131996_2_alg».proof.Proof.Gen.ReferenceIdeal
import proofs.«103980_j45028437131996_2_alg».proof.Proof.Gen.Pre_finite_inputs
import proofs.«103980_j45028437131996_2_alg».proof.Proof.Gen.ReferenceIdeal.Run
import proofs.«103980_j45028437131996_2_alg».proof.Proof.RefRead
import proofs.«103980_j45028437131996_2_alg».proof.Proof.K.Run
import proofs.«103980_j45028437131996_2_alg».proof.Proof.KI.Run
import proofs.«103980_j45028437131996_2_alg».proof.Proof.KI.Value
import Idealize.ShloMosaic.PureOps.IdealRules

noncomputable section

open Idealize.ShloMosaic Idealize.ShloMosaic.TcCoe Idealize.SL.Sem

namespace Cert.Proof.Claims

open Idealize.ShloMosaic.ValueIdx

/-- The kernel as printed runs and leaves its four arguments as launched. -/
theorem frame_p : Cert.frame_Kernel := fun m ρ _ => Cert.Kernel.Hand.frame m ρ

/-- The idealized kernel runs and leaves its four arguments as launched. -/
theorem frame_pi : Cert.frame_KernelIdeal := fun m ρ _ => Cert.KernelIdeal.Hand.frame m ρ

/-- The idealized reference runs and leaves its four arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the masking constant is named, and the certificate's table reads the name
    as -∞. -/
theorem preserves : Cert.preserves_Kernel_KernelIdeal :=
  IdealRules.named_const.statement Cert.KernelIdeal.κ "neg_big" .f32 0xF149F2CA#32 ⊥ rfl

/-- The reference's result array, from a memory that agrees with the kernel's on the four arguments, is the
    attention output of the kernel's arguments. -/
theorem ref_result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.res_main_v20 (F := Ideal) m' c : (⟨3, ![4, 4096, 64]⟩ : Shape).Idx → EReal)
      = fun i => Cert.AttnSpec.attnOut (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (i 0) (i 1) (i 2) := by
  funext i
  obtain ⟨b, t, h, rfl⟩ : ∃ (b : Fin 4) (t : Fin 4096) (h : Fin 64), i = ix3 b t h := ⟨i 0, i 1, i 2, eq_ix3 i⟩
  refine (Cert.ReferenceIdeal.RefRead.res_out0_at m' c b t h).trans ?_
  rw [hagree.1, hagree.2.1, hagree.2.2.1, hagree.2.2.2]
  rfl

/-- On the extended reals, from memories that agree on the four finite arguments, both programs run, leave the
    arguments as launched, and end with one result: at batch b, position t, feature h, the softmax over the key
    positions up to t of the scaled scores, weighting the value rows. -/
theorem algebraic : Cert.algebraic_KernelIdeal_ReferenceIdeal := by
  intro m ρ m' ρ' hpre hagree
  refine ⟨_, Cert.KernelIdeal.Hand.run_value m ρ hpre, ?_⟩
  refine (θ_run Cert.ReferenceIdeal.defs _ _).mono (fun _ h c => ⟨(h c).1.trans ?_, (h c).2⟩)
    (Cert.ReferenceIdeal.Value.run (F := Ideal) m' ρ')
  exact ref_result_eq m m' c (hagree c)

end Cert.Proof.Claims

end
-- ==== Proof.lean ====
/-
  Single-head causal attention, computed two ways.

  The kernel projects x (4 × 4096 × 1024) against the concatenated weights [Wq | Wk | Wv] in one matrix product
  (row tiles of 2048), slices the product into Q, K, V, and then sweeps, for every batch and every tile of 1024
  queries, the key tiles 0, 1, … up to the diagonal one, keeping per query row a running maximum m, a running
  normaliser l and a running weighted sum a of the values:

      m' = max m (max_j s_j),   l' = exp (m - m') · l + Σ_j exp (s_j - m'),   a' = exp (m - m') · a + Σ_j exp (s_j - m') · v_j,

  with s = (q · k) / 32, started from m = -∞, l = 0, a = 0; on the diagonal tile the scores above the diagonal are
  replaced by a fill that stands for -∞; key tiles above the diagonal are skipped; after the last key tile the
  output row is a / l. The reference forms all 4096 × 4096 scores per batch, replaces those above the diagonal by
  -∞, and takes softmax(scores) · V.

  Over the extended reals, for inputs that are real numbers, the two agree entry by entry. Every tile that is swept
  has a real score in every row, so from the first tile on m is the real maximum μ of the scores seen, and
  l = Σ exp (s - μ), a = Σ exp (s - μ) · v over the positions seen, because exp (μ_old - μ) · exp (s - μ_old) =
  exp (s - μ); a filled score contributes exp (-∞ - μ) = 0 to both sums, exactly as the reference's masked scores
  do (and 0 · v = 0 for a real v, which is what lets the kernel skip the tiles above the diagonal); dividing the
  real sum a by the positive real l distributes over the sum. The change of float format between the projection
  and the attention sweep is the identity at this instance, and a product accumulated into zero is the plain sum.

  The three frame claims: each kernel's two regions are run by the launch rule for a program of several regions,
  the attention region's invariant carrying the three scratch buffers at the contents the point before left; the
  reference's frame is its run with the result dropped. The one rewrite of the idealization — the fill read as -∞ —
  is its rule's statement.
-/
import proofs.«103980_j45028437131996_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
